-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v82)) (v1 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_v96) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v123) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part5 {F : FTy → Type} [FloatOps F] (main_arg19 : FVec F S128 .f32) (main_v83 : IVec S_ 1) (main_v84 : FVec F S256x128 .f32) (main_cst_32 : FVec F S_ .f32) : IVec S_ 1 :=
  let main_v85 : FVec F S256x128 .f32 := broadcastInDim S256x128 ![] bcast_S_S256x128 main_cst_32
  let main_v86 : IVec S256x128 1 := cmpf .olt main_v84 main_v85
  let main_c_33 : IVec S_ 1 := constantI S_ 1 1#1
  let main_v87 : IVec S_ 1 := (fun x v => Host.reduce IntOp.andi x v reducesTo_S256x128_S_d0_1 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  main_v93

def fn_part4 {F : FTy → Type} [FloatOps F] (main_arg15 : FVec F S256x128 .f32) (main_arg16 : FVec F S128 .f32) (main_arg17 : FVec F S256x128 .f32) (main_arg18 : FVec F S256x128 .f32) (main_arg19 : FVec F S128 .f32) (main_v63 : IVec S_ 1) (main_v67 : IVec S_ 1) : IVec S_ 1 :=
  let main_v68 : IVec S_ 1 := andi main_v63 main_v67
  let main_v69 : FVec F S256x128 .f32 := Host.absf main_arg15
  let main_cst_26 : FVec F S_ .f32 := constant S_ .f32 0x7F800000#32
  let main_v70 : FVec F S256x128 .f32 := broadcastInDim S256x128 ![] bcast_S_S256x128 main_cst_26
  let main_v71 : IVec S256x128 1 := cmpf .olt main_v69 main_v70
  let main_c_27 : IVec S_ 1 := constantI S_ 1 1#1
  let main_v72 : IVec S_ 1 := (fun x v => Host.reduce IntOp.andi x v reducesTo_S256x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S256x128 .f32 := Host.absf main_arg17
  let main_cst_30 : FVec F S_ .f32 := constant S_ .f32 0x7F800000#32
  let main_v80 : FVec F S256x128 .f32 := broadcastInDim S256x128 ![] bcast_S_S256x128 main_cst_30
  let main_v81 : IVec S256x128 1 := cmpf .olt main_v79 main_v80
  let main_c_31 : IVec S_ 1 := constantI S_ 1 1#1
  let main_v82 : IVec S_ 1 := (fun x v => Host.reduce IntOp.andi x v reducesTo_S256x128_S_d0_1 h_S_) main_v81 main_c_31
  let main_v83 : IVec S_ 1 := andi main_v78 main_v82
  let main_v84 : FVec F S256x128 .f32 := Host.absf main_arg18
  let main_cst_32 : FVec F S_ .f32 := constant S_ .f32 0x7F800000#32
  fn_part5 (F := F) main_arg19 main_v83 main_v84 main_cst_32

def fn_part3 {F : FTy → Type} [FloatOps F] (main_arg12 : FVec F S256x256 .f32) (main_arg13 : FVec F S256 .f32) (main_arg14 : FVec F S256x128 .f32) (main_arg15 : FVec F S256x128 .f32) (main_arg16 : FVec F S128 .f32) (main_arg17 : FVec F S256x128 .f32) (main_arg18 : FVec F S256x128 .f32) (main_arg19 : FVec F S128 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256x256 .f32 := Host.absf main_arg12
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x128 .f32 := Host.absf main_arg14
  let main_cst_24 : FVec F S_ .f32 := constant S_ .f32 0x7F800000#32
  let main_v65 : FVec F S256x128 .f32 := broadcastInDim S256x128 ![] bcast_S_S256x128 main_cst_24
  let main_v66 : IVec S256x128 1 := cmpf .olt main_v64 main_v65
  let main_c_25 : IVec S_ 1 := constantI S_ 1 1#1
  let main_v67 : IVec S_ 1 := (fun x v => Host.reduce IntOp.andi x v reducesTo_S256x128_S_d0_1 h_S_) main_v66 main_c_25
  fn_part4 (F := F) main_arg15 main_arg16 main_arg17 main_arg18 main_arg19 main_v63 main_v67

def fn_part2 {F : FTy → Type} [FloatOps F] (main_arg8 : FVec F S256x256 .f32) (main_arg9 : FVec F S256x256 .f32) (main_arg10 : FVec F S256 .f32) (main_arg11 : FVec F S256x256 .f32) (main_arg12 : FVec F S256x256 .f32) (main_arg13 : FVec F S256 .f32) (main_arg14 : FVec F S256x128 .f32) (main_arg15 : FVec F S256x128 .f32) (main_arg16 : FVec F S128 .f32) (main_arg17 : FVec F S256x128 .f32) (main_arg18 : FVec F S256x128 .f32) (main_arg19 : FVec F S128 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg11
  let main_cst_18 : FVec F S_ .f32 := constant S_ .f32 0x7F800000#32
  let main_v50 : FVec F S256x256 .f32 := broadcastInDim S256x256 ![] bcast_S_S256x256 main_cst_18
  fn_part3 (F := F) main_arg12 main_arg13 main_arg14 main_arg15 main_arg16 main_arg17 main_arg18 main_arg19 main_v48 main_v49 main_v50

def fn_part1 {F : FTy → Type} [FloatOps F] (main_arg5 : FVec F S256x256 .f32) (main_arg6 : FVec F S256x256 .f32) (main_arg7 : FVec F S256 .f32) (main_arg8 : FVec F S256x256 .f32) (main_arg9 : FVec F S256x256 .f32) (main_arg10 : FVec F S256 .f32) (main_arg11 : FVec F S256x256 .f32) (main_arg12 : FVec F S256x256 .f32) (main_arg13 : FVec F S256 .f32) (main_arg14 : FVec F S256x128 .f32) (main_arg15 : FVec F S256x128 .f32) (main_arg16 : FVec F S128 .f32) (main_arg17 : FVec F S256x128 .f32) (main_arg18 : FVec F S256x128 .f32) (main_arg19 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_v33

def fn {F : FTy → Type} [FloatOps F] (main_arg0 : FVec F S50000x256 .f32) (main_arg1 : IVec S2x800000 32) (main_arg2 : FVec F S256x256 .f32) (main_arg3 : FVec F S256x256 .f32) (main_arg4 : FVec F S256 .f32) (main_arg5 : FVec F S256x256 .f32) (main_arg6 : FVec F S256x256 .f32) (main_arg7 : FVec F S256 .f32) (main_arg8 : FVec F S256x256 .f32) (main_arg9 : FVec F S256x256 .f32) (main_arg10 : FVec F S256 .f32) (main_arg11 : FVec F S256x256 .f32) (main_arg12 : FVec F S256x256 .f32) (main_arg13 : FVec F S256 .f32) (main_arg14 : FVec F S256x128 .f32) (main_arg15 : FVec F S256x128 .f32) (main_arg16 : FVec F S128 .f32) (main_arg17 : FVec F S256x128 .f32) (main_arg18 : FVec F S256x128 .f32) (main_arg19 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x256 : Shape := ⟨2, ![800000, 256]⟩
abbrev S1x256 : Shape := ⟨2, ![1, 256]⟩
abbrev S2000x256 : Shape := ⟨2, ![2000, 256]⟩
abbrev S1x128 : Shape := ⟨2, ![1, 128]⟩
abbrev S50000x128 : Shape := ⟨2, ![50000, 128]⟩
abbrev S2000x128 : Shape := ⟨2, ![2000, 128]⟩

abbrev nBuf : Space → Nat
  | .hbm => 139
  | .vmem => 54
  | .smem => 0
  | _ => 0

abbrev hbmTy0_0 (i : Nat) : BufTy := match i % 128 with
  | 0 => ⟨S50000x256, .f32⟩
  | 1 => ⟨S2x800000, .i32⟩
  | 2 => ⟨S256x256, .f32⟩
  | 3 => ⟨S256x256, .f32⟩
  | 4 => ⟨S256, .f32⟩
  | 5 => ⟨S256x256, .f32⟩
  | 6 => ⟨S256x256, .f32⟩
  | 7 => ⟨S256, .f32⟩
  | 8 => ⟨S256x256, .f32⟩
  | 9 => ⟨S256x256, .f32⟩
  | 10 => ⟨S256, .f32⟩
  | 11 => ⟨S256x256, .f32⟩
  | 12 => ⟨S256x256, .f32⟩
  | 13 => ⟨S256, .f32⟩
  | 14 => ⟨S256x128, .f32⟩
  | 15 => ⟨S256x128, .f32⟩
  | 16 => ⟨S128, .f32⟩
  | 17 => ⟨S256x128, .f32⟩
  | 18 => ⟨S256x128, .f32⟩
  | 19 => ⟨S128, .f32⟩
  | 20 => ⟨S1x800000, .i32⟩
  | 21 => ⟨S800000, .i32⟩
  | 22 => ⟨S1x800000, .i32⟩
  | 23 => ⟨S800000, .i32⟩
  | 24 => ⟨S_, .f32⟩
  | 25 => ⟨S800000, .f32⟩
  | 26 => ⟨S_, .f32⟩
  | 27 => ⟨S50000, .f32⟩
  | 28 => ⟨S800000x1, .i32⟩
  | 29 => ⟨S50000, .f32⟩
  | 30 => ⟨S_, .f32⟩
  | 31 => ⟨S50000, .f32⟩
  | 32 => ⟨S50000, .f32⟩
  | 33 => ⟨S_, .f32⟩
  | 34 => ⟨S50000, .f32⟩
  | 35 => ⟨S50000, .f32⟩
  | 36 => ⟨S50000x1, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x256, .f32⟩
  | 46 => ⟨S_, .f32⟩
  | 47 => ⟨S50000x256, .f32⟩
  | 48 => ⟨S800000x1, .i32⟩
  | 49 => ⟨S50000x256, .f32⟩
  | 50 => ⟨S50000x256, .f32⟩
  | 51 => ⟨S50000x256, .f32⟩
  | 52 => ⟨S1x256, .f32⟩
  | 53 => ⟨S50000x256, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x256, .f32⟩
  | 63 => ⟨S_, .f32⟩
  | 64 => ⟨S50000x256, .f32⟩
  | 65 => ⟨S800000x1, .i32⟩
  | 66 => ⟨S50000x256, .f32⟩
  | 67 => ⟨S50000x256, .f32⟩
  | 68 => ⟨S50000x256, .f32⟩
  | 69 => ⟨S1x256, .f32⟩
  | 70 => ⟨S50000x256, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x256, .f32⟩
  | 80 => ⟨S_, .f32⟩
  | 81 => ⟨S50000x256, .f32⟩
  | 82 => ⟨S800000x1, .i32⟩
  | 83 => ⟨S50000x256, .f32⟩
  | 84 => ⟨S50000x256, .f32⟩
  | 85 => ⟨S50000x256, .f32⟩
  | 86 => ⟨S1x256, .f32⟩
  | 87 => ⟨S50000x256, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x256, .f32⟩
  | 97 => ⟨S_, .f32⟩
  | 98 => ⟨S50000x256, .f32⟩
  | 99 => ⟨S800000x1, .i32⟩
  | 100 => ⟨S50000x256, .f32⟩
  | 101 => ⟨S50000x256, .f32⟩
  | 102 => ⟨S50000x256, .f32⟩
  | 103 => ⟨S1x256, .f32⟩
  | 104 => ⟨S50000x256, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x256, .f32⟩
  | 114 => ⟨S_, .f32⟩
  | 115 => ⟨S50000x256, .f32⟩
  | 116 => ⟨S800000x1, .i32⟩
  | 117 => ⟨S50000x256, .f32⟩
  | 118 => ⟨S50000x256, .f32⟩
  | 119 => ⟨S50000x256, .f32⟩
  | 120 => ⟨S1x128, .f32⟩
  | 121 => ⟨S50000x128, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x256, .f32⟩

abbrev hbmTy0_1 (i : Nat) : BufTy := match i % 128 with
  | 0 => ⟨S800000, .i32⟩
  | 1 => ⟨S800000x1, .i32⟩
  | 2 => ⟨S800000x256, .f32⟩
  | 3 => ⟨S_, .f32⟩
  | 4 => ⟨S50000x256, .f32⟩
  | 5 => ⟨S800000x1, .i32⟩
  | 6 => ⟨S50000x256, .f32⟩
  | 7 => ⟨S50000x256, .f32⟩
  | 8 => ⟨S50000x256, .f32⟩
  | 9 => ⟨S1x128, .f32⟩
  | 10 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .f32⟩
  | .local _ .vmem, ⟨5, _⟩ => ⟨S256x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S256x256, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x256, .f32⟩
  | .local _ .vmem, ⟨23, _⟩ => ⟨S256x256, .f32⟩
  | .local _ .vmem, ⟨24, _⟩ => ⟨S1x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S256x256, .f32⟩
  | .local _ .vmem, ⟨32, _⟩ => ⟨S256x256, .f32⟩
  | .local _ .vmem, ⟨33, _⟩ => ⟨S1x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S2000x256, .f32⟩
  | .local _ .vmem, ⟨39, _⟩ => ⟨S2000x256, .f32⟩
  | .local _ .vmem, ⟨40, _⟩ => ⟨S256x128, .f32⟩
  | .local _ .vmem, ⟨41, _⟩ => ⟨S256x128, .f32⟩
  | .local _ .vmem, ⟨42, _⟩ => ⟨S1x128, .f32⟩
  | .local _ .vmem, ⟨43, _⟩ => ⟨S2000x128, .f32⟩
  | .local _ .vmem, ⟨44, _⟩ => ⟨S2000x128, .f32⟩
  | .local _ .vmem, ⟨45, _⟩ => ⟨S2000x256, .f32⟩
  | .local _ .vmem, ⟨46, _⟩ => ⟨S2000x256, .f32⟩
  | .local _ .vmem, ⟨47, _⟩ => ⟨S2000x256, .f32⟩
  | .local _ .vmem, ⟨48, _⟩ => ⟨S2000x256, .f32⟩
  | .local _ .vmem, ⟨49, _⟩ => ⟨S256x128, .f32⟩
  | .local _ .vmem, ⟨50, _⟩ => ⟨S256x128, .f32⟩
  | .local _ .vmem, ⟨51, _⟩ => ⟨S1x128, .f32⟩
  | .local _ .vmem, ⟨52, _⟩ => ⟨S2000x128, .f32⟩
  | .local _ .vmem, ⟨53, _⟩ => ⟨S2000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_1 : Ref sig .tc := ⟨.hbm, 30, rfl⟩
abbrev main_v8 : Ref sig .tc := ⟨.hbm, 31, rfl⟩
abbrev main_v9 : Ref sig .tc := ⟨.hbm, 32, rfl⟩
abbrev main_cst_2 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_c : Ref sig .tc := ⟨.hbm, 37, rfl⟩
abbrev main_v13 : Ref sig .tc := ⟨.hbm, 38, rfl⟩
abbrev main_v14 : Ref sig .tc := ⟨.hbm, 39, rfl⟩
abbrev main_c_3 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst_4 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_c_5 : Ref sig .tc := ⟨.hbm, 54, rfl⟩
abbrev main_v27 : Ref sig .tc := ⟨.hbm, 55, rfl⟩
abbrev main_v28 : Ref sig .tc := ⟨.hbm, 56, rfl⟩
abbrev main_c_6 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_7 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_c_8 : Ref sig .tc := ⟨.hbm, 71, rfl⟩
abbrev main_v41 : Ref sig .tc := ⟨.hbm, 72, rfl⟩
abbrev main_v42 : Ref sig .tc := ⟨.hbm, 73, rfl⟩
abbrev main_c_9 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_10 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_c_11 : Ref sig .tc := ⟨.hbm, 88, rfl⟩
abbrev main_v55 : Ref sig .tc := ⟨.hbm, 89, rfl⟩
abbrev main_v56 : Ref sig .tc := ⟨.hbm, 90, rfl⟩
abbrev main_c_12 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_13 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_c_14 : Ref sig .tc := ⟨.hbm, 105, rfl⟩
abbrev main_v69 : Ref sig .tc := ⟨.hbm, 106, rfl⟩
abbrev main_v70 : Ref sig .tc := ⟨.hbm, 107, rfl⟩
abbrev main_c_15 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_16 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_c_17 : Ref sig .tc := ⟨.hbm, 122, rfl⟩
abbrev main_v83 : Ref sig .tc := ⟨.hbm, 123, rfl⟩
abbrev main_v84 : Ref sig .tc := ⟨.hbm, 124, rfl⟩
abbrev main_c_18 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_19 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg5_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem5_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S256x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S256x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  shapeCasts_S128_S1x128 : S128.ShapeCasts S1x128
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  scatter_S50000_S800000x1_S800000_n_0_0_1_wf : ScatterDims.WF S50000 S800000x1 S800000 [] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .f32 = 32 ∨ (Rect.block (s := S50000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S50000x256.size a
  hwx3_5 : ∀ i : grid3.Coords, EltTy.bits .f32 = 32 ∨ (Rect.block (s := S50000x256) S2000x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S50000x256.size a
  hwx4_1 : ∀ i : grid4.Coords, EltTy.bits .f32 = 32 ∨ (Rect.block (s := S50000x256) S2000x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x128.size a ≤ S256x128.size a
  hwx4_2 : ∀ i : grid4.Coords, EltTy.bits .f32 = 32 ∨ (Rect.block (s := S256x128) S256x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x128.size a ≤ S256x128.size a
  hwx4_3 : ∀ i : grid4.Coords, EltTy.bits .f32 = 32 ∨ (Rect.block (s := S256x128) S256x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x128.size a ≤ S50000x128.size a
  hwx4_5 : ∀ i : grid4.Coords, EltTy.bits .f32 = 32 ∨ (Rect.block (s := S50000x128) S2000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x256.size a ≤ S50000x256.size a
  hwx5_1 : ∀ i : grid5.Coords, EltTy.bits .f32 = 32 ∨ (Rect.block (s := S50000x256) S2000x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x128.size a ≤ S256x128.size a
  hwx5_2 : ∀ i : grid5.Coords, EltTy.bits .f32 = 32 ∨ (Rect.block (s := S256x128) S256x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x128.size a ≤ S256x128.size a
  hwx5_3 : ∀ i : grid5.Coords, EltTy.bits .f32 = 32 ∨ (Rect.block (s := S256x128) S256x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x128.size a ≤ S50000x128.size a
  hwx5_5 : ∀ i : grid5.Coords, EltTy.bits .f32 = 32 ∨ (Rect.block (s := S50000x128) S2000x128.size (cc5_transform_5 i) (hinb5_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v24) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v66) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg12) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v67) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v68) S2000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v80) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v68) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg14) S256x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg15) S256x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v81) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v82) S2000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v94) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v68) S2000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg17) S256x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg18) S256x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v95) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v96) S2000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x256 : Shape := ⟨2, ![800000, 256]⟩
abbrev S1x256 : Shape := ⟨2, ![1, 256]⟩
abbrev S50000x128 : Shape := ⟨2, ![50000, 128]⟩
abbrev S1x128 : Shape := ⟨2, ![1, 128]⟩

abbrev nBuf : Space → Nat
  | .hbm => 184
  | .vmem => 0
  | .smem => 0
  | _ => 0

abbrev hbmTy0_0 (i : Nat) : BufTy := match i % 128 with
  | 0 => ⟨S50000x256, .f32⟩
  | 1 => ⟨S2x800000, .i32⟩
  | 2 => ⟨S256x256, .f32⟩
  | 3 => ⟨S256x256, .f32⟩
  | 4 => ⟨S256, .f32⟩
  | 5 => ⟨S256x256, .f32⟩
  | 6 => ⟨S256x256, .f32⟩
  | 7 => ⟨S256, .f32⟩
  | 8 => ⟨S256x256, .f32⟩
  | 9 => ⟨S256x256, .f32⟩
  | 10 => ⟨S256, .f32⟩
  | 11 => ⟨S256x256, .f32⟩
  | 12 => ⟨S256x256, .f32⟩
  | 13 => ⟨S256, .f32⟩
  | 14 => ⟨S256x128, .f32⟩
  | 15 => ⟨S256x128, .f32⟩
  | 16 => ⟨S128, .f32⟩
  | 17 => ⟨S256x128, .f32⟩
  | 18 => ⟨S256x128, .f32⟩
  | 19 => ⟨S128, .f32⟩
  | 20 => ⟨S1x800000, .i32⟩
  | 21 => ⟨S800000, .i32⟩
  | 22 => ⟨S1x800000, .i32⟩
  | 23 => ⟨S800000, .i32⟩
  | 24 => ⟨S_, .f32⟩
  | 25 => ⟨S800000, .f32⟩
  | 26 => ⟨S_, .f32⟩
  | 27 => ⟨S50000, .f32⟩
  | 28 => ⟨S800000x1, .i32⟩
  | 29 => ⟨S50000, .f32⟩
  | 30 => ⟨S_, .f32⟩
  | 31 => ⟨S50000, .f32⟩
  | 32 => ⟨S50000, .f32⟩
  | 33 => ⟨S_, .f32⟩
  | 34 => ⟨S50000, .f32⟩
  | 35 => ⟨S50000, .f32⟩
  | 36 => ⟨S50000x1, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x256, .f32⟩
  | 46 => ⟨S_, .f32⟩
  | 47 => ⟨S50000x256, .f32⟩
  | 48 => ⟨S800000x1, .i32⟩
  | 49 => ⟨S50000x256, .f32⟩
  | 50 => ⟨S50000x256, .f32⟩
  | 51 => ⟨S50000x256, .f32⟩
  | 52 => ⟨S50000x256, .f32⟩
  | 53 => ⟨S1x256, .f32⟩
  | 54 => ⟨S50000x256, .f32⟩
  | 55 => ⟨S50000x256, .f32⟩
  | 56 => ⟨S50000x256, .f32⟩
  | 57 => ⟨S50000x256, .f32⟩
  | 58 => ⟨S_, .f32⟩
  | 59 => ⟨S50000x256, .f32⟩
  | 60 => ⟨S50000x256, .i1⟩
  | 61 => ⟨S_, .f32⟩
  | 62 => ⟨S50000x256, .f32⟩
  | 63 => ⟨S50000x256, .f32⟩
  | 64 => ⟨S50000x256, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x256, .f32⟩
  | 74 => ⟨S_, .f32⟩
  | 75 => ⟨S50000x256, .f32⟩
  | 76 => ⟨S800000x1, .i32⟩
  | 77 => ⟨S50000x256, .f32⟩
  | 78 => ⟨S50000x256, .f32⟩
  | 79 => ⟨S50000x256, .f32⟩
  | 80 => ⟨S50000x256, .f32⟩
  | 81 => ⟨S1x256, .f32⟩
  | 82 => ⟨S50000x256, .f32⟩
  | 83 => ⟨S50000x256, .f32⟩
  | 84 => ⟨S50000x256, .f32⟩
  | 85 => ⟨S50000x256, .f32⟩
  | 86 => ⟨S_, .f32⟩
  | 87 => ⟨S50000x256, .f32⟩
  | 88 => ⟨S50000x256, .i1⟩
  | 89 => ⟨S_, .f32⟩
  | 90 => ⟨S50000x256, .f32⟩
  | 91 => ⟨S50000x256, .f32⟩
  | 92 => ⟨S50000x256, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x256, .f32⟩
  | 102 => ⟨S_, .f32⟩
  | 103 => ⟨S50000x256, .f32⟩
  | 104 => ⟨S800000x1, .i32⟩
  | 105 => ⟨S50000x256, .f32⟩
  | 106 => ⟨S50000x256, .f32⟩
  | 107 => ⟨S50000x256, .f32⟩
  | 108 => ⟨S50000x256, .f32⟩
  | 109 => ⟨S1x256, .f32⟩
  | 110 => ⟨S50000x256, .f32⟩
  | 111 => ⟨S50000x256, .f32⟩
  | 112 => ⟨S50000x256, .f32⟩
  | 113 => ⟨S50000x256, .f32⟩
  | 114 => ⟨S_, .f32⟩
  | 115 => ⟨S50000x256, .f32⟩
  | 116 => ⟨S50000x256, .i1⟩
  | 117 => ⟨S_, .f32⟩
  | 118 => ⟨S50000x256, .f32⟩
  | 119 => ⟨S50000x256, .f32⟩
  | 120 => ⟨S50000x256, .f32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S50000x256, .f32⟩

abbrev hbmTy0_1 (i : Nat) : BufTy := match i % 128 with
  | 0 => ⟨S800000x1, .i32⟩
  | 1 => ⟨S800000x256, .f32⟩
  | 2 => ⟨S_, .f32⟩
  | 3 => ⟨S50000x256, .f32⟩
  | 4 => ⟨S800000x1, .i32⟩
  | 5 => ⟨S50000x256, .f32⟩
  | 6 => ⟨S50000x256, .f32⟩
  | 7 => ⟨S50000x256, .f32⟩
  | 8 => ⟨S50000x256, .f32⟩
  | 9 => ⟨S1x256, .f32⟩
  | 10 => ⟨S50000x256, .f32⟩
  | 11 => ⟨S50000x256, .f32⟩
  | 12 => ⟨S50000x256, .f32⟩
  | 13 => ⟨S50000x256, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x256, .f32⟩
  | 23 => ⟨S_, .f32⟩
  | 24 => ⟨S50000x256, .f32⟩
  | 25 => ⟨S800000x1, .i32⟩
  | 26 => ⟨S50000x256, .f32⟩
  | 27 => ⟨S50000x256, .f32⟩
  | 28 => ⟨S50000x256, .f32⟩
  | 29 => ⟨S50000x128, .f32⟩
  | 30 => ⟨S1x128, .f32⟩
  | 31 => ⟨S50000x128, .f32⟩
  | 32 => ⟨S50000x128, .f32⟩
  | 33 => ⟨S50000x128, .f32⟩
  | 34 => ⟨S50000x128, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x256, .f32⟩
  | 44 => ⟨S_, .f32⟩
  | 45 => ⟨S50000x256, .f32⟩
  | 46 => ⟨S800000x1, .i32⟩
  | 47 => ⟨S50000x256, .f32⟩
  | 48 => ⟨S50000x256, .f32⟩
  | 49 => ⟨S50000x256, .f32⟩
  | 50 => ⟨S50000x128, .f32⟩
  | 51 => ⟨S1x128, .f32⟩
  | 52 => ⟨S50000x128, .f32⟩
  | 53 => ⟨S50000x128, .f32⟩
  | 54 => ⟨S50000x128, .f32⟩
  | 55 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_1 : Ref sig .tc := ⟨.hbm, 30, rfl⟩
abbrev main_v8 : Ref sig .tc := ⟨.hbm, 31, rfl⟩
abbrev main_v9 : Ref sig .tc := ⟨.hbm, 32, rfl⟩
abbrev main_cst_2 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_c : Ref sig .tc := ⟨.hbm, 37, rfl⟩
abbrev main_v13 : Ref sig .tc := ⟨.hbm, 38, rfl⟩
abbrev main_v14 : Ref sig .tc := ⟨.hbm, 39, rfl⟩
abbrev main_c_3 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst_4 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_call0_cst : Ref sig .tc := ⟨.hbm, 58, rfl⟩
abbrev main_call0_v0 : Ref sig .tc := ⟨.hbm, 59, rfl⟩
abbrev main_call0_v1 : Ref sig .tc := ⟨.hbm, 60, rfl⟩
abbrev main_call0_cst_0 : Ref sig .tc := ⟨.hbm, 61, rfl⟩
abbrev main_call0_v2 : Ref sig .tc := ⟨.hbm, 62, rfl⟩
abbrev main_call0_v3 : Ref sig .tc := ⟨.hbm, 63, rfl⟩
abbrev main_v31 : Ref sig .tc := ⟨.hbm, 64, rfl⟩
abbrev main_c_5 : Ref sig .tc := ⟨.hbm, 65, rfl⟩
abbrev main_v32 : Ref sig .tc := ⟨.hbm, 66, rfl⟩
abbrev main_v33 : Ref sig .tc := ⟨.hbm, 67, rfl⟩
abbrev main_c_6 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_cst_7 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_call1_cst : Ref sig .tc := ⟨.hbm, 86, rfl⟩
abbrev main_call1_v0 : Ref sig .tc := ⟨.hbm, 87, rfl⟩
abbrev main_call1_v1 : Ref sig .tc := ⟨.hbm, 88, rfl⟩
abbrev main_call1_cst_0 : Ref sig .tc := ⟨.hbm, 89, rfl⟩
abbrev main_call1_v2 : Ref sig .tc := ⟨.hbm, 90, rfl⟩
abbrev main_call1_v3 : Ref sig .tc := ⟨.hbm, 91, rfl⟩
abbrev main_v50 : Ref sig .tc := ⟨.hbm, 92, rfl⟩
abbrev main_c_8 : Ref sig .tc := ⟨.hbm, 93, rfl⟩
abbrev main_v51 : Ref sig .tc := ⟨.hbm, 94, rfl⟩
abbrev main_v52 : Ref sig .tc := ⟨.hbm, 95, rfl⟩
abbrev main_c_9 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_cst_10 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_call2_cst : Ref sig .tc := ⟨.hbm, 114, rfl⟩
abbrev main_call2_v0 : Ref sig .tc := ⟨.hbm, 115, rfl⟩
abbrev main_call2_v1 : Ref sig .tc := ⟨.hbm, 116, rfl⟩
abbrev main_call2_cst_0 : Ref sig .tc := ⟨.hbm, 117, rfl⟩
abbrev main_call2_v2 : Ref sig .tc := ⟨.hbm, 118, rfl⟩
abbrev main_call2_v3 : Ref sig .tc := ⟨.hbm, 119, rfl⟩
abbrev main_v69 : Ref sig .tc := ⟨.hbm, 120, rfl⟩
abbrev main_c_11 : Ref sig .tc := ⟨.hbm, 121, rfl⟩
abbrev main_v70 : Ref sig .tc := ⟨.hbm, 122, rfl⟩
abbrev main_v71 : Ref sig .tc := ⟨.hbm, 123, rfl⟩
abbrev main_c_12 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_cst_13 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_c_14 : Ref sig .tc := ⟨.hbm, 142, rfl⟩
abbrev main_v88 : Ref sig .tc := ⟨.hbm, 143, rfl⟩
abbrev main_v89 : Ref sig .tc := ⟨.hbm, 144, rfl⟩
abbrev main_c_15 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_cst_16 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_c_17 : Ref sig .tc := ⟨.hbm, 163, rfl⟩
abbrev main_v106 : Ref sig .tc := ⟨.hbm, 164, rfl⟩
abbrev main_v107 : Ref sig .tc := ⟨.hbm, 165, rfl⟩
abbrev main_c_18 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_cst_19 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Val.lean ====
/-
  The mathematics both programs compute, as pure functions of the argument arrays over the extended reals.

  A graph of 50000 nodes and 800000 directed edges `(src e, dst e)`.  One mean-aggregation step sends a node table
  `h : [50000, 256]` to `agg h`, whose row `v` is the sum of the rows `h (src e)` over the edges with `dst e = v`, times
  `1 / max (deg v) 1` (`deg v` the number of edges into `v`).  One layer is
  `agg h · Wl + b + h · Wr`, followed in the first three layers by `leaky s = if s ≥ 0 then s else 0.01 · s`.
  Four layers of width 256 are stacked, and two heads of width 128 read the fourth layer's table.

  The gather, the scatter-add and the degree are the SAME host operations in both programs; they are spelled once here
  (`srcOf`, `dstOf`, `invDeg`, `agg`) and never opened.  The dense part is spelled in the reference's association,
  `(agg·Wl + b) + h·Wr`; the kernel associates it `(agg·Wl + h·Wr) + b`, and the two agree because addition of extended reals is
  commutative and associative.
-/
import proofs.«130929_j9491877724563_1_alg».proof.ReferenceIdeal
import Idealize.ShloMosaic.PureOps.Ideal

noncomputable section

namespace Cert.ReferenceIdeal.Sage

open Idealize.ShloMosaic Cert.ReferenceIdeal

variable [Facts]
open Facts₀ Facts

/-- The edges' source nodes: row 0 of the edge table. -/
def srcOf (E : IVec S2x800000 32) : IVec S800000 32 :=
  shapeCast S800000 (extractStridedSlice S1x800000 ![0, 0] E slices_S2x800000_S1x800000_0_0) shapeCasts_S1x800000_S800000

/-- The edges' destination nodes: row 1 of the edge table. -/
def dstOf (E : IVec S2x800000 32) : IVec S800000 32 :=
  shapeCast S800000 (extractStridedSlice S1x800000 ![1, 0] E slices_S2x800000_S1x800000_1_0) shapeCasts_S1x800000_S800000

/-- `1 / max (deg v) 1` as a column, `deg` the scatter-add of ones along the destinations. -/
def invDeg (dst : IVec S800000 32) : FVec Ideal S50000x1 .f32 :=
  broadcastInDim S50000x1 ![0] bcast_S50000_S50000x1_0
    (Host.divf (broadcastInDim S50000 ![] bcast_S_S50000 (constant (F := Ideal) S_ .f32 0x3F800000#32))
      (maximumf
        (Host.scatterAdd scatter_S50000_S800000x1_S800000_n_0_0_1
          (broadcastInDim S50000 ![] bcast_S_S50000 (constant (F := Ideal) S_ .f32 0x00000000#32))
          (broadcastInDim S800000x1 ![0] bcast_S800000_S800000x1_0 dst)
          (broadcastInDim S800000 ![] bcast_S_S800000 (constant (F := Ideal) S_ .f32 0x3F800000#32)))
        (broadcastInDim S50000 ![] bcast_S_S50000 (constant (F := Ideal) S_ .f32 0x3F800000#32))))

/-- The mean aggregation of a node table along the edges (a source index below zero counted from the end, as the
    array indexing does). -/
def agg (src dst : IVec S800000 32) (inv : FVec Ideal S50000x1 .f32) (h : FVec Ideal S50000x256 .f32) :
    FVec Ideal S50000x256 .f32 :=
  mulf
    (Host.scatterAdd scatter_S50000x256_S800000x1_S800000x256_1_0_0_1
      (broadcastInDim S50000x256 ![] bcast_S_S50000x256 (constant (F := Ideal) S_ .f32 0x00000000#32))
      (broadcastInDim S800000x1 ![0] bcast_S800000_S800000x1_0 dst)
      (Host.gather gather_S50000x256_S800000x1_S800000x256_1_0_n_n_0_1_1256 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x256 ![0, 1] bcast_S50000x1_S50000x256_0_1 inv)

/-- The dense part of a layer of width 256: `(a · Wl + b) + h · Wr`. -/
def lin256 (a h : FVec Ideal S50000x256 .f32) (Wl Wr : FVec Ideal S256x256 .f32) (b : FVec Ideal S256 .f32) :
    FVec Ideal S50000x256 .f32 :=
  addf
    (addf (Host.dotGeneral dot_S50000x256_S256x256_S50000x256_1_0_0_1_n_n none a Wl)
      (broadcastInDim S50000x256 ![0, 1] bcast_S1x256_S50000x256_0_1 (broadcastInDim S1x256 ![1] bcast_S256_S1x256_1 b)))
    (Host.dotGeneral dot_S50000x256_S256x256_S50000x256_1_0_0_1_n_n none h Wr)

/-- The dense part of a head of width 128. -/
def lin128 (a h : FVec Ideal S50000x256 .f32) (Wl Wr : FVec Ideal S256x128 .f32) (b : FVec Ideal S128 .f32) :
    FVec Ideal S50000x128 .f32 :=
  addf
    (addf (Host.dotGeneral dot_S50000x256_S256x128_S50000x128_1_0_0_1_n_n none a Wl)
      (broadcastInDim S50000x128 ![0, 1] bcast_S1x128_S50000x128_0_1 (broadcastInDim S1x128 ![1] bcast_S128_S1x128_1 b)))
    (Host.dotGeneral dot_S50000x256_S256x128_S50000x128_1_0_0_1_n_n none h Wr)

/-- `s` where `s ≥ 0`, else `0.01 · s` (the literal is the binary32 value nearest 0.01, the same word in both programs). -/
def leaky (s : FVec Ideal S50000x256 .f32) : FVec Ideal S50000x256 .f32 :=
  select (cmpf .oge s (broadcastInDim S50000x256 ![] bcast_S_S50000x256 (constant (F := Ideal) S_ .f32 0x00000000#32))) s
    (mulf (broadcastInDim S50000x256 ![] bcast_S_S50000x256 (constant (F := Ideal) S_ .f32 0x3C23D70A#32)) s)

/-- One layer of width 256 before its activation. -/
def layer (E : IVec S2x800000 32) (h : FVec Ideal S50000x256 .f32) (Wl Wr : FVec Ideal S256x256 .f32)
    (b : FVec Ideal S256 .f32) : FVec Ideal S50000x256 .f32 :=
  lin256 (agg (srcOf E) (dstOf E) (invDeg (dstOf E)) h) h Wl Wr b

/-- One head of width 128. -/
def head (E : IVec S2x800000 32) (h : FVec Ideal S50000x256 .f32) (Wl Wr : FVec Ideal S256x128 .f32)
    (b : FVec Ideal S128 .f32) : FVec Ideal S50000x128 .f32 :=
  lin128 (agg (srcOf E) (dstOf E) (invDeg (dstOf E)) h) h Wl Wr b

/-- The fourth layer's table: three activated layers, then one without activation. -/
def trunk (E : IVec S2x800000 32) (X : FVec Ideal S50000x256 .f32)
    (W2 W3 : FVec Ideal S256x256 .f32) (b4 : FVec Ideal S256 .f32)
    (W5 W6 : FVec Ideal S256x256 .f32) (b7 : FVec Ideal S256 .f32)
    (W8 W9 : FVec Ideal S256x256 .f32) (b10 : FVec Ideal S256 .f32)
    (W11 W12 : FVec Ideal S256x256 .f32) (b13 : FVec Ideal S256 .f32) : FVec Ideal S50000x256 .f32 :=
  layer E (leaky (layer E (leaky (layer E (leaky (layer E X W2 W3 b4)) W5 W6 b7)) W8 W9 b10)) W11 W12 b13

end Cert.ReferenceIdeal.Sage

end
-- ==== Proof.KHost.lean ====
/-
  What each stretch of host operations of the kernel program leaves, from ANY entry contents `W`: the aggregated table
  (Val.lean's `agg` of the edge lists, the inverse degrees and the previous table as `W` holds them), the bias as a row, and
  every buffer the stretch does not write as it was.  The first stretch also computes the edge lists and the inverse
  degrees from the edge table.
-/
import proofs.«130929_j9491877724563_1_alg».proof.Proof.Gen.KernelIdeal.Launch
import proofs.«130929_j9491877724563_1_alg».proof.Proof.Gen.ReferenceIdeal
import proofs.«130929_j9491877724563_1_alg».proof.Proof.Val
import Idealize.ShloMosaic.Lib.StableHlo.Run

set_option maxRecDepth 16384

noncomputable section

namespace Cert.KernelIdeal.SageK

open Idealize.ShloMosaic Idealize.ShloMosaic.TcCoe Idealize.SL.Sem Idealize.ShloMosaic.StableHlo
open Cert.KernelIdeal Cert.KernelIdeal.Gen
open Cert.ReferenceIdeal.Sage (srcOf dstOf invDeg agg)

variable (W : Valuation τ sig (Elt Ideal))

/-! ## The first stretch: the edge lists, the inverse degrees, the first aggregated table -/

theorem host0_src : after (hostOps0 (F := Ideal)) W (Proc.devRef .tc main_v1) = srcOf (W (Proc.devRef .tc main_arg1)) := by
  after_results_simp
  rfl

theorem host0_dst : after (hostOps0 (F := Ideal)) W (Proc.devRef .tc main_v3) = dstOf (W (Proc.devRef .tc main_arg1)) := by
  after_results_simp
  rfl

theorem host0_inv : after (hostOps0 (F := Ideal)) W (Proc.devRef .tc main_v12) = invDeg (dstOf (W (Proc.devRef .tc main_arg1))) := by
  after_results_simp
  rfl

theorem host0_agg : after (hostOps0 (F := Ideal)) W (Proc.devRef .tc main_v24)
    = agg (srcOf (W (Proc.devRef .tc main_arg1))) (dstOf (W (Proc.devRef .tc main_arg1))) (invDeg (dstOf (W (Proc.devRef .tc main_arg1))))
        (W (Proc.devRef .tc main_arg0)) := by
  after_results_simp
  rfl

theorem host0_bias : after (hostOps0 (F := Ideal)) W (Proc.devRef .tc main_v25)
    = shapeCast S1x256 (W (Proc.devRef .tc main_arg4)) Facts₀.shapeCasts_S256_S1x256 := by
  after_results_simp
  rfl

/-! ## The later stretches: the aggregated table of the previous layer's table, and the bias as a row -/

theorem host1_agg : after (hostOps1 (F := Ideal)) W (Proc.devRef .tc main_v38)
    = agg (W (Proc.devRef .tc main_v1)) (W (Proc.devRef .tc main_v3)) (W (Proc.devRef .tc main_v12)) (W (Proc.devRef .tc main_v26)) := by
  after_results_simp
  rfl

theorem host1_bias : after (hostOps1 (F := Ideal)) W (Proc.devRef .tc main_v39)
    = shapeCast S1x256 (W (Proc.devRef .tc main_arg7)) Facts₀.shapeCasts_S256_S1x256 := by
  after_results_simp
  rfl

theorem host2_agg : after (hostOps2 (F := Ideal)) W (Proc.devRef .tc main_v52)
    = agg (W (Proc.devRef .tc main_v1)) (W (Proc.devRef .tc main_v3)) (W (Proc.devRef .tc main_v12)) (W (Proc.devRef .tc main_v40)) := by
  after_results_simp
  rfl

theorem host2_bias : after (hostOps2 (F := Ideal)) W (Proc.devRef .tc main_v53)
    = shapeCast S1x256 (W (Proc.devRef .tc main_arg10)) Facts₀.shapeCasts_S256_S1x256 := by
  after_results_simp
  rfl

theorem host3_agg : after (hostOps3 (F := Ideal)) W (Proc.devRef .tc main_v66)
    = agg (W (Proc.devRef .tc main_v1)) (W (Proc.devRef .tc main_v3)) (W (Proc.devRef .tc main_v12)) (W (Proc.devRef .tc main_v54)) := by
  after_results_simp
  rfl

theorem host3_bias : after (hostOps3 (F := Ideal)) W (Proc.devRef .tc main_v67)
    = shapeCast S1x256 (W (Proc.devRef .tc main_arg13)) Facts₀.shapeCasts_S256_S1x256 := by
  after_results_simp
  rfl

theorem host4_agg : after (hostOps4 (F := Ideal)) W (Proc.devRef .tc main_v80)
    = agg (W (Proc.devRef .tc main_v1)) (W (Proc.devRef .tc main_v3)) (W (Proc.devRef .tc main_v12)) (W (Proc.devRef .tc main_v68)) := by
  after_results_simp
  rfl

theorem host4_bias : after (hostOps4 (F := Ideal)) W (Proc.devRef .tc main_v81)
    = shapeCast S1x128 (W (Proc.devRef .tc main_arg16)) Facts₀.shapeCasts_S128_S1x128 := by
  after_results_simp
  rfl

theorem host5_agg : after (hostOps5 (F := Ideal)) W (Proc.devRef .tc main_v94)
    = agg (W (Proc.devRef .tc main_v1)) (W (Proc.devRef .tc main_v3)) (W (Proc.devRef .tc main_v12)) (W (Proc.devRef .tc main_v68)) := by
  after_results_simp
  rfl

theorem host5_bias : after (hostOps5 (F := Ideal)) W (Proc.devRef .tc main_v95)
    = shapeCast S1x128 (W (Proc.devRef .tc main_arg19)) Facts₀.shapeCasts_S128_S1x128 := by
  after_results_simp
  rfl

/-! ## What a stretch does not write it leaves as it was -/

/-- The buffers stretch 0 writes. -/
abbrev written0 : List (Ref sig .tc) := [main_v0, main_v1, main_v2, main_v3, main_cst, main_v4, main_cst_0, main_v5, main_v6, main_v7, main_cst_1, main_v8, main_v9, main_cst_2, main_v10, main_v11, main_v12, main_c, main_v13, main_v14, main_c_3, main_v15, main_v16, main_v17, main_v18, main_v19, main_cst_4, main_v20, main_v21, main_v22, main_v23, main_v24, main_v25]

theorem written0_covers : (hostOps0 : List (HloOp τ sig (Elt Ideal))).Forall fun op => op.writes ⊆ (written0.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

theorem host0_keep (r : Ref sig .tc) (h : r ∉ written0) :
    after (hostOps0 (F := Ideal)) W (Proc.devRef .tc r) = W (Proc.devRef .tc r) :=
  after_of_writes_sub hostOps0 W written0_covers h

/-- The buffers stretch 1 writes. -/
abbrev written1 : List (Ref sig .tc) := [main_c_5, main_v27, main_v28, main_c_6, main_v29, main_v30, main_v31, main_v32, main_v33, main_cst_7, main_v34, main_v35, main_v36, main_v37, main_v38, main_v39]

theorem written1_covers : (hostOps1 : List (HloOp τ sig (Elt Ideal))).Forall fun op => op.writes ⊆ (written1.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

theorem host1_keep (r : Ref sig .tc) (h : r ∉ written1) :
    after (hostOps1 (F := Ideal)) W (Proc.devRef .tc r) = W (Proc.devRef .tc r) :=
  after_of_writes_sub hostOps1 W written1_covers h

/-- The buffers stretch 2 writes. -/
abbrev written2 : List (Ref sig .tc) := [main_c_8, main_v41, main_v42, main_c_9, main_v43, main_v44, main_v45, main_v46, main_v47, main_cst_10, main_v48, main_v49, main_v50, main_v51, main_v52, main_v53]

theorem written2_covers : (hostOps2 : List (HloOp τ sig (Elt Ideal))).Forall fun op => op.writes ⊆ (written2.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

theorem host2_keep (r : Ref sig .tc) (h : r ∉ written2) :
    after (hostOps2 (F := Ideal)) W (Proc.devRef .tc r) = W (Proc.devRef .tc r) :=
  after_of_writes_sub hostOps2 W written2_covers h

/-- The buffers stretch 3 writes. -/
abbrev written3 : List (Ref sig .tc) := [main_c_11, main_v55, main_v56, main_c_12, main_v57, main_v58, main_v59, main_v60, main_v61, main_cst_13, main_v62, main_v63, main_v64, main_v65, main_v66, main_v67]

theorem written3_covers : (hostOps3 : List (HloOp τ sig (Elt Ideal))).Forall fun op => op.writes ⊆ (written3.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

theorem host3_keep (r : Ref sig .tc) (h : r ∉ written3) :
    after (hostOps3 (F := Ideal)) W (Proc.devRef .tc r) = W (Proc.devRef .tc r) :=
  after_of_writes_sub hostOps3 W written3_covers h

/-- The buffers stretch 4 writes. -/
abbrev written4 : List (Ref sig .tc) := [main_c_14, main_v69, main_v70, main_c_15, main_v71, main_v72, main_v73, main_v74, main_v75, main_cst_16, main_v76, main_v77, main_v78, main_v79, main_v80, main_v81]

theorem written4_covers : (hostOps4 : List (HloOp τ sig (Elt Ideal))).Forall fun op => op.writes ⊆ (written4.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

theorem host4_keep (r : Ref sig .tc) (h : r ∉ written4) :
    after (hostOps4 (F := Ideal)) W (Proc.devRef .tc r) = W (Proc.devRef .tc r) :=
  after_of_writes_sub hostOps4 W written4_covers h

/-- The buffers stretch 5 writes. -/
abbrev written5 : List (Ref sig .tc) := [main_c_17, main_v83, main_v84, main_c_18, main_v85, main_v86, main_v87, main_v88, main_v89, main_cst_19, main_v90, main_v91, main_v92, main_v93, main_v94, main_v95]

theorem written5_covers : (hostOps5 : List (HloOp τ sig (Elt Ideal))).Forall fun op => op.writes ⊆ (written5.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

theorem host5_keep (r : Ref sig .tc) (h : r ∉ written5) :
    after (hostOps5 (F := Ideal)) W (Proc.devRef .tc r) = W (Proc.devRef .tc r) :=
  after_of_writes_sub hostOps5 W written5_covers h

end Cert.KernelIdeal.SageK

end
-- ==== Proof.KRun.lean ====
/-
  The kernel program's run with the final memory NAMED.  @main is six pallas regions among stretches of host operations;
  the buffer contents at each boundary are a fold from the launch memory (a stretch applies its operations, a region
  replaces its arrays by what its write-backs leave).  Every weakly fair execution terminates, and in every final state
  each unscoped TensorCore buffer holds the last boundary's contents.
-/
import proofs.«130929_j9491877724563_1_alg».proof.Proof.Gen.KernelIdeal.Frame

set_option maxRecDepth 16384

noncomputable section

namespace Cert.KernelIdeal.SageK

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, read against the last boundary's contents: the launch over the twelve segments (six host stretches, six
    regions), the last thread state — every unscoped buffer at the last contents — read against the final state. -/
theorem run_named : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

end Cert.KernelIdeal.SageK

end
-- ==== Proof.KChain.lean ====
/-
  The kernel program's buffer contents followed through its six layers.  A region replaces its output array by the
  layer's value of the arrays it reads (the per-region theorems, taken here as the hypothesis Regions) and leaves every
  other buffer as entered; a host stretch leaves the aggregated table of the previous table and the bias row and touches
  nothing else that a later layer reads.
-/
import proofs.«130929_j9491877724563_1_alg».proof.Proof.Gen.KernelIdeal.Frame
import proofs.«130929_j9491877724563_1_alg».proof.Proof.KHost
import proofs.«130929_j9491877724563_1_alg».proof.Proof.KRun

set_option maxRecDepth 16384

noncomputable section

namespace Cert.KernelIdeal.SageK

open Idealize.ShloMosaic Idealize.ShloMosaic.TcCoe Idealize.SL.Sem Idealize.ShloMosaic.StableHlo
open Cert.KernelIdeal Cert.KernelIdeal.Gen
open Cert.ReferenceIdeal.Sage (srcOf dstOf invDeg agg lin256 lin128 leaky layer head trunk)

/-- The six regions as whole-array functions: after region k its output array is the layer's value of the arrays it reads,
    whatever the buffers held when the region was entered (proved region by region elsewhere). -/
structure Regions : Prop where
  r0 : ∀ (V : (c : Dev nD) → (b : Ref sig .tc) → Buf (Elt Ideal) ((c : Thread nD τ).loc b)) (c : Dev nD) (b : FVec Ideal S256 .f32),
    V c main_v25 = shapeCast S1x256 b Facts₀.shapeCasts_S256_S1x256 →
    (dat0 V c).arrAt 5 cfg0.N = leaky (lin256 (V c main_v24) (V c main_arg0) (V c main_arg2) (V c main_arg3) b)
  r1 : ∀ (V : (c : Dev nD) → (b : Ref sig .tc) → Buf (Elt Ideal) ((c : Thread nD τ).loc b)) (c : Dev nD) (b : FVec Ideal S256 .f32),
    V c main_v39 = shapeCast S1x256 b Facts₀.shapeCasts_S256_S1x256 →
    (dat1 V c).arrAt 5 cfg1.N = leaky (lin256 (V c main_v38) (V c main_v26) (V c main_arg5) (V c main_arg6) b)
  r2 : ∀ (V : (c : Dev nD) → (b : Ref sig .tc) → Buf (Elt Ideal) ((c : Thread nD τ).loc b)) (c : Dev nD) (b : FVec Ideal S256 .f32),
    V c main_v53 = shapeCast S1x256 b Facts₀.shapeCasts_S256_S1x256 →
    (dat2 V c).arrAt 5 cfg2.N = leaky (lin256 (V c main_v52) (V c main_v40) (V c main_arg8) (V c main_arg9) b)
  r3 : ∀ (V : (c : Dev nD) → (b : Ref sig .tc) → Buf (Elt Ideal) ((c : Thread nD τ).loc b)) (c : Dev nD) (b : FVec Ideal S256 .f32),
    V c main_v67 = shapeCast S1x256 b Facts₀.shapeCasts_S256_S1x256 →
    (dat3 V c).arrAt 5 cfg3.N = lin256 (V c main_v66) (V c main_v54) (V c main_arg11) (V c main_arg12) b
  r4 : ∀ (V : (c : Dev nD) → (b : Ref sig .tc) → Buf (Elt Ideal) ((c : Thread nD τ).loc b)) (c : Dev nD) (b : FVec Ideal S128 .f32),
    V c main_v81 = shapeCast S1x128 b Facts₀.shapeCasts_S128_S1x128 →
    (dat4 V c).arrAt 5 cfg4.N = lin128 (V c main_v80) (V c main_v68) (V c main_arg14) (V c main_arg15) b
  r5 : ∀ (V : (c : Dev nD) → (b : Ref sig .tc) → Buf (Elt Ideal) ((c : Thread nD τ).loc b)) (c : Dev nD) (b : FVec Ideal S128 .f32),
    V c main_v95 = shapeCast S1x128 b Facts₀.shapeCasts_S128_S1x128 →
    (dat5 V c).arrAt 5 cfg5.N = lin128 (V c main_v94) (V c main_v68) (V c main_arg17) (V c main_arg18) b

variable (m : (ℓ : Loc nD τ sig) → Buf (Elt Ideal) ℓ) (ρ : Dev nD → PrngReg) (c : Dev nD)

/-! ## A region leaves every buffer but its output as it was entered -/

theorem region0_keep (r : Ref sig .tc) (h : r ≠ main_v26) :
    W2 m ρ c (Proc.devRef .tc r) = W1 m ρ c (Proc.devRef .tc r) := by
  by_cases hx : ∃ w, Pipeline.arrRef spec0 w = r
  · obtain ⟨w, rfl⟩ := hx
    rw [W2_arr]
    match w with
    | ⟨0, _⟩ => exact ((dat0 (V1 m ρ) c).arrAt_in 0 rfl _).trans (A_eq0 (V1 m ρ) c 0)
    | ⟨1, _⟩ => exact ((dat0 (V1 m ρ) c).arrAt_in 1 rfl _).trans (A_eq0 (V1 m ρ) c 1)
    | ⟨2, _⟩ => exact ((dat0 (V1 m ρ) c).arrAt_in 2 rfl _).trans (A_eq0 (V1 m ρ) c 2)
    | ⟨3, _⟩ => exact ((dat0 (V1 m ρ) c).arrAt_in 3 rfl _).trans (A_eq0 (V1 m ρ) c 3)
    | ⟨4, _⟩ => exact ((dat0 (V1 m ρ) c).arrAt_in 4 rfl _).trans (A_eq0 (V1 m ρ) c 4)
    | ⟨5, _⟩ => exact absurd rfl h
    | ⟨n + 6, hn⟩ => exact absurd hn (Nat.not_lt.2 (Nat.le_add_left _ _))
  · exact W2_of_ne m ρ c r fun w e => hx ⟨w, e⟩

/-- Layer 0 (its host stretch, then its region) leaves what neither writes. -/
theorem layer0_keep (r : Ref sig .tc) (h : r ∉ written0) (h' : r ≠ main_v26) :
    W2 m ρ c (Proc.devRef .tc r) = W0 m ρ c (Proc.devRef .tc r) :=
  (region0_keep m ρ c r h').trans (host0_keep (W0 m ρ c) r h)

theorem region1_keep (r : Ref sig .tc) (h : r ≠ main_v40) :
    W4 m ρ c (Proc.devRef .tc r) = W3 m ρ c (Proc.devRef .tc r) := by
  by_cases hx : ∃ w, Pipeline.arrRef spec1 w = r
  · obtain ⟨w, rfl⟩ := hx
    rw [W4_arr]
    match w with
    | ⟨0, _⟩ => exact ((dat1 (V3 m ρ) c).arrAt_in 0 rfl _).trans (A_eq1 (V3 m ρ) c 0)
    | ⟨1, _⟩ => exact ((dat1 (V3 m ρ) c).arrAt_in 1 rfl _).trans (A_eq1 (V3 m ρ) c 1)
    | ⟨2, _⟩ => exact ((dat1 (V3 m ρ) c).arrAt_in 2 rfl _).trans (A_eq1 (V3 m ρ) c 2)
    | ⟨3, _⟩ => exact ((dat1 (V3 m ρ) c).arrAt_in 3 rfl _).trans (A_eq1 (V3 m ρ) c 3)
    | ⟨4, _⟩ => exact ((dat1 (V3 m ρ) c).arrAt_in 4 rfl _).trans (A_eq1 (V3 m ρ) c 4)
    | ⟨5, _⟩ => exact absurd rfl h
    | ⟨n + 6, hn⟩ => exact absurd hn (Nat.not_lt.2 (Nat.le_add_left _ _))
  · exact W4_of_ne m ρ c r fun w e => hx ⟨w, e⟩

/-- Layer 1 (its host stretch, then its region) leaves what neither writes. -/
theorem layer1_keep (r : Ref sig .tc) (h : r ∉ written1) (h' : r ≠ main_v40) :
    W4 m ρ c (Proc.devRef .tc r) = W2 m ρ c (Proc.devRef .tc r) :=
  (region1_keep m ρ c r h').trans (host1_keep (W2 m ρ c) r h)

theorem region2_keep (r : Ref sig .tc) (h : r ≠ main_v54) :
    W6 m ρ c (Proc.devRef .tc r) = W5 m ρ c (Proc.devRef .tc r) := by
  by_cases hx : ∃ w, Pipeline.arrRef spec2 w = r
  · obtain ⟨w, rfl⟩ := hx
    rw [W6_arr]
    match w with
    | ⟨0, _⟩ => exact ((dat2 (V5 m ρ) c).arrAt_in 0 rfl _).trans (A_eq2 (V5 m ρ) c 0)
    | ⟨1, _⟩ => exact ((dat2 (V5 m ρ) c).arrAt_in 1 rfl _).trans (A_eq2 (V5 m ρ) c 1)
    | ⟨2, _⟩ => exact ((dat2 (V5 m ρ) c).arrAt_in 2 rfl _).trans (A_eq2 (V5 m ρ) c 2)
    | ⟨3, _⟩ => exact ((dat2 (V5 m ρ) c).arrAt_in 3 rfl _).trans (A_eq2 (V5 m ρ) c 3)
    | ⟨4, _⟩ => exact ((dat2 (V5 m ρ) c).arrAt_in 4 rfl _).trans (A_eq2 (V5 m ρ) c 4)
    | ⟨5, _⟩ => exact absurd rfl h
    | ⟨n + 6, hn⟩ => exact absurd hn (Nat.not_lt.2 (Nat.le_add_left _ _))
  · exact W6_of_ne m ρ c r fun w e => hx ⟨w, e⟩

/-- Layer 2 (its host stretch, then its region) leaves what neither writes. -/
theorem layer2_keep (r : Ref sig .tc) (h : r ∉ written2) (h' : r ≠ main_v54) :
    W6 m ρ c (Proc.devRef .tc r) = W4 m ρ c (Proc.devRef .tc r) :=
  (region2_keep m ρ c r h').trans (host2_keep (W4 m ρ c) r h)

theorem region3_keep (r : Ref sig .tc) (h : r ≠ main_v68) :
    W8 m ρ c (Proc.devRef .tc r) = W7 m ρ c (Proc.devRef .tc r) := by
  by_cases hx : ∃ w, Pipeline.arrRef spec3 w = r
  · obtain ⟨w, rfl⟩ := hx
    rw [W8_arr]
    match w with
    | ⟨0, _⟩ => exact ((dat3 (V7 m ρ) c).arrAt_in 0 rfl _).trans (A_eq3 (V7 m ρ) c 0)
    | ⟨1, _⟩ => exact ((dat3 (V7 m ρ) c).arrAt_in 1 rfl _).trans (A_eq3 (V7 m ρ) c 1)
    | ⟨2, _⟩ => exact ((dat3 (V7 m ρ) c).arrAt_in 2 rfl _).trans (A_eq3 (V7 m ρ) c 2)
    | ⟨3, _⟩ => exact ((dat3 (V7 m ρ) c).arrAt_in 3 rfl _).trans (A_eq3 (V7 m ρ) c 3)
    | ⟨4, _⟩ => exact ((dat3 (V7 m ρ) c).arrAt_in 4 rfl _).trans (A_eq3 (V7 m ρ) c 4)
    | ⟨5, _⟩ => exact absurd rfl h
    | ⟨n + 6, hn⟩ => exact absurd hn (Nat.not_lt.2 (Nat.le_add_left _ _))
  · exact W8_of_ne m ρ c r fun w e => hx ⟨w, e⟩

/-- Layer 3 (its host stretch, then its region) leaves what neither writes. -/
theorem layer3_keep (r : Ref sig .tc) (h : r ∉ written3) (h' : r ≠ main_v68) :
    W8 m ρ c (Proc.devRef .tc r) = W6 m ρ c (Proc.devRef .tc r) :=
  (region3_keep m ρ c r h').trans (host3_keep (W6 m ρ c) r h)

theorem region4_keep (r : Ref sig .tc) (h : r ≠ main_v82) :
    W10 m ρ c (Proc.devRef .tc r) = W9 m ρ c (Proc.devRef .tc r) := by
  by_cases hx : ∃ w, Pipeline.arrRef spec4 w = r
  · obtain ⟨w, rfl⟩ := hx
    rw [W10_arr]
    match w with
    | ⟨0, _⟩ => exact ((dat4 (V9 m ρ) c).arrAt_in 0 rfl _).trans (A_eq4 (V9 m ρ) c 0)
    | ⟨1, _⟩ => exact ((dat4 (V9 m ρ) c).arrAt_in 1 rfl _).trans (A_eq4 (V9 m ρ) c 1)
    | ⟨2, _⟩ => exact ((dat4 (V9 m ρ) c).arrAt_in 2 rfl _).trans (A_eq4 (V9 m ρ) c 2)
    | ⟨3, _⟩ => exact ((dat4 (V9 m ρ) c).arrAt_in 3 rfl _).trans (A_eq4 (V9 m ρ) c 3)
    | ⟨4, _⟩ => exact ((dat4 (V9 m ρ) c).arrAt_in 4 rfl _).trans (A_eq4 (V9 m ρ) c 4)
    | ⟨5, _⟩ => exact absurd rfl h
    | ⟨n + 6, hn⟩ => exact absurd hn (Nat.not_lt.2 (Nat.le_add_left _ _))
  · exact W10_of_ne m ρ c r fun w e => hx ⟨w, e⟩

/-- Layer 4 (its host stretch, then its region) leaves what neither writes. -/
theorem layer4_keep (r : Ref sig .tc) (h : r ∉ written4) (h' : r ≠ main_v82) :
    W10 m ρ c (Proc.devRef .tc r) = W8 m ρ c (Proc.devRef .tc r) :=
  (region4_keep m ρ c r h').trans (host4_keep (W8 m ρ c) r h)

theorem region5_keep (r : Ref sig .tc) (h : r ≠ main_v96) :
    W12 m ρ c (Proc.devRef .tc r) = W11 m ρ c (Proc.devRef .tc r) := by
  by_cases hx : ∃ w, Pipeline.arrRef spec5 w = r
  · obtain ⟨w, rfl⟩ := hx
    rw [W12_arr]
    match w with
    | ⟨0, _⟩ => exact ((dat5 (V11 m ρ) c).arrAt_in 0 rfl _).trans (A_eq5 (V11 m ρ) c 0)
    | ⟨1, _⟩ => exact ((dat5 (V11 m ρ) c).arrAt_in 1 rfl _).trans (A_eq5 (V11 m ρ) c 1)
    | ⟨2, _⟩ => exact ((dat5 (V11 m ρ) c).arrAt_in 2 rfl _).trans (A_eq5 (V11 m ρ) c 2)
    | ⟨3, _⟩ => exact ((dat5 (V11 m ρ) c).arrAt_in 3 rfl _).trans (A_eq5 (V11 m ρ) c 3)
    | ⟨4, _⟩ => exact ((dat5 (V11 m ρ) c).arrAt_in 4 rfl _).trans (A_eq5 (V11 m ρ) c 4)
    | ⟨5, _⟩ => exact absurd rfl h
    | ⟨n + 6, hn⟩ => exact absurd hn (Nat.not_lt.2 (Nat.le_add_left _ _))
  · exact W12_of_ne m ρ c r fun w e => hx ⟨w, e⟩

/-- Layer 5 (its host stretch, then its region) leaves what neither writes. -/
theorem layer5_keep (r : Ref sig .tc) (h : r ∉ written5) (h' : r ≠ main_v96) :
    W12 m ρ c (Proc.devRef .tc r) = W10 m ρ c (Proc.devRef .tc r) :=
  (region5_keep m ρ c r h').trans (host5_keep (W10 m ρ c) r h)

/-! ## What a layer leaves in its output, from the contents it was entered with -/

variable (R : Regions)
include R

theorem layer0_val : W2 m ρ c (Proc.devRef .tc main_v26)
    = leaky (lin256 (agg (srcOf (W0 m ρ c (Proc.devRef .tc main_arg1))) (dstOf (W0 m ρ c (Proc.devRef .tc main_arg1))) (invDeg (dstOf (W0 m ρ c (Proc.devRef .tc main_arg1)))) (W0 m ρ c (Proc.devRef .tc main_arg0))) (W0 m ρ c (Proc.devRef .tc main_arg0)) (W0 m ρ c (Proc.devRef .tc main_arg2)) (W0 m ρ c (Proc.devRef .tc main_arg3)) (W0 m ρ c (Proc.devRef .tc main_arg4))) := by
  have e := R.r0 (V1 m ρ) c (W0 m ρ c (Proc.devRef .tc main_arg4)) (host0_bias (W0 m ρ c))
  rw [show W2 m ρ c (Proc.devRef .tc main_v26) = (dat0 (V1 m ρ) c).arrAt 5 cfg0.N from W2_arr m ρ c 5, e,
    show V1 m ρ c main_v24 = _ from host0_agg (W0 m ρ c),
    show V1 m ρ c main_arg0 = _ from host0_keep (W0 m ρ c) main_arg0 (by decide),
    show V1 m ρ c main_arg2 = _ from host0_keep (W0 m ρ c) main_arg2 (by decide),
    show V1 m ρ c main_arg3 = _ from host0_keep (W0 m ρ c) main_arg3 (by decide)]

theorem layer1_val : W4 m ρ c (Proc.devRef .tc main_v40)
    = leaky (lin256 (agg (W2 m ρ c (Proc.devRef .tc main_v1)) (W2 m ρ c (Proc.devRef .tc main_v3)) (W2 m ρ c (Proc.devRef .tc main_v12)) (W2 m ρ c (Proc.devRef .tc main_v26))) (W2 m ρ c (Proc.devRef .tc main_v26)) (W2 m ρ c (Proc.devRef .tc main_arg5)) (W2 m ρ c (Proc.devRef .tc main_arg6)) (W2 m ρ c (Proc.devRef .tc main_arg7))) := by
  have e := R.r1 (V3 m ρ) c (W2 m ρ c (Proc.devRef .tc main_arg7)) (host1_bias (W2 m ρ c))
  rw [show W4 m ρ c (Proc.devRef .tc main_v40) = (dat1 (V3 m ρ) c).arrAt 5 cfg1.N from W4_arr m ρ c 5, e,
    show V3 m ρ c main_v38 = _ from host1_agg (W2 m ρ c),
    show V3 m ρ c main_v26 = _ from host1_keep (W2 m ρ c) main_v26 (by decide),
    show V3 m ρ c main_arg5 = _ from host1_keep (W2 m ρ c) main_arg5 (by decide),
    show V3 m ρ c main_arg6 = _ from host1_keep (W2 m ρ c) main_arg6 (by decide)]

theorem layer2_val : W6 m ρ c (Proc.devRef .tc main_v54)
    = leaky (lin256 (agg (W4 m ρ c (Proc.devRef .tc main_v1)) (W4 m ρ c (Proc.devRef .tc main_v3)) (W4 m ρ c (Proc.devRef .tc main_v12)) (W4 m ρ c (Proc.devRef .tc main_v40))) (W4 m ρ c (Proc.devRef .tc main_v40)) (W4 m ρ c (Proc.devRef .tc main_arg8)) (W4 m ρ c (Proc.devRef .tc main_arg9)) (W4 m ρ c (Proc.devRef .tc main_arg10))) := by
  have e := R.r2 (V5 m ρ) c (W4 m ρ c (Proc.devRef .tc main_arg10)) (host2_bias (W4 m ρ c))
  rw [show W6 m ρ c (Proc.devRef .tc main_v54) = (dat2 (V5 m ρ) c).arrAt 5 cfg2.N from W6_arr m ρ c 5, e,
    show V5 m ρ c main_v52 = _ from host2_agg (W4 m ρ c),
    show V5 m ρ c main_v40 = _ from host2_keep (W4 m ρ c) main_v40 (by decide),
    show V5 m ρ c main_arg8 = _ from host2_keep (W4 m ρ c) main_arg8 (by decide),
    show V5 m ρ c main_arg9 = _ from host2_keep (W4 m ρ c) main_arg9 (by decide)]

theorem layer3_val : W8 m ρ c (Proc.devRef .tc main_v68)
    = lin256 (agg (W6 m ρ c (Proc.devRef .tc main_v1)) (W6 m ρ c (Proc.devRef .tc main_v3)) (W6 m ρ c (Proc.devRef .tc main_v12)) (W6 m ρ c (Proc.devRef .tc main_v54))) (W6 m ρ c (Proc.devRef .tc main_v54)) (W6 m ρ c (Proc.devRef .tc main_arg11)) (W6 m ρ c (Proc.devRef .tc main_arg12)) (W6 m ρ c (Proc.devRef .tc main_arg13)) := by
  have e := R.r3 (V7 m ρ) c (W6 m ρ c (Proc.devRef .tc main_arg13)) (host3_bias (W6 m ρ c))
  rw [show W8 m ρ c (Proc.devRef .tc main_v68) = (dat3 (V7 m ρ) c).arrAt 5 cfg3.N from W8_arr m ρ c 5, e,
    show V7 m ρ c main_v66 = _ from host3_agg (W6 m ρ c),
    show V7 m ρ c main_v54 = _ from host3_keep (W6 m ρ c) main_v54 (by decide),
    show V7 m ρ c main_arg11 = _ from host3_keep (W6 m ρ c) main_arg11 (by decide),
    show V7 m ρ c main_arg12 = _ from host3_keep (W6 m ρ c) main_arg12 (by decide)]

theorem layer4_val : W10 m ρ c (Proc.devRef .tc main_v82)
    = lin128 (agg (W8 m ρ c (Proc.devRef .tc main_v1)) (W8 m ρ c (Proc.devRef .tc main_v3)) (W8 m ρ c (Proc.devRef .tc main_v12)) (W8 m ρ c (Proc.devRef .tc main_v68))) (W8 m ρ c (Proc.devRef .tc main_v68)) (W8 m ρ c (Proc.devRef .tc main_arg14)) (W8 m ρ c (Proc.devRef .tc main_arg15)) (W8 m ρ c (Proc.devRef .tc main_arg16)) := by
  have e := R.r4 (V9 m ρ) c (W8 m ρ c (Proc.devRef .tc main_arg16)) (host4_bias (W8 m ρ c))
  rw [show W10 m ρ c (Proc.devRef .tc main_v82) = (dat4 (V9 m ρ) c).arrAt 5 cfg4.N from W10_arr m ρ c 5, e,
    show V9 m ρ c main_v80 = _ from host4_agg (W8 m ρ c),
    show V9 m ρ c main_v68 = _ from host4_keep (W8 m ρ c) main_v68 (by decide),
    show V9 m ρ c main_arg14 = _ from host4_keep (W8 m ρ c) main_arg14 (by decide),
    show V9 m ρ c main_arg15 = _ from host4_keep (W8 m ρ c) main_arg15 (by decide)]

theorem layer5_val : W12 m ρ c (Proc.devRef .tc main_v96)
    = lin128 (agg (W10 m ρ c (Proc.devRef .tc main_v1)) (W10 m ρ c (Proc.devRef .tc main_v3)) (W10 m ρ c (Proc.devRef .tc main_v12)) (W10 m ρ c (Proc.devRef .tc main_v68))) (W10 m ρ c (Proc.devRef .tc main_v68)) (W10 m ρ c (Proc.devRef .tc main_arg17)) (W10 m ρ c (Proc.devRef .tc main_arg18)) (W10 m ρ c (Proc.devRef .tc main_arg19)) := by
  have e := R.r5 (V11 m ρ) c (W10 m ρ c (Proc.devRef .tc main_arg19)) (host5_bias (W10 m ρ c))
  rw [show W12 m ρ c (Proc.devRef .tc main_v96) = (dat5 (V11 m ρ) c).arrAt 5 cfg5.N from W12_arr m ρ c 5, e,
    show V11 m ρ c main_v94 = _ from host5_agg (W10 m ρ c),
    show V11 m ρ c main_v68 = _ from host5_keep (W10 m ρ c) main_v68 (by decide),
    show V11 m ρ c main_arg17 = _ from host5_keep (W10 m ρ c) main_arg17 (by decide),
    show V11 m ρ c main_arg18 = _ from host5_keep (W10 m ρ c) main_arg18 (by decide)]

/-! ## The tables of the stack, of the launch memory's argument arrays -/

omit R in
/-- The first table: the activated first layer of the input table. -/
def tab1 := leaky (layer (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)))
omit R in
/-- The second table. -/
def tab2 := leaky (layer (m ((c.tc : Thread nD τ).loc main_arg1)) (tab1 m c) (m ((c.tc : Thread nD τ).loc main_arg5)) (m ((c.tc : Thread nD τ).loc main_arg6)) (m ((c.tc : Thread nD τ).loc main_arg7)))
omit R in
/-- The third table. -/
def tab3 := leaky (layer (m ((c.tc : Thread nD τ).loc main_arg1)) (tab2 m c) (m ((c.tc : Thread nD τ).loc main_arg8)) (m ((c.tc : Thread nD τ).loc main_arg9)) (m ((c.tc : Thread nD τ).loc main_arg10)))
omit R in
/-- The fourth table, not activated: what the two heads read. -/
def tab4 := layer (m ((c.tc : Thread nD τ).loc main_arg1)) (tab3 m c) (m ((c.tc : Thread nD τ).loc main_arg11)) (m ((c.tc : Thread nD τ).loc main_arg12)) (m ((c.tc : Thread nD τ).loc main_arg13))

omit R in
theorem tab4_eq : tab4 m c = trunk (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := rfl

/-! ## The boundaries: the edge lists, the inverse degrees, the arguments and the current table after each layer -/

omit R in
theorem src_1 : W2 m ρ c (Proc.devRef .tc main_v1) = srcOf (m ((c.tc : Thread nD τ).loc main_arg1)) :=
  (region0_keep m ρ c main_v1 (by decide)).trans (host0_src (W0 m ρ c))

omit R in
theorem dst_1 : W2 m ρ c (Proc.devRef .tc main_v3) = dstOf (m ((c.tc : Thread nD τ).loc main_arg1)) :=
  (region0_keep m ρ c main_v3 (by decide)).trans (host0_dst (W0 m ρ c))

omit R in
theorem inv_1 : W2 m ρ c (Proc.devRef .tc main_v12) = invDeg (dstOf (m ((c.tc : Thread nD τ).loc main_arg1))) :=
  (region0_keep m ρ c main_v12 (by decide)).trans (host0_inv (W0 m ρ c))

theorem tab_1 : W2 m ρ c (Proc.devRef .tc main_v26) = tab1 m c :=
  layer0_val m ρ c R

omit R in
theorem src_2 : W4 m ρ c (Proc.devRef .tc main_v1) = srcOf (m ((c.tc : Thread nD τ).loc main_arg1)) :=
  (layer1_keep m ρ c main_v1 (by decide) (by decide)).trans (src_1 m ρ c)

omit R in
theorem dst_2 : W4 m ρ c (Proc.devRef .tc main_v3) = dstOf (m ((c.tc : Thread nD τ).loc main_arg1)) :=
  (layer1_keep m ρ c main_v3 (by decide) (by decide)).trans (dst_1 m ρ c)

omit R in
theorem inv_2 : W4 m ρ c (Proc.devRef .tc main_v12) = invDeg (dstOf (m ((c.tc : Thread nD τ).loc main_arg1))) :=
  (layer1_keep m ρ c main_v12 (by decide) (by decide)).trans (inv_1 m ρ c)

omit R in
theorem src_3 : W6 m ρ c (Proc.devRef .tc main_v1) = srcOf (m ((c.tc : Thread nD τ).loc main_arg1)) :=
  (layer2_keep m ρ c main_v1 (by decide) (by decide)).trans (src_2 m ρ c)

omit R in
theorem dst_3 : W6 m ρ c (Proc.devRef .tc main_v3) = dstOf (m ((c.tc : Thread nD τ).loc main_arg1)) :=
  (layer2_keep m ρ c main_v3 (by decide) (by decide)).trans (dst_2 m ρ c)

omit R in
theorem inv_3 : W6 m ρ c (Proc.devRef .tc main_v12) = invDeg (dstOf (m ((c.tc : Thread nD τ).loc main_arg1))) :=
  (layer2_keep m ρ c main_v12 (by decide) (by decide)).trans (inv_2 m ρ c)

omit R in
theorem src_4 : W8 m ρ c (Proc.devRef .tc main_v1) = srcOf (m ((c.tc : Thread nD τ).loc main_arg1)) :=
  (layer3_keep m ρ c main_v1 (by decide) (by decide)).trans (src_3 m ρ c)

omit R in
theorem dst_4 : W8 m ρ c (Proc.devRef .tc main_v3) = dstOf (m ((c.tc : Thread nD τ).loc main_arg1)) :=
  (layer3_keep m ρ c main_v3 (by decide) (by decide)).trans (dst_3 m ρ c)

omit R in
theorem inv_4 : W8 m ρ c (Proc.devRef .tc main_v12) = invDeg (dstOf (m ((c.tc : Thread nD τ).loc main_arg1))) :=
  (layer3_keep m ρ c main_v12 (by decide) (by decide)).trans (inv_3 m ρ c)

omit R in
theorem src_5 : W10 m ρ c (Proc.devRef .tc main_v1) = srcOf (m ((c.tc : Thread nD τ).loc main_arg1)) :=
  (layer4_keep m ρ c main_v1 (by decide) (by decide)).trans (src_4 m ρ c)

omit R in
theorem dst_5 : W10 m ρ c (Proc.devRef .tc main_v3) = dstOf (m ((c.tc : Thread nD τ).loc main_arg1)) :=
  (layer4_keep m ρ c main_v3 (by decide) (by decide)).trans (dst_4 m ρ c)

omit R in
theorem inv_5 : W10 m ρ c (Proc.devRef .tc main_v12) = invDeg (dstOf (m ((c.tc : Thread nD τ).loc main_arg1))) :=
  (layer4_keep m ρ c main_v12 (by decide) (by decide)).trans (inv_4 m ρ c)

omit R in
theorem main_arg5_at_1 : W2 m ρ c (Proc.devRef .tc main_arg5) = (m ((c.tc : Thread nD τ).loc main_arg5)) :=
  layer0_keep m ρ c main_arg5 (by decide) (by decide)

omit R in
theorem main_arg6_at_1 : W2 m ρ c (Proc.devRef .tc main_arg6) = (m ((c.tc : Thread nD τ).loc main_arg6)) :=
  layer0_keep m ρ c main_arg6 (by decide) (by decide)

omit R in
theorem main_arg7_at_1 : W2 m ρ c (Proc.devRef .tc main_arg7) = (m ((c.tc : Thread nD τ).loc main_arg7)) :=
  layer0_keep m ρ c main_arg7 (by decide) (by decide)

omit R in
theorem main_arg8_at_1 : W2 m ρ c (Proc.devRef .tc main_arg8) = (m ((c.tc : Thread nD τ).loc main_arg8)) :=
  layer0_keep m ρ c main_arg8 (by decide) (by decide)

omit R in
theorem main_arg8_at_2 : W4 m ρ c (Proc.devRef .tc main_arg8) = (m ((c.tc : Thread nD τ).loc main_arg8)) :=
  (layer1_keep m ρ c main_arg8 (by decide) (by decide)).trans (main_arg8_at_1 m ρ c)

omit R in
theorem main_arg9_at_1 : W2 m ρ c (Proc.devRef .tc main_arg9) = (m ((c.tc : Thread nD τ).loc main_arg9)) :=
  layer0_keep m ρ c main_arg9 (by decide) (by decide)

omit R in
theorem main_arg9_at_2 : W4 m ρ c (Proc.devRef .tc main_arg9) = (m ((c.tc : Thread nD τ).loc main_arg9)) :=
  (layer1_keep m ρ c main_arg9 (by decide) (by decide)).trans (main_arg9_at_1 m ρ c)

omit R in
theorem main_arg10_at_1 : W2 m ρ c (Proc.devRef .tc main_arg10) = (m ((c.tc : Thread nD τ).loc main_arg10)) :=
  layer0_keep m ρ c main_arg10 (by decide) (by decide)

omit R in
theorem main_arg10_at_2 : W4 m ρ c (Proc.devRef .tc main_arg10) = (m ((c.tc : Thread nD τ).loc main_arg10)) :=
  (layer1_keep m ρ c main_arg10 (by decide) (by decide)).trans (main_arg10_at_1 m ρ c)

omit R in
theorem main_arg11_at_1 : W2 m ρ c (Proc.devRef .tc main_arg11) = (m ((c.tc : Thread nD τ).loc main_arg11)) :=
  layer0_keep m ρ c main_arg11 (by decide) (by decide)

omit R in
theorem main_arg11_at_2 : W4 m ρ c (Proc.devRef .tc main_arg11) = (m ((c.tc : Thread nD τ).loc main_arg11)) :=
  (layer1_keep m ρ c main_arg11 (by decide) (by decide)).trans (main_arg11_at_1 m ρ c)

omit R in
theorem main_arg11_at_3 : W6 m ρ c (Proc.devRef .tc main_arg11) = (m ((c.tc : Thread nD τ).loc main_arg11)) :=
  (layer2_keep m ρ c main_arg11 (by decide) (by decide)).trans (main_arg11_at_2 m ρ c)

omit R in
theorem main_arg12_at_1 : W2 m ρ c (Proc.devRef .tc main_arg12) = (m ((c.tc : Thread nD τ).loc main_arg12)) :=
  layer0_keep m ρ c main_arg12 (by decide) (by decide)

omit R in
theorem main_arg12_at_2 : W4 m ρ c (Proc.devRef .tc main_arg12) = (m ((c.tc : Thread nD τ).loc main_arg12)) :=
  (layer1_keep m ρ c main_arg12 (by decide) (by decide)).trans (main_arg12_at_1 m ρ c)

omit R in
theorem main_arg12_at_3 : W6 m ρ c (Proc.devRef .tc main_arg12) = (m ((c.tc : Thread nD τ).loc main_arg12)) :=
  (layer2_keep m ρ c main_arg12 (by decide) (by decide)).trans (main_arg12_at_2 m ρ c)

omit R in
theorem main_arg13_at_1 : W2 m ρ c (Proc.devRef .tc main_arg13) = (m ((c.tc : Thread nD τ).loc main_arg13)) :=
  layer0_keep m ρ c main_arg13 (by decide) (by decide)

omit R in
theorem main_arg13_at_2 : W4 m ρ c (Proc.devRef .tc main_arg13) = (m ((c.tc : Thread nD τ).loc main_arg13)) :=
  (layer1_keep m ρ c main_arg13 (by decide) (by decide)).trans (main_arg13_at_1 m ρ c)

omit R in
theorem main_arg13_at_3 : W6 m ρ c (Proc.devRef .tc main_arg13) = (m ((c.tc : Thread nD τ).loc main_arg13)) :=
  (layer2_keep m ρ c main_arg13 (by decide) (by decide)).trans (main_arg13_at_2 m ρ c)

omit R in
theorem main_arg14_at_1 : W2 m ρ c (Proc.devRef .tc main_arg14) = (m ((c.tc : Thread nD τ).loc main_arg14)) :=
  layer0_keep m ρ c main_arg14 (by decide) (by decide)

omit R in
theorem main_arg14_at_2 : W4 m ρ c (Proc.devRef .tc main_arg14) = (m ((c.tc : Thread nD τ).loc main_arg14)) :=
  (layer1_keep m ρ c main_arg14 (by decide) (by decide)).trans (main_arg14_at_1 m ρ c)

omit R in
theorem main_arg14_at_3 : W6 m ρ c (Proc.devRef .tc main_arg14) = (m ((c.tc : Thread nD τ).loc main_arg14)) :=
  (layer2_keep m ρ c main_arg14 (by decide) (by decide)).trans (main_arg14_at_2 m ρ c)

omit R in
theorem main_arg14_at_4 : W8 m ρ c (Proc.devRef .tc main_arg14) = (m ((c.tc : Thread nD τ).loc main_arg14)) :=
  (layer3_keep m ρ c main_arg14 (by decide) (by decide)).trans (main_arg14_at_3 m ρ c)

omit R in
theorem main_arg15_at_1 : W2 m ρ c (Proc.devRef .tc main_arg15) = (m ((c.tc : Thread nD τ).loc main_arg15)) :=
  layer0_keep m ρ c main_arg15 (by decide) (by decide)

omit R in
theorem main_arg15_at_2 : W4 m ρ c (Proc.devRef .tc main_arg15) = (m ((c.tc : Thread nD τ).loc main_arg15)) :=
  (layer1_keep m ρ c main_arg15 (by decide) (by decide)).trans (main_arg15_at_1 m ρ c)

omit R in
theorem main_arg15_at_3 : W6 m ρ c (Proc.devRef .tc main_arg15) = (m ((c.tc : Thread nD τ).loc main_arg15)) :=
  (layer2_keep m ρ c main_arg15 (by decide) (by decide)).trans (main_arg15_at_2 m ρ c)

omit R in
theorem main_arg15_at_4 : W8 m ρ c (Proc.devRef .tc main_arg15) = (m ((c.tc : Thread nD τ).loc main_arg15)) :=
  (layer3_keep m ρ c main_arg15 (by decide) (by decide)).trans (main_arg15_at_3 m ρ c)

omit R in
theorem main_arg16_at_1 : W2 m ρ c (Proc.devRef .tc main_arg16) = (m ((c.tc : Thread nD τ).loc main_arg16)) :=
  layer0_keep m ρ c main_arg16 (by decide) (by decide)

omit R in
theorem main_arg16_at_2 : W4 m ρ c (Proc.devRef .tc main_arg16) = (m ((c.tc : Thread nD τ).loc main_arg16)) :=
  (layer1_keep m ρ c main_arg16 (by decide) (by decide)).trans (main_arg16_at_1 m ρ c)

omit R in
theorem main_arg16_at_3 : W6 m ρ c (Proc.devRef .tc main_arg16) = (m ((c.tc : Thread nD τ).loc main_arg16)) :=
  (layer2_keep m ρ c main_arg16 (by decide) (by decide)).trans (main_arg16_at_2 m ρ c)

omit R in
theorem main_arg16_at_4 : W8 m ρ c (Proc.devRef .tc main_arg16) = (m ((c.tc : Thread nD τ).loc main_arg16)) :=
  (layer3_keep m ρ c main_arg16 (by decide) (by decide)).trans (main_arg16_at_3 m ρ c)

omit R in
theorem main_arg17_at_1 : W2 m ρ c (Proc.devRef .tc main_arg17) = (m ((c.tc : Thread nD τ).loc main_arg17)) :=
  layer0_keep m ρ c main_arg17 (by decide) (by decide)

omit R in
theorem main_arg17_at_2 : W4 m ρ c (Proc.devRef .tc main_arg17) = (m ((c.tc : Thread nD τ).loc main_arg17)) :=
  (layer1_keep m ρ c main_arg17 (by decide) (by decide)).trans (main_arg17_at_1 m ρ c)

omit R in
theorem main_arg17_at_3 : W6 m ρ c (Proc.devRef .tc main_arg17) = (m ((c.tc : Thread nD τ).loc main_arg17)) :=
  (layer2_keep m ρ c main_arg17 (by decide) (by decide)).trans (main_arg17_at_2 m ρ c)

omit R in
theorem main_arg17_at_4 : W8 m ρ c (Proc.devRef .tc main_arg17) = (m ((c.tc : Thread nD τ).loc main_arg17)) :=
  (layer3_keep m ρ c main_arg17 (by decide) (by decide)).trans (main_arg17_at_3 m ρ c)

omit R in
theorem main_arg17_at_5 : W10 m ρ c (Proc.devRef .tc main_arg17) = (m ((c.tc : Thread nD τ).loc main_arg17)) :=
  (layer4_keep m ρ c main_arg17 (by decide) (by decide)).trans (main_arg17_at_4 m ρ c)

omit R in
theorem main_arg18_at_1 : W2 m ρ c (Proc.devRef .tc main_arg18) = (m ((c.tc : Thread nD τ).loc main_arg18)) :=
  layer0_keep m ρ c main_arg18 (by decide) (by decide)

omit R in
theorem main_arg18_at_2 : W4 m ρ c (Proc.devRef .tc main_arg18) = (m ((c.tc : Thread nD τ).loc main_arg18)) :=
  (layer1_keep m ρ c main_arg18 (by decide) (by decide)).trans (main_arg18_at_1 m ρ c)

omit R in
theorem main_arg18_at_3 : W6 m ρ c (Proc.devRef .tc main_arg18) = (m ((c.tc : Thread nD τ).loc main_arg18)) :=
  (layer2_keep m ρ c main_arg18 (by decide) (by decide)).trans (main_arg18_at_2 m ρ c)

omit R in
theorem main_arg18_at_4 : W8 m ρ c (Proc.devRef .tc main_arg18) = (m ((c.tc : Thread nD τ).loc main_arg18)) :=
  (layer3_keep m ρ c main_arg18 (by decide) (by decide)).trans (main_arg18_at_3 m ρ c)

omit R in
theorem main_arg18_at_5 : W10 m ρ c (Proc.devRef .tc main_arg18) = (m ((c.tc : Thread nD τ).loc main_arg18)) :=
  (layer4_keep m ρ c main_arg18 (by decide) (by decide)).trans (main_arg18_at_4 m ρ c)

omit R in
theorem main_arg19_at_1 : W2 m ρ c (Proc.devRef .tc main_arg19) = (m ((c.tc : Thread nD τ).loc main_arg19)) :=
  layer0_keep m ρ c main_arg19 (by decide) (by decide)

omit R in
theorem main_arg19_at_2 : W4 m ρ c (Proc.devRef .tc main_arg19) = (m ((c.tc : Thread nD τ).loc main_arg19)) :=
  (layer1_keep m ρ c main_arg19 (by decide) (by decide)).trans (main_arg19_at_1 m ρ c)

omit R in
theorem main_arg19_at_3 : W6 m ρ c (Proc.devRef .tc main_arg19) = (m ((c.tc : Thread nD τ).loc main_arg19)) :=
  (layer2_keep m ρ c main_arg19 (by decide) (by decide)).trans (main_arg19_at_2 m ρ c)

omit R in
theorem main_arg19_at_4 : W8 m ρ c (Proc.devRef .tc main_arg19) = (m ((c.tc : Thread nD τ).loc main_arg19)) :=
  (layer3_keep m ρ c main_arg19 (by decide) (by decide)).trans (main_arg19_at_3 m ρ c)

omit R in
theorem main_arg19_at_5 : W10 m ρ c (Proc.devRef .tc main_arg19) = (m ((c.tc : Thread nD τ).loc main_arg19)) :=
  (layer4_keep m ρ c main_arg19 (by decide) (by decide)).trans (main_arg19_at_4 m ρ c)

theorem tab_2 : W4 m ρ c (Proc.devRef .tc main_v40) = tab2 m c := by
  rw [layer1_val m ρ c R, src_1 m ρ c, dst_1 m ρ c, inv_1 m ρ c, tab_1 m ρ c R, main_arg5_at_1 m ρ c, main_arg6_at_1 m ρ c, main_arg7_at_1 m ρ c]
  rfl

theorem tab_3 : W6 m ρ c (Proc.devRef .tc main_v54) = tab3 m c := by
  rw [layer2_val m ρ c R, src_2 m ρ c, dst_2 m ρ c, inv_2 m ρ c, tab_2 m ρ c R, main_arg8_at_2 m ρ c, main_arg9_at_2 m ρ c, main_arg10_at_2 m ρ c]
  rfl

theorem tab_4 : W8 m ρ c (Proc.devRef .tc main_v68) = tab4 m c := by
  rw [layer3_val m ρ c R, src_3 m ρ c, dst_3 m ρ c, inv_3 m ρ c, tab_3 m ρ c R, main_arg11_at_3 m ρ c, main_arg12_at_3 m ρ c, main_arg13_at_3 m ρ c]
  rfl

theorem tab_5 : W10 m ρ c (Proc.devRef .tc main_v68) = tab4 m c :=
  (layer4_keep m ρ c main_v68 (by decide) (by decide)).trans (tab_4 m ρ c R)

/-! ## The two results -/

/-- The first head's buffer at the end: the first head of the fourth table. -/
theorem result_mu : W12 m ρ c (Proc.devRef .tc main_v82)
    = head (m ((c.tc : Thread nD τ).loc main_arg1)) (trunk (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (m ((c.tc : Thread nD τ).loc main_arg14)) (m ((c.tc : Thread nD τ).loc main_arg15)) (m ((c.tc : Thread nD τ).loc main_arg16)) := by
  rw [← tab4_eq m c, layer5_keep m ρ c main_v82 (by decide) (by decide), layer4_val m ρ c R, src_4 m ρ c, dst_4 m ρ c, inv_4 m ρ c, tab_4 m ρ c R, main_arg14_at_4 m ρ c, main_arg15_at_4 m ρ c, main_arg16_at_4 m ρ c]
  rfl

/-- The second head's buffer at the end: the second head of the fourth table. -/
theorem result_ls : W12 m ρ c (Proc.devRef .tc main_v96)
    = head (m ((c.tc : Thread nD τ).loc main_arg1)) (trunk (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (m ((c.tc : Thread nD τ).loc main_arg17)) (m ((c.tc : Thread nD τ).loc main_arg18)) (m ((c.tc : Thread nD τ).loc main_arg19)) := by
  rw [← tab4_eq m c, layer5_val m ρ c R, src_5 m ρ c, dst_5 m ρ c, inv_5 m ρ c, tab_5 m ρ c R, main_arg17_at_5 m ρ c, main_arg18_at_5 m ρ c, main_arg19_at_5 m ρ c]
  rfl

/-! ## The run -/

/-- Every weakly fair execution of the kernel program terminates with the two results at the two heads of the fourth
    table of the argument arrays, and the arguments unchanged. -/
theorem run (ρ' : Dev nD → PrngReg) :
    θ_run (defs (F := Ideal)) (onTc (τ := τ) (main (F := Ideal))) ⟨m, fun _ => 0, ρ'⟩ fun r => ∀ c : Dev nD,
      r.2.mem ((c.tc : Thread nD τ).loc main_v82) = head (m ((c.tc : Thread nD τ).loc main_arg1)) (trunk (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (m ((c.tc : Thread nD τ).loc main_arg14)) (m ((c.tc : Thread nD τ).loc main_arg15)) (m ((c.tc : Thread nD τ).loc main_arg16))
      ∧ r.2.mem ((c.tc : Thread nD τ).loc main_v96) = head (m ((c.tc : Thread nD τ).loc main_arg1)) (trunk (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (m ((c.tc : Thread nD τ).loc main_arg17)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun r h c =>
    ⟨(h c _ (mem_uc main_v82 (by decide))).trans (result_mu m ρ' c R),
     (h c _ (mem_uc main_v96 (by decide))).trans (result_ls m ρ' c R),
     (h c _ (mem_uc main_arg0 (by decide))).trans (W12_main_arg0 m ρ' c),
     (h c _ (mem_uc main_arg1 (by decide))).trans (W12_main_arg1 m ρ' c),
     (h c _ (mem_uc main_arg2 (by decide))).trans (W12_main_arg2 m ρ' c),
     (h c _ (mem_uc main_arg3 (by decide))).trans (W12_main_arg3 m ρ' c),
     (h c _ (mem_uc main_arg4 (by decide))).trans (W12_main_arg4 m ρ' c),
     (h c _ (mem_uc main_arg5 (by decide))).trans (W12_main_arg5 m ρ' c),
     (h c _ (mem_uc main_arg6 (by decide))).trans (W12_main_arg6 m ρ' c),
     (h c _ (mem_uc main_arg7 (by decide))).trans (W12_main_arg7 m ρ' c),
     (h c _ (mem_uc main_arg8 (by decide))).trans (W12_main_arg8 m ρ' c),
     (h c _ (mem_uc main_arg9 (by decide))).trans (W12_main_arg9 m ρ' c),
     (h c _ (mem_uc main_arg10 (by decide))).trans (W12_main_arg10 m ρ' c),
     (h c _ (mem_uc main_arg11 (by decide))).trans (W12_main_arg11 m ρ' c),
     (h c _ (mem_uc main_arg12 (by decide))).trans (W12_main_arg12 m ρ' c),
     (h c _ (mem_uc main_arg13 (by decide))).trans (W12_main_arg13 m ρ' c),
     (h c _ (mem_uc main_arg14 (by decide))).trans (W12_main_arg14 m ρ' c),
     (h c _ (mem_uc main_arg15 (by decide))).trans (W12_main_arg15 m ρ' c),
     (h c _ (mem_uc main_arg16 (by decide))).trans (W12_main_arg16 m ρ' c),
     (h c _ (mem_uc main_arg17 (by decide))).trans (W12_main_arg17 m ρ' c),
     (h c _ (mem_uc main_arg18 (by decide))).trans (W12_main_arg18 m ρ' c),
     (h c _ (mem_uc main_arg19 (by decide))).trans (W12_main_arg19 m ρ' c)⟩)
    (run_named m ρ')

end Cert.KernelIdeal.SageK

end
-- ==== Proof.LibMatmulPlain.lean ====
/-
  A plain matrix product read at an entry.  For the contraction "rows of the left operand against columns of the
  right one" (`DotDims.plain M K N`: left [M, K], right [K, N], result [M, N], one contracted axis, no batch axis), the
  product into a zero accumulator, over the extended reals, at the entry `(i, j)` is `∑ k, lhs (i, k) * rhs (k, j)`
  — the contraction's one-coordinate index re-indexed by that coordinate.
-/
import Idealize.ShloMosaic.PureOps.Ideal.Laws
import Idealize.ShloMosaic.Lib.ValueIdx

noncomputable section

open scoped BigOperators

namespace Idealize.ShloMosaic

open Idealize.ShloMosaic.ValueIdx

/-- The left operand's index at result entry `(i, j)` and contraction position `q` is `(i, q)`. -/
theorem DotDims.plain_lhsIdx (M K N : ℕ) (i : Fin M) (j : Fin N) (q : (DotDims.plain M K N).contr.Idx) (k : Fin K)
    (hk : (q ⟨0, Nat.one_pos⟩).val = k.val) :
    (DotDims.plain M K N).lhsIdx (ix2 i j) q = ix2 i k := by
  funext a
  apply Fin.ext
  match a with
  | ⟨0, _⟩ => simp [DotDims.lhsIdx, DotDims.plain]; rfl
  | ⟨1, _⟩ =>
    have h := (DotDims.plain M K N).lhsIdx_val_of_single (cl := (1 : Fin 2)) rfl (ix2 i j) q
    exact h.trans hk

/-- The right operand's index there is `(q, j)`. -/
theorem DotDims.plain_rhsIdx (M K N : ℕ) (i : Fin M) (j : Fin N) (q : (DotDims.plain M K N).contr.Idx) (k : Fin K)
    (hk : (q ⟨0, Nat.one_pos⟩).val = k.val) :
    (DotDims.plain M K N).rhsIdx (ix2 i j) q = ix2 k j := by
  funext a
  apply Fin.ext
  match a with
  | ⟨0, _⟩ =>
    have h := (DotDims.plain M K N).rhsIdx_val_of_single (cr := (0 : Fin 2)) rfl (ix2 i j) q
    exact h.trans hk
  | ⟨1, _⟩ => simp [DotDims.rhsIdx, DotDims.plain]; rfl

/-- The product into the zero accumulator at `(i, j)`. -/
theorem Ideal.matmul_plain_zero_apply (M K N : ℕ) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply]
  rw [← Equiv.sum_comp (contrEquiv1 (DotDims.plain M K N) K rfl rfl).symm]
  refine Finset.sum_congr rfl fun k _ => ?_
  have hk := contrEquiv1_symm_val (DotDims.plain M K N) K rfl rfl k
  rw [DotDims.plain_lhsIdx M K N i j _ k hk, DotDims.plain_rhsIdx M K N i j _ k hk]

end Idealize.ShloMosaic

end
-- ==== Proof.KLayerRef.lean ====
/-
  One dense layer read at an entry.

  For node tables `a, h : [50000, 256]`, weights `Wl, Wr : [256, N]` and a bias `b : [N]` (N = 256 or 128), the dense part of a
  layer, `(a · Wl + b) + h · Wr`, at the entry `(r, q)` is
      (∑ k, a (r, k) * Wl (k, q) + b q) + ∑ k, h (r, k) * Wr (k, q)
  over the extended reals: each matrix product is the sum over the one contracted coordinate, and the bias, first made a
  row `[1, N]` and then repeated down the rows, is read at its column.  The activation acts entry by entry:
  `leakyAt x = x` where `x ≥ 0` and `0.01 · x` elsewhere (the factor is the binary32 word 0x3C23D70A, never evaluated).
-/
import proofs.«130929_j9491877724563_1_alg».proof.Proof.Gen.ReferenceIdeal
import proofs.«130929_j9491877724563_1_alg».proof.Proof.Val
import proofs.«130929_j9491877724563_1_alg».proof.Proof.LibMatmulPlain
import Idealize.ShloMosaic.Lib.ValueLayout

noncomputable section

open scoped BigOperators

namespace Cert.KernelIdeal.SageK

open Idealize.ShloMosaic Idealize.ShloMosaic.ValueIdx
open Cert.ReferenceIdeal
open Cert.ReferenceIdeal.Sage (leaky lin256 lin128)

/-- The activation at one entry: `x` where `x ≥ 0`, else the literal factor times `x`. -/
def leakyAt (x : EReal) : EReal :=
  Scalar.select (FloatOps.cmpf (F := Ideal) (φ := .f32) .oge x (Ideal.ofBits .f32 0x00000000#32)) x
    (Ideal.ofBits .f32 0x3C23D70A#32 * x)

/-- The dense part of a layer at one entry, in the association `(a·Wl + b) + h·Wr`. -/
def linAt {N : ℕ} (a h : (⟨2, ![50000, 256]⟩ : Shape).Idx → EReal) (Wl Wr : (⟨2, ![256, N]⟩ : Shape).Idx → EReal)
    (b : (⟨1, ![N]⟩ : Shape).Idx → EReal) (r : Fin 50000) (q : Fin N) : EReal :=
  (∑ k : Fin 256, a (ix2 r k) * Wl (ix2 k q) + b (ix1 q)) + ∑ k : Fin 256, h (ix2 r k) * Wr (ix2 k q)

/-- A scalar constant repeated over a table reads the constant everywhere. -/
theorem splat_apply (w : BitVec 32) (i : S50000x256.Idx) :
    broadcastInDim S50000x256 ![] Facts₀.bcast_S_S50000x256 (constant (F := Ideal) S_ .f32 w) i = Ideal.ofBits .f32 w :=
  broadcastInDim_apply _ _ _ i ix0 fun a => a.elim0

/-- The activation of a table, at an entry, is the activation of that entry. -/
theorem leaky_apply (s : FVec Ideal S50000x256 .f32) (i : S50000x256.Idx) : leaky s i = leakyAt (s i) := by
  unfold leaky leakyAt
  rw [select_apply, cmpf_apply, mulf_apply, splat_apply, splat_apply]

/-- The bias of width 256, made a row and repeated down the rows, reads `b q` at `(r, q)`. -/
theorem bias256_apply (b : FVec Ideal S256 .f32) (r : Fin 50000) (q : Fin 256) :
    broadcastInDim S50000x256 ![0, 1] Facts₀.bcast_S1x256_S50000x256_0_1
      (broadcastInDim S1x256 ![1] Facts₀.bcast_S256_S1x256_1 b) (ix2 r q) = b (ix1 q) := by
  refine (broadcastInDim_apply _ _ _ (ix2 r q) (ix2 (0 : Fin 1) q) fun a => ?_).trans ?_
  · match a with
    | ⟨0, _⟩ => rfl
    | ⟨1, _⟩ => rfl
  · refine broadcastInDim_apply _ _ _ (ix2 (0 : Fin 1) q) (ix1 q) fun a => ?_
    match a with
    | ⟨0, _⟩ => rfl

/-- The bias of width 128 likewise. -/
theorem bias128_apply (b : FVec Ideal S128 .f32) (r : Fin 50000) (q : Fin 128) :
    broadcastInDim S50000x128 ![0, 1] Facts₀.bcast_S1x128_S50000x128_0_1
      (broadcastInDim S1x128 ![1] Facts₀.bcast_S128_S1x128_1 b) (ix2 r q) = b (ix1 q) := by
  refine (broadcastInDim_apply _ _ _ (ix2 r q) (ix2 (0 : Fin 1) q) fun a => ?_).trans ?_
  · match a with
    | ⟨0, _⟩ => rfl
    | ⟨1, _⟩ => rfl
  · refine broadcastInDim_apply _ _ _ (ix2 (0 : Fin 1) q) (ix1 q) fun a => ?_
    match a with
    | ⟨0, _⟩ => rfl

/-- A plain product of a `[50000, 256]` table with a `[256, N]` matrix on the host, at `(r, q)`. -/
theorem hostDot_apply (N : ℕ) (x : FVec Ideal ⟨2, ![50000, 256]⟩ .f32) (W : FVec Ideal ⟨2, ![256, N]⟩ .f32)
    (r : Fin 50000) (q : Fin N) :
    Host.dotGeneral (DotDims.plain 50000 256 N) none x W (ix2 r q) = ∑ k : Fin 256, x (ix2 r k) * W (ix2 k q) := by
  show FloatOps.dotGeneral (DotDims.plain 50000 256 N) none .single x W (ix2 r q) = _
  rw [Ideal.dotGeneral_apply]
  rw [← Equiv.sum_comp (contrEquiv1 (DotDims.plain 50000 256 N) 256 rfl rfl).symm]
  refine Finset.sum_congr rfl fun k _ => ?_
  have hk := contrEquiv1_symm_val (DotDims.plain 50000 256 N) 256 rfl rfl k
  rw [DotDims.plain_lhsIdx 50000 256 N r q _ k hk, DotDims.plain_rhsIdx 50000 256 N r q _ k hk]

/-- The dense part of a layer of width 256 at `(r, q)`. -/
theorem lin256_apply (a h : FVec Ideal S50000x256 .f32) (Wl Wr : FVec Ideal S256x256 .f32) (b : FVec Ideal S256 .f32)
    (r : Fin 50000) (q : Fin 256) : lin256 a h Wl Wr b (ix2 r q) = linAt a h Wl Wr b r q := by
  unfold lin256 linAt
  rw [addf_apply, addf_apply, bias256_apply]
  exact congrArg₂ (· + ·) (congrArg (· + b (ix1 q)) (hostDot_apply 256 a Wl r q)) (hostDot_apply 256 h Wr r q)

/-- The dense part of a head of width 128 at `(r, q)`. -/
theorem lin128_apply (a h : FVec Ideal S50000x256 .f32) (Wl Wr : FVec Ideal S256x128 .f32) (b : FVec Ideal S128 .f32)
    (r : Fin 50000) (q : Fin 128) : lin128 a h Wl Wr b (ix2 r q) = linAt a h Wl Wr b r q := by
  unfold lin128 linAt
  rw [addf_apply, addf_apply, bias128_apply]
  exact congrArg₂ (· + ·) (congrArg (· + b (ix1 q)) (hostDot_apply 128 a Wl r q)) (hostDot_apply 128 h Wr r q)

/-- The kernel's association `(a·Wl + h·Wr) + b` is the reference's `(a·Wl + b) + h·Wr`: addition of extended reals is
    commutative and associative. -/
theorem linAt_eq {N : ℕ} (a h : (⟨2, ![50000, 256]⟩ : Shape).Idx → EReal) (Wl Wr : (⟨2, ![256, N]⟩ : Shape).Idx → EReal)
    (b : (⟨1, ![N]⟩ : Shape).Idx → EReal) (r : Fin 50000) (q : Fin N) :
    (∑ k : Fin 256, a (ix2 r k) * Wl (ix2 k q) + ∑ k : Fin 256, h (ix2 r k) * Wr (ix2 k q)) + b (ix1 q) = linAt a h Wl Wr b r q :=
  add_right_comm _ _ _

end Cert.KernelIdeal.SageK

end
-- ==== Proof.KLayerKer.lean ====
/-
  The kernel's matrix product read at an entry.

  The body multiplies a block of 2000 rows `[2000, 256]` with a weight matrix `[256, N]` (N = 256 or 128) into a zero block.
  Over the extended reals the entry `(p, q)` of that product is `∑ k, x (p, k) * W (k, q)`: one contracted coordinate, no
  rounding, and the zero accumulator adds nothing.
-/
import proofs.«130929_j9491877724563_1_alg».proof.Proof.Gen.KernelIdeal.Skeleton
import proofs.«130929_j9491877724563_1_alg».proof.Proof.LibMatmulPlain

noncomputable section

open scoped BigOperators

namespace Cert.KernelIdeal.SageK

open Idealize.ShloMosaic Idealize.ShloMosaic.ValueIdx
open Cert.KernelIdeal Cert.KernelIdeal.Gen

/-- The offsets `(0, 0)` of a whole-block access are the zero offsets. -/
theorem hz : (![0, 0] : Fin 2 → Nat) = fun _ => 0 := funext fun a => by fin_cases a <;> rfl

/-- The product of a block of 2000 rows with a `[256, 256]` matrix, into the zero block, at `(p, q)`. -/
theorem mm256_apply (x : FVec Ideal S2000x256 .bf16) (W : FVec Ideal S256x256 .bf16) (p : Fin 2000) (q : Fin 256) :
    matmul dot_S2000x256_S256x256_S2000x256_1_0_0_1_n_n none x W (constant (F := Ideal) S2000x256 .f32 0x00000000#32) (ix2 p q)
      = ∑ k : Fin 256, x (ix2 p k) * W (ix2 k q) :=
  Ideal.matmul_plain_zero_apply 2000 256 256 none x W p q

/-- The product of a block of 2000 rows with a `[256, 128]` matrix, into the zero block, at `(p, q)`. -/
theorem mm128_apply (x : FVec Ideal S2000x256 .bf16) (W : FVec Ideal S256x128 .bf16) (p : Fin 2000) (q : Fin 128) :
    matmul dot_S2000x256_S256x128_S2000x128_1_0_0_1_n_n none x W (constant (F := Ideal) S2000x128 .f32 0x00000000#32) (ix2 p q)
      = ∑ k : Fin 256, x (ix2 p k) * W (ix2 k q) :=
  Ideal.matmul_plain_zero_apply 2000 256 128 none x W p q

end Cert.KernelIdeal.SageK

end
-- ==== Proof.KReg0.lean ====
/-
  Region 0 of the kernel — layer 0 (width 256, activated) — as one function of whole arrays.

  The region runs 25 grid points.  At point `t` the body reads rows `2000 t … 2000 t + 1999` of the aggregated table `a` and of
  the node table `h`, the two whole weight matrices and the bias as a row `[1, 256]`, and stores
      leaky ((a · Wl + h · Wr) + b)
  for those rows; the two products are into a zero block and rounding the operands is the identity over the extended
  reals.  Entry `(p, q)` of the stored block is therefore the entry `(2000 t + p, q)` of `(a · Wl + b) + h · Wr`, activated, of the
  whole tables — the bias moved past the second product by commutativity and associativity of addition —, the 25 blocks
  cover the result table, and so the table ends holding that function of the tables the region was entered with.
-/
import proofs.«130929_j9491877724563_1_alg».proof.Proof.Gen.KernelIdeal.Frame
import proofs.«130929_j9491877724563_1_alg».proof.Proof.KLayerRef
import proofs.«130929_j9491877724563_1_alg».proof.Proof.KLayerKer

noncomputable section

open scoped BigOperators

namespace Cert.KernelIdeal.SageK

open Idealize.ShloMosaic Idealize.ShloMosaic.TcCoe Idealize.SL.Sem Idealize.ShloMosaic.ValueIdx
open Cert.KernelIdeal Cert.KernelIdeal.Gen
open Cert.ReferenceIdeal.Sage (leaky lin256 lin128)

/-- One entry of the body's result from its five input blocks: the two products into the zero block added, the bias row
    repeated down the rows added, the activation applied; rounding the operands is the identity over the extended reals. -/
theorem pay0_apply (x0 x1 : Vec Ideal S2000x256 .f32) (x2 x3 : Vec Ideal S256x256 .f32) (x4 : Vec Ideal S1x256 .f32)
    (p : Fin 2000) (q : Fin 256) :
    k0_pay1 x0 x1 x2 x3 x4 (ix2 p q)
      = leakyAt ((∑ k : Fin 256, x0 (ix2 p k) * x2 (ix2 k q) + ∑ k : Fin 256, x1 (ix2 p k) * x3 (ix2 k q)) + x4 (ix2 (0 : Fin 1) q)) := by
  unfold k0_pay1 leakyAt
  repeat rw [shapeCast_self]
  rw [select_apply, cmpf_apply, mulf_apply, broadcast_apply, broadcast_apply, addf_apply,
    addf_apply, mm256_apply, mm256_apply, broadcastTo_1b_ab_apply]
  rfl

/-- The printed index maps, decided over the 25 grid points: at point `t` the two row windows and the output window are at
    block `(t, 0)`; the two weight windows and the bias window are at block `(0, 0)`. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b)) (c : Dev nD)

/-- Window 0's block at point `t` is rows `2000 t … 2000 t + 1999` of the aggregated table. -/
theorem iblk0_0_apply (t : Fin cfg0.N) (y : S2000x256.Idx) (i : S50000x256.Idx)
    (h0 : (i 0).val = t.val * 2000 + (y 0).val) (h1 : (i 1).val = (y 1).val) :
    (iblk0 V c 0 t : Vec Ideal S2000x256 .f32) y = (V c main_v24 : S50000x256.Idx → EReal) i := by
  obtain ⟨e0, e1⟩ := (idx0 t).1, (idx0 t).2.1
  unfold iblk0
  rw [View.read_apply]
  show V c main_v24 _ = V c main_v24 _
  refine congrArg (V c main_v24) ?_
  funext a
  apply Fin.ext
  match a with
  | ⟨0, _⟩ => show win0_0.index t (0 : Fin 2) * 2000 + 1 * (y 0).val = (i 0).val; rw [e0, h0]; omega
  | ⟨1, _⟩ => show win0_0.index t (1 : Fin 2) * 256 + 1 * (y 1).val = (i 1).val; rw [e1, h1]; omega

/-- Window 1's block at point `t` is rows `2000 t … 2000 t + 1999` of the node table. -/
theorem iblk0_1_apply (t : Fin cfg0.N) (y : S2000x256.Idx) (i : S50000x256.Idx)
    (h0 : (i 0).val = t.val * 2000 + (y 0).val) (h1 : (i 1).val = (y 1).val) :
    (iblk0 V c 1 t : Vec Ideal S2000x256 .f32) y = (V c main_arg0 : S50000x256.Idx → EReal) i := by
  obtain ⟨e0, e1⟩ := (idx0 t).2.2.1, (idx0 t).2.2.2.1
  unfold iblk0
  rw [View.read_apply]
  show V c main_arg0 _ = V c main_arg0 _
  refine congrArg (V c main_arg0) ?_
  funext a
  apply Fin.ext
  match a with
  | ⟨0, _⟩ => show win0_1.index t (0 : Fin 2) * 2000 + 1 * (y 0).val = (i 0).val; rw [e0, h0]; omega
  | ⟨1, _⟩ => show win0_1.index t (1 : Fin 2) * 256 + 1 * (y 1).val = (i 1).val; rw [e1, h1]; omega

/-- Window 2's block at every point is the whole left weight matrix. -/
theorem iblk0_2_eq (t : Fin cfg0.N) : (iblk0 V c 2 t : Vec Ideal S256x256 .f32) = (V c main_arg2 : S256x256.Idx → EReal) := by
  obtain ⟨e0, e1⟩ := (idx0 t).2.2.2.2.1, (idx0 t).2.2.2.2.2.1
  funext y
  unfold iblk0
  rw [View.read_apply]
  show V c main_arg2 _ = V c main_arg2 _
  refine congrArg (V c main_arg2) ?_
  funext a
  apply Fin.ext
  match a with
  | ⟨0, _⟩ => show win0_2.index t (0 : Fin 2) * 256 + 1 * (y 0).val = (y 0).val; rw [e0]; omega
  | ⟨1, _⟩ => show win0_2.index t (1 : Fin 2) * 256 + 1 * (y 1).val = (y 1).val; rw [e1]; omega

/-- Window 3's block at every point is the whole right weight matrix. -/
theorem iblk0_3_eq (t : Fin cfg0.N) : (iblk0 V c 3 t : Vec Ideal S256x256 .f32) = (V c main_arg3 : S256x256.Idx → EReal) := by
  obtain ⟨e0, e1⟩ := (idx0 t).2.2.2.2.2.2.1, (idx0 t).2.2.2.2.2.2.2.1
  funext y
  unfold iblk0
  rw [View.read_apply]
  show V c main_arg3 _ = V c main_arg3 _
  refine congrArg (V c main_arg3) ?_
  funext a
  apply Fin.ext
  match a with
  | ⟨0, _⟩ => show win0_3.index t (0 : Fin 2) * 256 + 1 * (y 0).val = (y 0).val; rw [e0]; omega
  | ⟨1, _⟩ => show win0_3.index t (1 : Fin 2) * 256 + 1 * (y 1).val = (y 1).val; rw [e1]; omega

/-- Window 4's block at every point is the whole bias row. -/
theorem iblk0_4_eq (t : Fin cfg0.N) : (iblk0 V c 4 t : Vec Ideal S1x256 .f32) = (V c main_v25 : S1x256.Idx → EReal) := by
  obtain ⟨e0, e1⟩ := (idx0 t).2.2.2.2.2.2.2.2.1, (idx0 t).2.2.2.2.2.2.2.2.2.1
  funext y
  unfold iblk0
  rw [View.read_apply]
  show V c main_v25 _ = V c main_v25 _
  refine congrArg (V c main_v25) ?_
  funext a
  apply Fin.ext
  match a with
  | ⟨0, _⟩ => show win0_4.index t (0 : Fin 2) * 1 + 1 * (y 0).val = (y 0).val; rw [e0]; omega
  | ⟨1, _⟩ => show win0_4.index t (1 : Fin 2) * 256 + 1 * (y 1).val = (y 1).val; rw [e1]; omega

/-- One entry of the body's result, from blocks that are rows `2000 o …` of the two tables, the two whole weight matrices
    and the bias as a row: the layer's entry in row `2000 o + p` of the whole tables (the bias moved past the second
    product). -/
theorem block0 (A H : FVec Ideal S50000x256 .f32) (Wl Wr : FVec Ideal S256x256 .f32) (b : FVec Ideal S256 .f32)
    (x0 x1 : Vec Ideal S2000x256 .f32) (x2 x3 : Vec Ideal S256x256 .f32) (x4 : Vec Ideal S1x256 .f32) (o : ℕ)
    (h0 : ∀ (y : S2000x256.Idx) (i : S50000x256.Idx), (i 0).val = o * 2000 + (y 0).val → (i 1).val = (y 1).val → x0 y = A i)
    (h1 : ∀ (y : S2000x256.Idx) (i : S50000x256.Idx), (i 0).val = o * 2000 + (y 0).val → (i 1).val = (y 1).val → x1 y = H i)
    (h2 : x2 = Wl) (h3 : x3 = Wr) (h4 : x4 = shapeCast S1x256 b Facts₀.shapeCasts_S256_S1x256)
    (y : S2000x256.Idx) (i : S50000x256.Idx) (hi0 : (i 0).val = o * 2000 + (y 0).val) (hi1 : (i 1).val = (y 1).val) :
    k0_pay1 x0 x1 x2 x3 x4 y = leaky (lin256 A H Wl Wr b) i := by
  obtain ⟨p, q, rfl⟩ : ∃ (p : Fin 2000) (q : Fin 256), y = ix2 p q := ⟨y 0, y 1, eq_ix2 y⟩
  obtain ⟨r, q', rfl⟩ : ∃ (r : Fin 50000) (q' : Fin 256), i = ix2 r q' := ⟨i 0, i 1, eq_ix2 i⟩
  obtain rfl : q' = q := Fin.ext hi1
  have e0 : ∀ k : Fin 256, x0 (ix2 p k) = A (ix2 r k) := fun k => h0 (ix2 p k) (ix2 r k) hi0 rfl
  have e1 : ∀ k : Fin 256, x1 (ix2 p k) = H (ix2 r k) := fun k => h1 (ix2 p k) (ix2 r k) hi0 rfl
  rw [pay0_apply, leaky_apply, lin256_apply, ← linAt_eq, h2, h3, h4, shapeCast_a_1a_apply]
  simp only [e0, e1]

/-- What point `t` writes back is block `t` of the layer of the whole tables. -/
theorem flushed0_eq (b : FVec Ideal S256 .f32) (hb : V c main_v25 = shapeCast S1x256 b Facts₀.shapeCasts_S256_S1x256)
    (t : Fin cfg0.N) :
    (dat0 V c).flushed 5 t = ((cfg0.win 5).blk t).view.read (Elt Ideal)
      (leaky (lin256 (V c main_v24) (V c main_arg0) (V c main_arg2) (V c main_arg3) b)) := by
  show (cfg0.win 5).cut (grid0.coords t) ((dat0 V c).after 5 t) = _
  rw [after0_5]
  unfold out0_5
  rw [View.canon_unit_zero hz]
  simp only [View.ld_unit_zero (S := S2000x256) hz, View.ld_unit_zero (S := S256x256) hz, View.ld_unit_zero (S := S1x256) hz]
  obtain ⟨e0, e1⟩ := (idx0 t).2.2.2.2.2.2.2.2.2.2.1, (idx0 t).2.2.2.2.2.2.2.2.2.2.2
  funext y
  show k0_pay1 (iblk0 V c 0 t) (iblk0 V c 1 t) (iblk0 V c 2 t) (iblk0 V c 3 t) (iblk0 V c 4 t) y
    = leaky (lin256 (V c main_v24) (V c main_arg0) (V c main_arg2) (V c main_arg3) b) (((cfg0.win 5).blk t).view.emb y)
  refine block0 (V c main_v24) (V c main_arg0) (V c main_arg2) (V c main_arg3) b
    (iblk0 V c 0 t) (iblk0 V c 1 t) (iblk0 V c 2 t) (iblk0 V c 3 t) (iblk0 V c 4 t) t.val
    (iblk0_0_apply V c t) (iblk0_1_apply V c t) (iblk0_2_eq V c t) (iblk0_3_eq V c t) ((iblk0_4_eq V c t).trans hb)
    y (((cfg0.win 5).blk t).view.emb y) ?_ ?_
  · show win0_5.index t (0 : Fin 2) * 2000 + 1 * (y 0).val = t.val * 2000 + (y 0).val
    rw [e0]; omega
  · show win0_5.index t (1 : Fin 2) * 256 + 1 * (y 1).val = (y 1).val
    rw [e1]; omega

/-- An index of the result table is in point `t`'s block iff each coordinate is in the block's range on its axis. -/
theorem mem_blk0 (t : Fin cfg0.N) (i : S50000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v26).slice (win0_5.rect t)).set ↔ _
  rw [View.set_slice_whole, Rect.mem_set_unit]
  exact Iff.rfl

/-- Row `r` of the result table lies in the block of point `r / 2000`: the 25 blocks cover the table. -/
theorem cover0 (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  have hN : cfg0.N = 25 := N_0
  have ht : (i 0).val / 2000 < cfg0.N := by rw [hN]; omega
  obtain ⟨e0, e1⟩ := (idx0 ⟨(i 0).val / 2000, ht⟩).2.2.2.2.2.2.2.2.2.2.1, (idx0 ⟨(i 0).val / 2000, ht⟩).2.2.2.2.2.2.2.2.2.2.2
  refine ⟨⟨(i 0).val / 2000, ht⟩, flush0_5 _, ?_⟩
  rw [mem_blk0]
  intro a
  match a with
  | ⟨0, _⟩ =>
    show win0_5.index ⟨(i 0).val / 2000, ht⟩ (0 : Fin 2) * 2000 ≤ (i 0).val
      ∧ (i 0).val < win0_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_5.index ⟨(i 0).val / 2000, ht⟩ (1 : Fin 2) * 256 ≤ (i 1).val
      ∧ (i 1).val < win0_5.index ⟨(i 0).val / 2000, ht⟩ (1 : Fin 2) * 256 + 256
    rw [e1]; omega

/-- REGION 0: after its 25 points the result table is the activated layer of the tables the region was entered with. -/
theorem region0 (b : FVec Ideal S256 .f32) (hb : V c main_v25 = shapeCast S1x256 b Facts₀.shapeCasts_S256_S1x256) :
    (dat0 V c).arrAt 5 cfg0.N = leaky (lin256 (V c main_v24) (V c main_arg0) (V c main_arg2) (V c main_arg3) b) :=
  (dat0 V c).arrAt_eq_of_cover 5 _ (fun t _ => flushed0_eq V c b hb t) cover0

end Cert.KernelIdeal.SageK

end
-- ==== Proof.KReg1.lean ====
/-
  Region 1 of the kernel — layer 1 (width 256, activated) — as one function of whole arrays.

  The region runs 25 grid points.  At point `t` the body reads rows `2000 t … 2000 t + 1999` of the aggregated table `a` and of
  the node table `h`, the two whole weight matrices and the bias as a row `[1, 256]`, and stores
      leaky ((a · Wl + h · Wr) + b)
  for those rows; the two products are into a zero block and rounding the operands is the identity over the extended
  reals.  Entry `(p, q)` of the stored block is therefore the entry `(2000 t + p, q)` of `(a · Wl + b) + h · Wr`, activated, of the
  whole tables — the bias moved past the second product by commutativity and associativity of addition —, the 25 blocks
  cover the result table, and so the table ends holding that function of the tables the region was entered with.
-/
import proofs.«130929_j9491877724563_1_alg».proof.Proof.Gen.KernelIdeal.Frame
import proofs.«130929_j9491877724563_1_alg».proof.Proof.KLayerRef
import proofs.«130929_j9491877724563_1_alg».proof.Proof.KLayerKer

noncomputable section

open scoped BigOperators

namespace Cert.KernelIdeal.SageK

open Idealize.ShloMosaic Idealize.ShloMosaic.TcCoe Idealize.SL.Sem Idealize.ShloMosaic.ValueIdx
open Cert.KernelIdeal Cert.KernelIdeal.Gen
open Cert.ReferenceIdeal.Sage (leaky lin256 lin128)

/-- One entry of the body's result from its five input blocks: the two products into the zero block added, the bias row
    repeated down the rows added, the activation applied; rounding the operands is the identity over the extended reals. -/
theorem pay1_apply (x0 x1 : Vec Ideal S2000x256 .f32) (x2 x3 : Vec Ideal S256x256 .f32) (x4 : Vec Ideal S1x256 .f32)
    (p : Fin 2000) (q : Fin 256) :
    k1_pay1 x0 x1 x2 x3 x4 (ix2 p q)
      = leakyAt ((∑ k : Fin 256, x0 (ix2 p k) * x2 (ix2 k q) + ∑ k : Fin 256, x1 (ix2 p k) * x3 (ix2 k q)) + x4 (ix2 (0 : Fin 1) q)) := by
  unfold k1_pay1 leakyAt
  repeat rw [shapeCast_self]
  rw [select_apply, cmpf_apply, mulf_apply, broadcast_apply, broadcast_apply, addf_apply,
    addf_apply, mm256_apply, mm256_apply, broadcastTo_1b_ab_apply]
  rfl

/-- The printed index maps, decided over the 25 grid points: at point `t` the two row windows and the output window are at
    block `(t, 0)`; the two weight windows and the bias window are at block `(0, 0)`. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b)) (c : Dev nD)

/-- Window 0's block at point `t` is rows `2000 t … 2000 t + 1999` of the aggregated table. -/
theorem iblk1_0_apply (t : Fin cfg1.N) (y : S2000x256.Idx) (i : S50000x256.Idx)
    (h0 : (i 0).val = t.val * 2000 + (y 0).val) (h1 : (i 1).val = (y 1).val) :
    (iblk1 V c 0 t : Vec Ideal S2000x256 .f32) y = (V c main_v38 : S50000x256.Idx → EReal) i := by
  obtain ⟨e0, e1⟩ := (idx1 t).1, (idx1 t).2.1
  unfold iblk1
  rw [View.read_apply]
  show V c main_v38 _ = V c main_v38 _
  refine congrArg (V c main_v38) ?_
  funext a
  apply Fin.ext
  match a with
  | ⟨0, _⟩ => show win1_0.index t (0 : Fin 2) * 2000 + 1 * (y 0).val = (i 0).val; rw [e0, h0]; omega
  | ⟨1, _⟩ => show win1_0.index t (1 : Fin 2) * 256 + 1 * (y 1).val = (i 1).val; rw [e1, h1]; omega

/-- Window 1's block at point `t` is rows `2000 t … 2000 t + 1999` of the node table. -/
theorem iblk1_1_apply (t : Fin cfg1.N) (y : S2000x256.Idx) (i : S50000x256.Idx)
    (h0 : (i 0).val = t.val * 2000 + (y 0).val) (h1 : (i 1).val = (y 1).val) :
    (iblk1 V c 1 t : Vec Ideal S2000x256 .f32) y = (V c main_v26 : S50000x256.Idx → EReal) i := by
  obtain ⟨e0, e1⟩ := (idx1 t).2.2.1, (idx1 t).2.2.2.1
  unfold iblk1
  rw [View.read_apply]
  show V c main_v26 _ = V c main_v26 _
  refine congrArg (V c main_v26) ?_
  funext a
  apply Fin.ext
  match a with
  | ⟨0, _⟩ => show win1_1.index t (0 : Fin 2) * 2000 + 1 * (y 0).val = (i 0).val; rw [e0, h0]; omega
  | ⟨1, _⟩ => show win1_1.index t (1 : Fin 2) * 256 + 1 * (y 1).val = (i 1).val; rw [e1, h1]; omega

/-- Window 2's block at every point is the whole left weight matrix. -/
theorem iblk1_2_eq (t : Fin cfg1.N) : (iblk1 V c 2 t : Vec Ideal S256x256 .f32) = (V c main_arg5 : S256x256.Idx → EReal) := by
  obtain ⟨e0, e1⟩ := (idx1 t).2.2.2.2.1, (idx1 t).2.2.2.2.2.1
  funext y
  unfold iblk1
  rw [View.read_apply]
  show V c main_arg5 _ = V c main_arg5 _
  refine congrArg (V c main_arg5) ?_
  funext a
  apply Fin.ext
  match a with
  | ⟨0, _⟩ => show win1_2.index t (0 : Fin 2) * 256 + 1 * (y 0).val = (y 0).val; rw [e0]; omega
  | ⟨1, _⟩ => show win1_2.index t (1 : Fin 2) * 256 + 1 * (y 1).val = (y 1).val; rw [e1]; omega

/-- Window 3's block at every point is the whole right weight matrix. -/
theorem iblk1_3_eq (t : Fin cfg1.N) : (iblk1 V c 3 t : Vec Ideal S256x256 .f32) = (V c main_arg6 : S256x256.Idx → EReal) := by
  obtain ⟨e0, e1⟩ := (idx1 t).2.2.2.2.2.2.1, (idx1 t).2.2.2.2.2.2.2.1
  funext y
  unfold iblk1
  rw [View.read_apply]
  show V c main_arg6 _ = V c main_arg6 _
  refine congrArg (V c main_arg6) ?_
  funext a
  apply Fin.ext
  match a with
  | ⟨0, _⟩ => show win1_3.index t (0 : Fin 2) * 256 + 1 * (y 0).val = (y 0).val; rw [e0]; omega
  | ⟨1, _⟩ => show win1_3.index t (1 : Fin 2) * 256 + 1 * (y 1).val = (y 1).val; rw [e1]; omega

/-- Window 4's block at every point is the whole bias row. -/
theorem iblk1_4_eq (t : Fin cfg1.N) : (iblk1 V c 4 t : Vec Ideal S1x256 .f32) = (V c main_v39 : S1x256.Idx → EReal) := by
  obtain ⟨e0, e1⟩ := (idx1 t).2.2.2.2.2.2.2.2.1, (idx1 t).2.2.2.2.2.2.2.2.2.1
  funext y
  unfold iblk1
  rw [View.read_apply]
  show V c main_v39 _ = V c main_v39 _
  refine congrArg (V c main_v39) ?_
  funext a
  apply Fin.ext
  match a with
  | ⟨0, _⟩ => show win1_4.index t (0 : Fin 2) * 1 + 1 * (y 0).val = (y 0).val; rw [e0]; omega
  | ⟨1, _⟩ => show win1_4.index t (1 : Fin 2) * 256 + 1 * (y 1).val = (y 1).val; rw [e1]; omega

/-- One entry of the body's result, from blocks that are rows `2000 o …` of the two tables, the two whole weight matrices
    and the bias as a row: the layer's entry in row `2000 o + p` of the whole tables (the bias moved past the second
    product). -/
theorem block1 (A H : FVec Ideal S50000x256 .f32) (Wl Wr : FVec Ideal S256x256 .f32) (b : FVec Ideal S256 .f32)
    (x0 x1 : Vec Ideal S2000x256 .f32) (x2 x3 : Vec Ideal S256x256 .f32) (x4 : Vec Ideal S1x256 .f32) (o : ℕ)
    (h0 : ∀ (y : S2000x256.Idx) (i : S50000x256.Idx), (i 0).val = o * 2000 + (y 0).val → (i 1).val = (y 1).val → x0 y = A i)
    (h1 : ∀ (y : S2000x256.Idx) (i : S50000x256.Idx), (i 0).val = o * 2000 + (y 0).val → (i 1).val = (y 1).val → x1 y = H i)
    (h2 : x2 = Wl) (h3 : x3 = Wr) (h4 : x4 = shapeCast S1x256 b Facts₀.shapeCasts_S256_S1x256)
    (y : S2000x256.Idx) (i : S50000x256.Idx) (hi0 : (i 0).val = o * 2000 + (y 0).val) (hi1 : (i 1).val = (y 1).val) :
    k1_pay1 x0 x1 x2 x3 x4 y = leaky (lin256 A H Wl Wr b) i := by
  obtain ⟨p, q, rfl⟩ : ∃ (p : Fin 2000) (q : Fin 256), y = ix2 p q := ⟨y 0, y 1, eq_ix2 y⟩
  obtain ⟨r, q', rfl⟩ : ∃ (r : Fin 50000) (q' : Fin 256), i = ix2 r q' := ⟨i 0, i 1, eq_ix2 i⟩
  obtain rfl : q' = q := Fin.ext hi1
  have e0 : ∀ k : Fin 256, x0 (ix2 p k) = A (ix2 r k) := fun k => h0 (ix2 p k) (ix2 r k) hi0 rfl
  have e1 : ∀ k : Fin 256, x1 (ix2 p k) = H (ix2 r k) := fun k => h1 (ix2 p k) (ix2 r k) hi0 rfl
  rw [pay1_apply, leaky_apply, lin256_apply, ← linAt_eq, h2, h3, h4, shapeCast_a_1a_apply]
  simp only [e0, e1]

/-- What point `t` writes back is block `t` of the layer of the whole tables. -/
theorem flushed1_eq (b : FVec Ideal S256 .f32) (hb : V c main_v39 = shapeCast S1x256 b Facts₀.shapeCasts_S256_S1x256)
    (t : Fin cfg1.N) :
    (dat1 V c).flushed 5 t = ((cfg1.win 5).blk t).view.read (Elt Ideal)
      (leaky (lin256 (V c main_v38) (V c main_v26) (V c main_arg5) (V c main_arg6) b)) := by
  show (cfg1.win 5).cut (grid1.coords t) ((dat1 V c).after 5 t) = _
  rw [after1_5]
  unfold out1_5
  rw [View.canon_unit_zero hz]
  simp only [View.ld_unit_zero (S := S2000x256) hz, View.ld_unit_zero (S := S256x256) hz, View.ld_unit_zero (S := S1x256) hz]
  obtain ⟨e0, e1⟩ := (idx1 t).2.2.2.2.2.2.2.2.2.2.1, (idx1 t).2.2.2.2.2.2.2.2.2.2.2
  funext y
  show k1_pay1 (iblk1 V c 0 t) (iblk1 V c 1 t) (iblk1 V c 2 t) (iblk1 V c 3 t) (iblk1 V c 4 t) y
    = leaky (lin256 (V c main_v38) (V c main_v26) (V c main_arg5) (V c main_arg6) b) (((cfg1.win 5).blk t).view.emb y)
  refine block1 (V c main_v38) (V c main_v26) (V c main_arg5) (V c main_arg6) b
    (iblk1 V c 0 t) (iblk1 V c 1 t) (iblk1 V c 2 t) (iblk1 V c 3 t) (iblk1 V c 4 t) t.val
    (iblk1_0_apply V c t) (iblk1_1_apply V c t) (iblk1_2_eq V c t) (iblk1_3_eq V c t) ((iblk1_4_eq V c t).trans hb)
    y (((cfg1.win 5).blk t).view.emb y) ?_ ?_
  · show win1_5.index t (0 : Fin 2) * 2000 + 1 * (y 0).val = t.val * 2000 + (y 0).val
    rw [e0]; omega
  · show win1_5.index t (1 : Fin 2) * 256 + 1 * (y 1).val = (y 1).val
    rw [e1]; omega

/-- An index of the result table is in point `t`'s block iff each coordinate is in the block's range on its axis. -/
theorem mem_blk1 (t : Fin cfg1.N) (i : S50000x256.Idx) :
    i ∈ ((cfg1.win 5).blk t).view.set ↔ ∀ a : Fin 2, win1_5.index t a * S2000x256.size a ≤ (i a).val
      ∧ (i a).val < win1_5.index t a * S2000x256.size a + S2000x256.size a := by
  show i ∈ ((View.whole main_v40).slice (win1_5.rect t)).set ↔ _
  rw [View.set_slice_whole, Rect.mem_set_unit]
  exact Iff.rfl

/-- Row `r` of the result table lies in the block of point `r / 2000`: the 25 blocks cover the table. -/
theorem cover1 (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  have hN : cfg1.N = 25 := N_1
  have ht : (i 0).val / 2000 < cfg1.N := by rw [hN]; omega
  obtain ⟨e0, e1⟩ := (idx1 ⟨(i 0).val / 2000, ht⟩).2.2.2.2.2.2.2.2.2.2.1, (idx1 ⟨(i 0).val / 2000, ht⟩).2.2.2.2.2.2.2.2.2.2.2
  refine ⟨⟨(i 0).val / 2000, ht⟩, flush1_5 _, ?_⟩
  rw [mem_blk1]
  intro a
  match a with
  | ⟨0, _⟩ =>
    show win1_5.index ⟨(i 0).val / 2000, ht⟩ (0 : Fin 2) * 2000 ≤ (i 0).val
      ∧ (i 0).val < win1_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_5.index ⟨(i 0).val / 2000, ht⟩ (1 : Fin 2) * 256 ≤ (i 1).val
      ∧ (i 1).val < win1_5.index ⟨(i 0).val / 2000, ht⟩ (1 : Fin 2) * 256 + 256
    rw [e1]; omega

/-- REGION 1: after its 25 points the result table is the activated layer of the tables the region was entered with. -/
theorem region1 (b : FVec Ideal S256 .f32) (hb : V c main_v39 = shapeCast S1x256 b Facts₀.shapeCasts_S256_S1x256) :
    (dat1 V c).arrAt 5 cfg1.N = leaky (lin256 (V c main_v38) (V c main_v26) (V c main_arg5) (V c main_arg6) b) :=
  (dat1 V c).arrAt_eq_of_cover 5 _ (fun t _ => flushed1_eq V c b hb t) cover1

end Cert.KernelIdeal.SageK

end
-- ==== Proof.KReg2.lean ====
/-
  Region 2 of the kernel — layer 2 (width 256, activated) — as one function of whole arrays.

  The region runs 25 grid points.  At point `t` the body reads rows `2000 t … 2000 t + 1999` of the aggregated table `a` and of
  the node table `h`, the two whole weight matrices and the bias as a row `[1, 256]`, and stores
      leaky ((a · Wl + h · Wr) + b)
  for those rows; the two products are into a zero block and rounding the operands is the identity over the extended
  reals.  Entry `(p, q)` of the stored block is therefore the entry `(2000 t + p, q)` of `(a · Wl + b) + h · Wr`, activated, of the
  whole tables — the bias moved past the second product by commutativity and associativity of addition —, the 25 blocks
  cover the result table, and so the table ends holding that function of the tables the region was entered with.
-/
import proofs.«130929_j9491877724563_1_alg».proof.Proof.Gen.KernelIdeal.Frame
import proofs.«130929_j9491877724563_1_alg».proof.Proof.KLayerRef
import proofs.«130929_j9491877724563_1_alg».proof.Proof.KLayerKer

noncomputable section

open scoped BigOperators

namespace Cert.KernelIdeal.SageK

open Idealize.ShloMosaic Idealize.ShloMosaic.TcCoe Idealize.SL.Sem Idealize.ShloMosaic.ValueIdx
open Cert.KernelIdeal Cert.KernelIdeal.Gen
open Cert.ReferenceIdeal.Sage (leaky lin256 lin128)

/-- One entry of the body's result from its five input blocks: the two products into the zero block added, the bias row
    repeated down the rows added, the activation applied; rounding the operands is the identity over the extended reals. -/
theorem pay2_apply (x0 x1 : Vec Ideal S2000x256 .f32) (x2 x3 : Vec Ideal S256x256 .f32) (x4 : Vec Ideal S1x256 .f32)
    (p : Fin 2000) (q : Fin 256) :
    k2_pay1 x0 x1 x2 x3 x4 (ix2 p q)
      = leakyAt ((∑ k : Fin 256, x0 (ix2 p k) * x2 (ix2 k q) + ∑ k : Fin 256, x1 (ix2 p k) * x3 (ix2 k q)) + x4 (ix2 (0 : Fin 1) q)) := by
  unfold k2_pay1 leakyAt
  repeat rw [shapeCast_self]
  rw [select_apply, cmpf_apply, mulf_apply, broadcast_apply, broadcast_apply, addf_apply,
    addf_apply, mm256_apply, mm256_apply, broadcastTo_1b_ab_apply]
  rfl

/-- The printed index maps, decided over the 25 grid points: at point `t` the two row windows and the output window are at
    block `(t, 0)`; the two weight windows and the bias window are at block `(0, 0)`. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b)) (c : Dev nD)

/-- Window 0's block at point `t` is rows `2000 t … 2000 t + 1999` of the aggregated table. -/
theorem iblk2_0_apply (t : Fin cfg2.N) (y : S2000x256.Idx) (i : S50000x256.Idx)
    (h0 : (i 0).val = t.val * 2000 + (y 0).val) (h1 : (i 1).val = (y 1).val) :
    (iblk2 V c 0 t : Vec Ideal S2000x256 .f32) y = (V c main_v52 : S50000x256.Idx → EReal) i := by
  obtain ⟨e0, e1⟩ := (idx2 t).1, (idx2 t).2.1
  unfold iblk2
  rw [View.read_apply]
  show V c main_v52 _ = V c main_v52 _
  refine congrArg (V c main_v52) ?_
  funext a
  apply Fin.ext
  match a with
  | ⟨0, _⟩ => show win2_0.index t (0 : Fin 2) * 2000 + 1 * (y 0).val = (i 0).val; rw [e0, h0]; omega
  | ⟨1, _⟩ => show win2_0.index t (1 : Fin 2) * 256 + 1 * (y 1).val = (i 1).val; rw [e1, h1]; omega

/-- Window 1's block at point `t` is rows `2000 t … 2000 t + 1999` of the node table. -/
theorem iblk2_1_apply (t : Fin cfg2.N) (y : S2000x256.Idx) (i : S50000x256.Idx)
    (h0 : (i 0).val = t.val * 2000 + (y 0).val) (h1 : (i 1).val = (y 1).val) :
    (iblk2 V c 1 t : Vec Ideal S2000x256 .f32) y = (V c main_v40 : S50000x256.Idx → EReal) i := by
  obtain ⟨e0, e1⟩ := (idx2 t).2.2.1, (idx2 t).2.2.2.1
  unfold iblk2
  rw [View.read_apply]
  show V c main_v40 _ = V c main_v40 _
  refine congrArg (V c main_v40) ?_
  funext a
  apply Fin.ext
  match a with
  | ⟨0, _⟩ => show win2_1.index t (0 : Fin 2) * 2000 + 1 * (y 0).val = (i 0).val; rw [e0, h0]; omega
  | ⟨1, _⟩ => show win2_1.index t (1 : Fin 2) * 256 + 1 * (y 1).val = (i 1).val; rw [e1, h1]; omega

/-- Window 2's block at every point is the whole left weight matrix. -/
theorem iblk2_2_eq (t : Fin cfg2.N) : (iblk2 V c 2 t : Vec Ideal S256x256 .f32) = (V c main_arg8 : S256x256.Idx → EReal) := by
  obtain ⟨e0, e1⟩ := (idx2 t).2.2.2.2.1, (idx2 t).2.2.2.2.2.1
  funext y
  unfold iblk2
  rw [View.read_apply]
  show V c main_arg8 _ = V c main_arg8 _
  refine congrArg (V c main_arg8) ?_
  funext a
  apply Fin.ext
  match a with
  | ⟨0, _⟩ => show win2_2.index t (0 : Fin 2) * 256 + 1 * (y 0).val = (y 0).val; rw [e0]; omega
  | ⟨1, _⟩ => show win2_2.index t (1 : Fin 2) * 256 + 1 * (y 1).val = (y 1).val; rw [e1]; omega

/-- Window 3's block at every point is the whole right weight matrix. -/
theorem iblk2_3_eq (t : Fin cfg2.N) : (iblk2 V c 3 t : Vec Ideal S256x256 .f32) = (V c main_arg9 : S256x256.Idx → EReal) := by
  obtain ⟨e0, e1⟩ := (idx2 t).2.2.2.2.2.2.1, (idx2 t).2.2.2.2.2.2.2.1
  funext y
  unfold iblk2
  rw [View.read_apply]
  show V c main_arg9 _ = V c main_arg9 _
  refine congrArg (V c main_arg9) ?_
  funext a
  apply Fin.ext
  match a with
  | ⟨0, _⟩ => show win2_3.index t (0 : Fin 2) * 256 + 1 * (y 0).val = (y 0).val; rw [e0]; omega
  | ⟨1, _⟩ => show win2_3.index t (1 : Fin 2) * 256 + 1 * (y 1).val = (y 1).val; rw [e1]; omega

/-- Window 4's block at every point is the whole bias row. -/
theorem iblk2_4_eq (t : Fin cfg2.N) : (iblk2 V c 4 t : Vec Ideal S1x256 .f32) = (V c main_v53 : S1x256.Idx → EReal) := by
  obtain ⟨e0, e1⟩ := (idx2 t).2.2.2.2.2.2.2.2.1, (idx2 t).2.2.2.2.2.2.2.2.2.1
  funext y
  unfold iblk2
  rw [View.read_apply]
  show V c main_v53 _ = V c main_v53 _
  refine congrArg (V c main_v53) ?_
  funext a
  apply Fin.ext
  match a with
  | ⟨0, _⟩ => show win2_4.index t (0 : Fin 2) * 1 + 1 * (y 0).val = (y 0).val; rw [e0]; omega
  | ⟨1, _⟩ => show win2_4.index t (1 : Fin 2) * 256 + 1 * (y 1).val = (y 1).val; rw [e1]; omega

/-- One entry of the body's result, from blocks that are rows `2000 o …` of the two tables, the two whole weight matrices
    and the bias as a row: the layer's entry in row `2000 o + p` of the whole tables (the bias moved past the second
    product). -/
theorem block2 (A H : FVec Ideal S50000x256 .f32) (Wl Wr : FVec Ideal S256x256 .f32) (b : FVec Ideal S256 .f32)
    (x0 x1 : Vec Ideal S2000x256 .f32) (x2 x3 : Vec Ideal S256x256 .f32) (x4 : Vec Ideal S1x256 .f32) (o : ℕ)
    (h0 : ∀ (y : S2000x256.Idx) (i : S50000x256.Idx), (i 0).val = o * 2000 + (y 0).val → (i 1).val = (y 1).val → x0 y = A i)
    (h1 : ∀ (y : S2000x256.Idx) (i : S50000x256.Idx), (i 0).val = o * 2000 + (y 0).val → (i 1).val = (y 1).val → x1 y = H i)
    (h2 : x2 = Wl) (h3 : x3 = Wr) (h4 : x4 = shapeCast S1x256 b Facts₀.shapeCasts_S256_S1x256)
    (y : S2000x256.Idx) (i : S50000x256.Idx) (hi0 : (i 0).val = o * 2000 + (y 0).val) (hi1 : (i 1).val = (y 1).val) :
    k2_pay1 x0 x1 x2 x3 x4 y = leaky (lin256 A H Wl Wr b) i := by
  obtain ⟨p, q, rfl⟩ : ∃ (p : Fin 2000) (q : Fin 256), y = ix2 p q := ⟨y 0, y 1, eq_ix2 y⟩
  obtain ⟨r, q', rfl⟩ : ∃ (r : Fin 50000) (q' : Fin 256), i = ix2 r q' := ⟨i 0, i 1, eq_ix2 i⟩
  obtain rfl : q' = q := Fin.ext hi1
  have e0 : ∀ k : Fin 256, x0 (ix2 p k) = A (ix2 r k) := fun k => h0 (ix2 p k) (ix2 r k) hi0 rfl
  have e1 : ∀ k : Fin 256, x1 (ix2 p k) = H (ix2 r k) := fun k => h1 (ix2 p k) (ix2 r k) hi0 rfl
  rw [pay2_apply, leaky_apply, lin256_apply, ← linAt_eq, h2, h3, h4, shapeCast_a_1a_apply]
  simp only [e0, e1]

/-- What point `t` writes back is block `t` of the layer of the whole tables. -/
theorem flushed2_eq (b : FVec Ideal S256 .f32) (hb : V c main_v53 = shapeCast S1x256 b Facts₀.shapeCasts_S256_S1x256)
    (t : Fin cfg2.N) :
    (dat2 V c).flushed 5 t = ((cfg2.win 5).blk t).view.read (Elt Ideal)
      (leaky (lin256 (V c main_v52) (V c main_v40) (V c main_arg8) (V c main_arg9) b)) := by
  show (cfg2.win 5).cut (grid2.coords t) ((dat2 V c).after 5 t) = _
  rw [after2_5]
  unfold out2_5
  rw [View.canon_unit_zero hz]
  simp only [View.ld_unit_zero (S := S2000x256) hz, View.ld_unit_zero (S := S256x256) hz, View.ld_unit_zero (S := S1x256) hz]
  obtain ⟨e0, e1⟩ := (idx2 t).2.2.2.2.2.2.2.2.2.2.1, (idx2 t).2.2.2.2.2.2.2.2.2.2.2
  funext y
  show k2_pay1 (iblk2 V c 0 t) (iblk2 V c 1 t) (iblk2 V c 2 t) (iblk2 V c 3 t) (iblk2 V c 4 t) y
    = leaky (lin256 (V c main_v52) (V c main_v40) (V c main_arg8) (V c main_arg9) b) (((cfg2.win 5).blk t).view.emb y)
  refine block2 (V c main_v52) (V c main_v40) (V c main_arg8) (V c main_arg9) b
    (iblk2 V c 0 t) (iblk2 V c 1 t) (iblk2 V c 2 t) (iblk2 V c 3 t) (iblk2 V c 4 t) t.val
    (iblk2_0_apply V c t) (iblk2_1_apply V c t) (iblk2_2_eq V c t) (iblk2_3_eq V c t) ((iblk2_4_eq V c t).trans hb)
    y (((cfg2.win 5).blk t).view.emb y) ?_ ?_
  · show win2_5.index t (0 : Fin 2) * 2000 + 1 * (y 0).val = t.val * 2000 + (y 0).val
    rw [e0]; omega
  · show win2_5.index t (1 : Fin 2) * 256 + 1 * (y 1).val = (y 1).val
    rw [e1]; omega

/-- An index of the result table is in point `t`'s block iff each coordinate is in the block's range on its axis. -/
theorem mem_blk2 (t : Fin cfg2.N) (i : S50000x256.Idx) :
    i ∈ ((cfg2.win 5).blk t).view.set ↔ ∀ a : Fin 2, win2_5.index t a * S2000x256.size a ≤ (i a).val
      ∧ (i a).val < win2_5.index t a * S2000x256.size a + S2000x256.size a := by
  show i ∈ ((View.whole main_v54).slice (win2_5.rect t)).set ↔ _
  rw [View.set_slice_whole, Rect.mem_set_unit]
  exact Iff.rfl

/-- Row `r` of the result table lies in the block of point `r / 2000`: the 25 blocks cover the table. -/
theorem cover2 (i : S50000x256.Idx) :
    ∃ t : Fin cfg2.N, (cfg2.win 5).flush t = true ∧ i ∈ ((cfg2.win 5).blk t).view.set := by
  have hi0 : (i 0).val < 50000 := (i 0).isLt
  have hi1 : (i 1).val < 256 := (i 1).isLt
  have hN : cfg2.N = 25 := N_2
  have ht : (i 0).val / 2000 < cfg2.N := by rw [hN]; omega
  obtain ⟨e0, e1⟩ := (idx2 ⟨(i 0).val / 2000, ht⟩).2.2.2.2.2.2.2.2.2.2.1, (idx2 ⟨(i 0).val / 2000, ht⟩).2.2.2.2.2.2.2.2.2.2.2
  refine ⟨⟨(i 0).val / 2000, ht⟩, flush2_5 _, ?_⟩
  rw [mem_blk2]
  intro a
  match a with
  | ⟨0, _⟩ =>
    show win2_5.index ⟨(i 0).val / 2000, ht⟩ (0 : Fin 2) * 2000 ≤ (i 0).val
      ∧ (i 0).val < win2_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_5.index ⟨(i 0).val / 2000, ht⟩ (1 : Fin 2) * 256 ≤ (i 1).val
      ∧ (i 1).val < win2_5.index ⟨(i 0).val / 2000, ht⟩ (1 : Fin 2) * 256 + 256
    rw [e1]; omega

/-- REGION 2: after its 25 points the result table is the activated layer of the tables the region was entered with. -/
theorem region2 (b : FVec Ideal S256 .f32) (hb : V c main_v53 = shapeCast S1x256 b Facts₀.shapeCasts_S256_S1x256) :
    (dat2 V c).arrAt 5 cfg2.N = leaky (lin256 (V c main_v52) (V c main_v40) (V c main_arg8) (V c main_arg9) b) :=
  (dat2 V c).arrAt_eq_of_cover 5 _ (fun t _ => flushed2_eq V c b hb t) cover2

end Cert.KernelIdeal.SageK

end
-- ==== Proof.KReg3.lean ====
/-
  Region 3 of the kernel — layer 3 (width 256, no activation) — as one function of whole arrays.

  The region runs 25 grid points.  At point `t` the body reads rows `2000 t … 2000 t + 1999` of the aggregated table `a` and of
  the node table `h`, the two whole weight matrices and the bias as a row `[1, 256]`, and stores
      (a · Wl + h · Wr) + b
  for those rows; the two products are into a zero block and rounding the operands is the identity over the extended
  reals.  Entry `(p, q)` of the stored block is therefore the entry `(2000 t + p, q)` of `(a · Wl + b) + h · Wr` of the
  whole tables — the bias moved past the second product by commutativity and associativity of addition —, the 25 blocks
  cover the result table, and so the table ends holding that function of the tables the region was entered with.
-/
import proofs.«130929_j9491877724563_1_alg».proof.Proof.Gen.KernelIdeal.Frame
import proofs.«130929_j9491877724563_1_alg».proof.Proof.KLayerRef
import proofs.«130929_j9491877724563_1_alg».proof.Proof.KLayerKer

noncomputable section

open scoped BigOperators

namespace Cert.KernelIdeal.SageK

open Idealize.ShloMosaic Idealize.ShloMosaic.TcCoe Idealize.SL.Sem Idealize.ShloMosaic.ValueIdx
open Cert.KernelIdeal Cert.KernelIdeal.Gen
open Cert.ReferenceIdeal.Sage (leaky lin256 lin128)

/-- One entry of the body's result from its five input blocks: the two products into the zero block added, the bias row
    repeated down the rows added; rounding the operands is the identity over the extended reals. -/
theorem pay3_apply (x0 x1 : Vec Ideal S2000x256 .f32) (x2 x3 : Vec Ideal S256x256 .f32) (x4 : Vec Ideal S1x256 .f32)
    (p : Fin 2000) (q : Fin 256) :
    k3_pay1 x0 x1 x2 x3 x4 (ix2 p q)
      = (∑ k : Fin 256, x0 (ix2 p k) * x2 (ix2 k q) + ∑ k : Fin 256, x1 (ix2 p k) * x3 (ix2 k q)) + x4 (ix2 (0 : Fin 1) q) := by
  unfold k3_pay1
  repeat rw [shapeCast_self]
  rw [addf_apply,
    addf_apply, mm256_apply, mm256_apply, broadcastTo_1b_ab_apply]
  rfl

/-- The printed index maps, decided over the 25 grid points: at point `t` the two row windows and the output window are at
    block `(t, 0)`; the two weight windows and the bias window are at block `(0, 0)`. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

variable (V : (c : Dev nD) → (b : Ref sig .tc) → Buf (Elt Ideal) ((c : Thread nD τ).loc b)) (c : Dev nD)

/-- Window 0's block at point `t` is rows `2000 t … 2000 t + 1999` of the aggregated table. -/
theorem iblk3_0_apply (t : Fin cfg3.N) (y : S2000x256.Idx) (i : S50000x256.Idx)
    (h0 : (i 0).val = t.val * 2000 + (y 0).val) (h1 : (i 1).val = (y 1).val) :
    (iblk3 V c 0 t : Vec Ideal S2000x256 .f32) y = (V c main_v66 : S50000x256.Idx → EReal) i := by
  obtain ⟨e0, e1⟩ := (idx3 t).1, (idx3 t).2.1
  unfold iblk3
  rw [View.read_apply]
  show V c main_v66 _ = V c main_v66 _
  refine congrArg (V c main_v66) ?_
  funext a
  apply Fin.ext
  match a with
  | ⟨0, _⟩ => show win3_0.index t (0 : Fin 2) * 2000 + 1 * (y 0).val = (i 0).val; rw [e0, h0]; omega
  | ⟨1, _⟩ => show win3_0.index t (1 : Fin 2) * 256 + 1 * (y 1).val = (i 1).val; rw [e1, h1]; omega

/-- Window 1's block at point `t` is rows `2000 t … 2000 t + 1999` of the node table. -/
theorem iblk3_1_apply (t : Fin cfg3.N) (y : S2000x256.Idx) (i : S50000x256.Idx)
    (h0 : (i 0).val = t.val * 2000 + (y 0).val) (h1 : (i 1).val = (y 1).val) :
    (iblk3 V c 1 t : Vec Ideal S2000x256 .f32) y = (V c main_v54 : S50000x256.Idx → EReal) i := by
  obtain ⟨e0, e1⟩ := (idx3 t).2.2.1, (idx3 t).2.2.2.1
  unfold iblk3
  rw [View.read_apply]
  show V c main_v54 _ = V c main_v54 _
  refine congrArg (V c main_v54) ?_
  funext a
  apply Fin.ext
  match a with
  | ⟨0, _⟩ => show win3_1.index t (0 : Fin 2) * 2000 + 1 * (y 0).val = (i 0).val; rw [e0, h0]; omega
  | ⟨1, _⟩ => show win3_1.index t (1 : Fin 2) * 256 + 1 * (y 1).val = (i 1).val; rw [e1, h1]; omega

/-- Window 2's block at every point is the whole left weight matrix. -/
theorem iblk3_2_eq (t : Fin cfg3.N) : (iblk3 V c 2 t : Vec Ideal S256x256 .f32) = (V c main_arg11 : S256x256.Idx → EReal) := by
  obtain ⟨e0, e1⟩ := (idx3 t).2.2.2.2.1, (idx3 t).2.2.2.2.2.1
  funext y
  unfold iblk3
  rw [View.read_apply]
  show V c main_arg11 _ = V c main_arg11 _
  refine congrArg (V c main_arg11) ?_
  funext a
  apply Fin.ext
  match a with
  | ⟨0, _⟩ => show win3_2.index t (0 : Fin 2) * 256 + 1 * (y 0).val = (y 0).val; rw [e0]; omega
  | ⟨1, _⟩ => show win3_2.index t (1 : Fin 2) * 256 + 1 * (y 1).val = (y 1).val; rw [e1]; omega

/-- Window 3's block at every point is the whole right weight matrix. -/
theorem iblk3_3_eq (t : Fin cfg3.N) : (iblk3 V c 3 t : Vec Ideal S256x256 .f32) = (V c main_arg12 : S256x256.Idx → EReal) := by
  obtain ⟨e0, e1⟩ := (idx3 t).2.2.2.2.2.2.1, (idx3 t).2.2.2.2.2.2.2.1
  funext y
  unfold iblk3
  rw [View.read_apply]
  show V c main_arg12 _ = V c main_arg12 _
  refine congrArg (V c main_arg12) ?_
  funext a
  apply Fin.ext
  match a with
  | ⟨0, _⟩ => show win3_3.index t (0 : Fin 2) * 256 + 1 * (y 0).val = (y 0).val; rw [e0]; omega
  | ⟨1, _⟩ => show win3_3.index t (1 : Fin 2) * 256 + 1 * (y 1).val = (y 1).val; rw [e1]; omega

/-- Window 4's block at every point is the whole bias row. -/
theorem iblk3_4_eq (t : Fin cfg3.N) : (iblk3 V c 4 t : Vec Ideal S1x256 .f32) = (V c main_v67 : S1x256.Idx → EReal) := by
  obtain ⟨e0, e1⟩ := (idx3 t).2.2.2.2.2.2.2.2.1, (idx3 t).2.2.2.2.2.2.2.2.2.1
  funext y
  unfold iblk3
  rw [View.read_apply]
  show V c main_v67 _ = V c main_v67 _
  refine congrArg (V c main_v67) ?_
  funext a
  apply Fin.ext
  match a with
  | ⟨0, _⟩ => show win3_4.index t (0 : Fin 2) * 1 + 1 * (y 0).val = (y 0).val; rw [e0]; omega
  | ⟨1, _⟩ => show win3_4.index t (1 : Fin 2) * 256 + 1 * (y 1).val = (y 1).val; rw [e1]; omega

/-- One entry of the body's result, from blocks that are rows `2000 o …` of the two tables, the two whole weight matrices
    and the bias as a row: the layer's entry in row `2000 o + p` of the whole tables (the bias moved past the second
    product). -/
theorem block3 (A H : FVec Ideal S50000x256 .f32) (Wl Wr : FVec Ideal S256x256 .f32) (b : FVec Ideal S256 .f32)
    (x0 x1 : Vec Ideal S2000x256 .f32) (x2 x3 : Vec Ideal S256x256 .f32) (x4 : Vec Ideal S1x256 .f32) (o : ℕ)
    (h0 : ∀ (y : S2000x256.Idx) (i : S50000x256.Idx), (i 0).val = o * 2000 + (y 0).val → (i 1).val = (y 1).val → x0 y = A i)
    (h1 : ∀ (y : S2000x256.Idx) (i : S50000x256.Idx), (i 0).val = o * 2000 + (y 0).val → (i 1).val = (y 1).val → x1 y = H i)
    (h2 : x2 = Wl) (h3 : x3 = Wr) (h4 : x4 = shapeCast S1x256 b Facts₀.shapeCasts_S256_S1x256)
    (y : S2000x256.Idx) (i : S50000x256.Idx) (hi0 : (i 0).val = o * 2000 + (y 0).val) (hi1 : (i 1).val = (y 1).val) :
    k3_pay1 x0 x1 x2 x3 x4 y = lin256 A H Wl Wr b i := by
  obtain ⟨p, q, rfl⟩ : ∃ (p : Fin 2000) (q : Fin 256), y = ix2 p q := ⟨y 0, y 1, eq_ix2 y⟩
  obtain ⟨r, q', rfl⟩ : ∃ (r : Fin 50000) (q' : Fin 256), i = ix2 r q' := ⟨i 0, i 1, eq_ix2 i⟩
  obtain rfl : q' = q := Fin.ext hi1
  have e0 : ∀ k : Fin 256, x0 (ix2 p k) = A (ix2 r k) := fun k => h0 (ix2 p k) (ix2 r k) hi0 rfl
  have e1 : ∀ k : Fin 256, x1 (ix2 p k) = H (ix2 r k) := fun k => h1 (ix2 p k) (ix2 r k) hi0 rfl
  rw [pay3_apply, lin256_apply, ← linAt_eq, h2, h3, h4, shapeCast_a_1a_apply]
  simp only [e0, e1]

/-- What point `t` writes back is block `t` of the layer of the whole tables. -/
theorem flushed3_eq (b : FVec Ideal S256 .f32) (hb : V c main_v67 = shapeCast S1x256 b Facts₀.shapeCasts_S256_S1x256)
    (t : Fin cfg3.N) :
    (dat3 V c).flushed 5 t = ((cfg3.win 5).blk t).view.read (Elt Ideal)
      (lin256 (V c main_v66) (V c main_v54) (V c main_arg11) (V c main_arg12) b) := by
  show (cfg3.win 5).cut (grid3.coords t) ((dat3 V c).after 5 t) = _
  rw [after3_5]
  unfold out3_5
  rw [View.canon_unit_zero hz]
  simp only [View.ld_unit_zero (S := S2000x256) hz, View.ld_unit_zero (S := S256x256) hz, View.ld_unit_zero (S := S1x256) hz]
  obtain ⟨e0, e1⟩ := (idx3 t).2.2.2.2.2.2.2.2.2.2.1, (idx3 t).2.2.2.2.2.2.2.2.2.2.2
  funext y
  show k3_pay1 (iblk3 V c 0 t) (iblk3 V c 1 t) (iblk3 V c 2 t) (iblk3 V c 3 t) (iblk3 V c 4 t) y
    = lin256 (V c main_v66) (V c main_v54) (V c main_arg11) (V c main_arg12) b (((cfg3.win 5).blk t).view.emb y)
  refine block3 (V c main_v66) (V c main_v54) (V c main_arg11) (V c main_arg12) b
    (iblk3 V c 0 t) (iblk3 V c 1 t) (iblk3 V c 2 t) (iblk3 V c 3 t) (iblk3 V c 4 t) t.val
    (iblk3_0_apply V c t) (iblk3_1_apply V c t) (iblk3_2_eq V c t) (iblk3_3_eq V c t) ((iblk3_4_eq V c t).trans hb)
    y (((cfg3.win 5).blk t).view.emb y) ?_ ?_
  · show win3_5.index t (0 : Fin 2) * 2000 + 1 * (y 0).val = t.val * 2000 + (y 0).val
    rw [e0]; omega
  · show win3_5.index t (1 : Fin 2) * 256 + 1 * (y 1).val = (y 1).val
    rw [e1]; omega

/-- An index of the result table is in point `t`'s block iff each coordinate is in the block's range on its axis. -/
theorem mem_blk3 (t : Fin cfg3.N) (i : S50000x256.Idx) :
    i ∈ ((cfg3.win 5).blk t).view.set ↔ ∀ a : Fin 2, win3_5.index t a * S2000x256.size a ≤ (i a).val
      ∧ (i a).val < win3_5.index t a * S2000x256.size a + S2000x256.size a := by
  show i ∈ ((View.whole main_v68).slice (win3_5.rect t)).set ↔ _
  rw [View.set_slice_whole, Rect.mem_set_unit]
  exact Iff.rfl

/-- Row `r` of the result table lies in the block of point `r / 2000`: the 25 blocks cover the table. -/
theorem cover3 (i : S50000x256.Idx) :
    ∃ t : Fin cfg3.N, (cfg3.win 5).flush t = true ∧ i ∈ ((cfg3.win 5).blk t).view.set := by
  have hi0 : (i 0).val < 50000 := (i 0).isLt
  have hi1 : (i 1).val < 256 := (i 1).isLt
  have hN : cfg3.N = 25 := N_3
  have ht : (i 0).val / 2000 < cfg3.N := by rw [hN]; omega
  obtain ⟨e0, e1⟩ := (idx3 ⟨(i 0).val / 2000, ht⟩).2.2.2.2.2.2.2.2.2.2.1, (idx3 ⟨(i 0).val / 2000, ht⟩).2.2.2.2.2.2.2.2.2.2.2
  refine ⟨⟨(i 0).val / 2000, ht⟩, flush3_5 _, ?_⟩
  rw [mem_blk3]
  intro a
  match a with
  | ⟨0, _⟩ =>
    show win3_5.index ⟨(i 0).val / 2000, ht⟩ (0 : Fin 2) * 2000 ≤ (i 0).val
      ∧ (i 0).val < win3_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win3_5.index ⟨(i 0).val / 2000, ht⟩ (1 : Fin 2) * 256 ≤ (i 1).val
      ∧ (i 1).val < win3_5.index ⟨(i 0).val / 2000, ht⟩ (1 : Fin 2) * 256 + 256
    rw [e1]; omega

/-- REGION 3: after its 25 points the result table is the layer of the tables the region was entered with. -/
theorem region3 (b : FVec Ideal S256 .f32) (hb : V c main_v67 = shapeCast S1x256 b Facts₀.shapeCasts_S256_S1x256) :
    (dat3 V c).arrAt 5 cfg3.N = lin256 (V c main_v66) (V c main_v54) (V c main_arg11) (V c main_arg12) b :=
  (dat3 V c).arrAt_eq_of_cover 5 _ (fun t _ => flushed3_eq V c b hb t) cover3

end Cert.KernelIdeal.SageK

end
-- ==== Proof.KReg4.lean ====
/-
  Region 4 of the kernel — head 0 (width 128) — as one function of whole arrays.

  The region runs 25 grid points.  At point `t` the body reads rows `2000 t … 2000 t + 1999` of the aggregated table `a` and of
  the node table `h`, the two whole weight matrices and the bias as a row `[1, 128]`, and stores
      (a · Wl + h · Wr) + b
  for those rows; the two products are into a zero block and rounding the operands is the identity over the extended
  reals.  Entry `(p, q)` of the stored block is therefore the entry `(2000 t + p, q)` of `(a · Wl + b) + h · Wr` of the
  whole tables — the bias moved past the second product by commutativity and associativity of addition —, the 25 blocks
  cover the result table, and so the table ends holding that function of the tables the region was entered with.
-/
import proofs.«130929_j9491877724563_1_alg».proof.Proof.Gen.KernelIdeal.Frame
import proofs.«130929_j9491877724563_1_alg».proof.Proof.KLayerRef
import proofs.«130929_j9491877724563_1_alg».proof.Proof.KLayerKer

noncomputable section

open scoped BigOperators

namespace Cert.KernelIdeal.SageK

open Idealize.ShloMosaic Idealize.ShloMosaic.TcCoe Idealize.SL.Sem Idealize.ShloMosaic.ValueIdx
open Cert.KernelIdeal Cert.KernelIdeal.Gen
open Cert.ReferenceIdeal.Sage (leaky lin256 lin128)

/-- One entry of the body's result from its five input blocks: the two products into the zero block added, the bias row
    repeated down the rows added; rounding the operands is the identity over the extended reals. -/
theorem pay4_apply (x0 x1 : Vec Ideal S2000x256 .f32) (x2 x3 : Vec Ideal S256x128 .f32) (x4 : Vec Ideal S1x128 .f32)
    (p : Fin 2000) (q : Fin 128) :
    k4_pay1 x0 x1 x2 x3 x4 (ix2 p q)
      = (∑ k : Fin 256, x0 (ix2 p k) * x2 (ix2 k q) + ∑ k : Fin 256, x1 (ix2 p k) * x3 (ix2 k q)) + x4 (ix2 (0 : Fin 1) q) := by
  unfold k4_pay1
  repeat rw [shapeCast_self]
  rw [addf_apply,
    addf_apply, mm128_apply, mm128_apply, broadcastTo_1b_ab_apply]
  rfl

/-- The printed index maps, decided over the 25 grid points: at point `t` the two row windows and the output window are at
    block `(t, 0)`; the two weight windows and the bias window are at block `(0, 0)`. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

variable (V : (c : Dev nD) → (b : Ref sig .tc) → Buf (Elt Ideal) ((c : Thread nD τ).loc b)) (c : Dev nD)

/-- Window 0's block at point `t` is rows `2000 t … 2000 t + 1999` of the aggregated table. -/
theorem iblk4_0_apply (t : Fin cfg4.N) (y : S2000x256.Idx) (i : S50000x256.Idx)
    (h0 : (i 0).val = t.val * 2000 + (y 0).val) (h1 : (i 1).val = (y 1).val) :
    (iblk4 V c 0 t : Vec Ideal S2000x256 .f32) y = (V c main_v80 : S50000x256.Idx → EReal) i := by
  obtain ⟨e0, e1⟩ := (idx4 t).1, (idx4 t).2.1
  unfold iblk4
  rw [View.read_apply]
  show V c main_v80 _ = V c main_v80 _
  refine congrArg (V c main_v80) ?_
  funext a
  apply Fin.ext
  match a with
  | ⟨0, _⟩ => show win4_0.index t (0 : Fin 2) * 2000 + 1 * (y 0).val = (i 0).val; rw [e0, h0]; omega
  | ⟨1, _⟩ => show win4_0.index t (1 : Fin 2) * 256 + 1 * (y 1).val = (i 1).val; rw [e1, h1]; omega

/-- Window 1's block at point `t` is rows `2000 t … 2000 t + 1999` of the node table. -/
theorem iblk4_1_apply (t : Fin cfg4.N) (y : S2000x256.Idx) (i : S50000x256.Idx)
    (h0 : (i 0).val = t.val * 2000 + (y 0).val) (h1 : (i 1).val = (y 1).val) :
    (iblk4 V c 1 t : Vec Ideal S2000x256 .f32) y = (V c main_v68 : S50000x256.Idx → EReal) i := by
  obtain ⟨e0, e1⟩ := (idx4 t).2.2.1, (idx4 t).2.2.2.1
  unfold iblk4
  rw [View.read_apply]
  show V c main_v68 _ = V c main_v68 _
  refine congrArg (V c main_v68) ?_
  funext a
  apply Fin.ext
  match a with
  | ⟨0, _⟩ => show win4_1.index t (0 : Fin 2) * 2000 + 1 * (y 0).val = (i 0).val; rw [e0, h0]; omega
  | ⟨1, _⟩ => show win4_1.index t (1 : Fin 2) * 256 + 1 * (y 1).val = (i 1).val; rw [e1, h1]; omega

/-- Window 2's block at every point is the whole left weight matrix. -/
theorem iblk4_2_eq (t : Fin cfg4.N) : (iblk4 V c 2 t : Vec Ideal S256x128 .f32) = (V c main_arg14 : S256x128.Idx → EReal) := by
  obtain ⟨e0, e1⟩ := (idx4 t).2.2.2.2.1, (idx4 t).2.2.2.2.2.1
  funext y
  unfold iblk4
  rw [View.read_apply]
  show V c main_arg14 _ = V c main_arg14 _
  refine congrArg (V c main_arg14) ?_
  funext a
  apply Fin.ext
  match a with
  | ⟨0, _⟩ => show win4_2.index t (0 : Fin 2) * 256 + 1 * (y 0).val = (y 0).val; rw [e0]; omega
  | ⟨1, _⟩ => show win4_2.index t (1 : Fin 2) * 128 + 1 * (y 1).val = (y 1).val; rw [e1]; omega

/-- Window 3's block at every point is the whole right weight matrix. -/
theorem iblk4_3_eq (t : Fin cfg4.N) : (iblk4 V c 3 t : Vec Ideal S256x128 .f32) = (V c main_arg15 : S256x128.Idx → EReal) := by
  obtain ⟨e0, e1⟩ := (idx4 t).2.2.2.2.2.2.1, (idx4 t).2.2.2.2.2.2.2.1
  funext y
  unfold iblk4
  rw [View.read_apply]
  show V c main_arg15 _ = V c main_arg15 _
  refine congrArg (V c main_arg15) ?_
  funext a
  apply Fin.ext
  match a with
  | ⟨0, _⟩ => show win4_3.index t (0 : Fin 2) * 256 + 1 * (y 0).val = (y 0).val; rw [e0]; omega
  | ⟨1, _⟩ => show win4_3.index t (1 : Fin 2) * 128 + 1 * (y 1).val = (y 1).val; rw [e1]; omega

/-- Window 4's block at every point is the whole bias row. -/
theorem iblk4_4_eq (t : Fin cfg4.N) : (iblk4 V c 4 t : Vec Ideal S1x128 .f32) = (V c main_v81 : S1x128.Idx → EReal) := by
  obtain ⟨e0, e1⟩ := (idx4 t).2.2.2.2.2.2.2.2.1, (idx4 t).2.2.2.2.2.2.2.2.2.1
  funext y
  unfold iblk4
  rw [View.read_apply]
  show V c main_v81 _ = V c main_v81 _
  refine congrArg (V c main_v81) ?_
  funext a
  apply Fin.ext
  match a with
  | ⟨0, _⟩ => show win4_4.index t (0 : Fin 2) * 1 + 1 * (y 0).val = (y 0).val; rw [e0]; omega
  | ⟨1, _⟩ => show win4_4.index t (1 : Fin 2) * 128 + 1 * (y 1).val = (y 1).val; rw [e1]; omega

/-- One entry of the body's result, from blocks that are rows `2000 o …` of the two tables, the two whole weight matrices
    and the bias as a row: the head's entry in row `2000 o + p` of the whole tables (the bias moved past the second
    product). -/
theorem block4 (A H : FVec Ideal S50000x256 .f32) (Wl Wr : FVec Ideal S256x128 .f32) (b : FVec Ideal S128 .f32)
    (x0 x1 : Vec Ideal S2000x256 .f32) (x2 x3 : Vec Ideal S256x128 .f32) (x4 : Vec Ideal S1x128 .f32) (o : ℕ)
    (h0 : ∀ (y : S2000x256.Idx) (i : S50000x256.Idx), (i 0).val = o * 2000 + (y 0).val → (i 1).val = (y 1).val → x0 y = A i)
    (h1 : ∀ (y : S2000x256.Idx) (i : S50000x256.Idx), (i 0).val = o * 2000 + (y 0).val → (i 1).val = (y 1).val → x1 y = H i)
    (h2 : x2 = Wl) (h3 : x3 = Wr) (h4 : x4 = shapeCast S1x128 b Facts₀.shapeCasts_S128_S1x128)
    (y : S2000x128.Idx) (i : S50000x128.Idx) (hi0 : (i 0).val = o * 2000 + (y 0).val) (hi1 : (i 1).val = (y 1).val) :
    k4_pay1 x0 x1 x2 x3 x4 y = lin128 A H Wl Wr b i := by
  obtain ⟨p, q, rfl⟩ : ∃ (p : Fin 2000) (q : Fin 128), y = ix2 p q := ⟨y 0, y 1, eq_ix2 y⟩
  obtain ⟨r, q', rfl⟩ : ∃ (r : Fin 50000) (q' : Fin 128), i = ix2 r q' := ⟨i 0, i 1, eq_ix2 i⟩
  obtain rfl : q' = q := Fin.ext hi1
  have e0 : ∀ k : Fin 256, x0 (ix2 p k) = A (ix2 r k) := fun k => h0 (ix2 p k) (ix2 r k) hi0 rfl
  have e1 : ∀ k : Fin 256, x1 (ix2 p k) = H (ix2 r k) := fun k => h1 (ix2 p k) (ix2 r k) hi0 rfl
  rw [pay4_apply, lin128_apply, ← linAt_eq, h2, h3, h4, shapeCast_a_1a_apply]
  simp only [e0, e1]

/-- What point `t` writes back is block `t` of the head of the whole tables. -/
theorem flushed4_eq (b : FVec Ideal S128 .f32) (hb : V c main_v81 = shapeCast S1x128 b Facts₀.shapeCasts_S128_S1x128)
    (t : Fin cfg4.N) :
    (dat4 V c).flushed 5 t = ((cfg4.win 5).blk t).view.read (Elt Ideal)
      (lin128 (V c main_v80) (V c main_v68) (V c main_arg14) (V c main_arg15) b) := by
  show (cfg4.win 5).cut (grid4.coords t) ((dat4 V c).after 5 t) = _
  rw [after4_5]
  unfold out4_5
  rw [View.canon_unit_zero hz]
  simp only [View.ld_unit_zero (S := S2000x256) hz, View.ld_unit_zero (S := S256x128) hz, View.ld_unit_zero (S := S1x128) hz]
  obtain ⟨e0, e1⟩ := (idx4 t).2.2.2.2.2.2.2.2.2.2.1, (idx4 t).2.2.2.2.2.2.2.2.2.2.2
  funext y
  show k4_pay1 (iblk4 V c 0 t) (iblk4 V c 1 t) (iblk4 V c 2 t) (iblk4 V c 3 t) (iblk4 V c 4 t) y
    = lin128 (V c main_v80) (V c main_v68) (V c main_arg14) (V c main_arg15) b (((cfg4.win 5).blk t).view.emb y)
  refine block4 (V c main_v80) (V c main_v68) (V c main_arg14) (V c main_arg15) b
    (iblk4 V c 0 t) (iblk4 V c 1 t) (iblk4 V c 2 t) (iblk4 V c 3 t) (iblk4 V c 4 t) t.val
    (iblk4_0_apply V c t) (iblk4_1_apply V c t) (iblk4_2_eq V c t) (iblk4_3_eq V c t) ((iblk4_4_eq V c t).trans hb)
    y (((cfg4.win 5).blk t).view.emb y) ?_ ?_
  · show win4_5.index t (0 : Fin 2) * 2000 + 1 * (y 0).val = t.val * 2000 + (y 0).val
    rw [e0]; omega
  · show win4_5.index t (1 : Fin 2) * 128 + 1 * (y 1).val = (y 1).val
    rw [e1]; omega

/-- An index of the result table is in point `t`'s block iff each coordinate is in the block's range on its axis. -/
theorem mem_blk4 (t : Fin cfg4.N) (i : S50000x128.Idx) :
    i ∈ ((cfg4.win 5).blk t).view.set ↔ ∀ a : Fin 2, win4_5.index t a * S2000x128.size a ≤ (i a).val
      ∧ (i a).val < win4_5.index t a * S2000x128.size a + S2000x128.size a := by
  show i ∈ ((View.whole main_v82).slice (win4_5.rect t)).set ↔ _
  rw [View.set_slice_whole, Rect.mem_set_unit]
  exact Iff.rfl

/-- Row `r` of the result table lies in the block of point `r / 2000`: the 25 blocks cover the table. -/
theorem cover4 (i : S50000x128.Idx) :
    ∃ t : Fin cfg4.N, (cfg4.win 5).flush t = true ∧ i ∈ ((cfg4.win 5).blk t).view.set := by
  have hi0 : (i 0).val < 50000 := (i 0).isLt
  have hi1 : (i 1).val < 128 := (i 1).isLt
  have hN : cfg4.N = 25 := N_4
  have ht : (i 0).val / 2000 < cfg4.N := by rw [hN]; omega
  obtain ⟨e0, e1⟩ := (idx4 ⟨(i 0).val / 2000, ht⟩).2.2.2.2.2.2.2.2.2.2.1, (idx4 ⟨(i 0).val / 2000, ht⟩).2.2.2.2.2.2.2.2.2.2.2
  refine ⟨⟨(i 0).val / 2000, ht⟩, flush4_5 _, ?_⟩
  rw [mem_blk4]
  intro a
  match a with
  | ⟨0, _⟩ =>
    show win4_5.index ⟨(i 0).val / 2000, ht⟩ (0 : Fin 2) * 2000 ≤ (i 0).val
      ∧ (i 0).val < win4_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win4_5.index ⟨(i 0).val / 2000, ht⟩ (1 : Fin 2) * 128 ≤ (i 1).val
      ∧ (i 1).val < win4_5.index ⟨(i 0).val / 2000, ht⟩ (1 : Fin 2) * 128 + 128
    rw [e1]; omega

/-- REGION 4: after its 25 points the result table is the head of the tables the region was entered with. -/
theorem region4 (b : FVec Ideal S128 .f32) (hb : V c main_v81 = shapeCast S1x128 b Facts₀.shapeCasts_S128_S1x128) :
    (dat4 V c).arrAt 5 cfg4.N = lin128 (V c main_v80) (V c main_v68) (V c main_arg14) (V c main_arg15) b :=
  (dat4 V c).arrAt_eq_of_cover 5 _ (fun t _ => flushed4_eq V c b hb t) cover4

end Cert.KernelIdeal.SageK

end
-- ==== Proof.KReg5.lean ====
/-
  Region 5 of the kernel — head 1 (width 128) — as one function of whole arrays.

  The region runs 25 grid points.  At point `t` the body reads rows `2000 t … 2000 t + 1999` of the aggregated table `a` and of
  the node table `h`, the two whole weight matrices and the bias as a row `[1, 128]`, and stores
      (a · Wl + h · Wr) + b
  for those rows; the two products are into a zero block and rounding the operands is the identity over the extended
  reals.  Entry `(p, q)` of the stored block is therefore the entry `(2000 t + p, q)` of `(a · Wl + b) + h · Wr` of the
  whole tables — the bias moved past the second product by commutativity and associativity of addition —, the 25 blocks
  cover the result table, and so the table ends holding that function of the tables the region was entered with.
-/
import proofs.«130929_j9491877724563_1_alg».proof.Proof.Gen.KernelIdeal.Frame
import proofs.«130929_j9491877724563_1_alg».proof.Proof.KLayerRef
import proofs.«130929_j9491877724563_1_alg».proof.Proof.KLayerKer

noncomputable section

open scoped BigOperators

namespace Cert.KernelIdeal.SageK

open Idealize.ShloMosaic Idealize.ShloMosaic.TcCoe Idealize.SL.Sem Idealize.ShloMosaic.ValueIdx
open Cert.KernelIdeal Cert.KernelIdeal.Gen
open Cert.ReferenceIdeal.Sage (leaky lin256 lin128)

/-- One entry of the body's result from its five input blocks: the two products into the zero block added, the bias row
    repeated down the rows added; rounding the operands is the identity over the extended reals. -/
theorem pay5_apply (x0 x1 : Vec Ideal S2000x256 .f32) (x2 x3 : Vec Ideal S256x128 .f32) (x4 : Vec Ideal S1x128 .f32)
    (p : Fin 2000) (q : Fin 128) :
    k5_pay1 x0 x1 x2 x3 x4 (ix2 p q)
      = (∑ k : Fin 256, x0 (ix2 p k) * x2 (ix2 k q) + ∑ k : Fin 256, x1 (ix2 p k) * x3 (ix2 k q)) + x4 (ix2 (0 : Fin 1) q) := by
  unfold k5_pay1
  repeat rw [shapeCast_self]
  rw [addf_apply,
    addf_apply, mm128_apply, mm128_apply, broadcastTo_1b_ab_apply]
  rfl

/-- The printed index maps, decided over the 25 grid points: at point `t` the two row windows and the output window are at
    block `(t, 0)`; the two weight windows and the bias window are at block `(0, 0)`. -/
theorem idx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

variable (V : (c : Dev nD) → (b : Ref sig .tc) → Buf (Elt Ideal) ((c : Thread nD τ).loc b)) (c : Dev nD)

/-- Window 0's block at point `t` is rows `2000 t … 2000 t + 1999` of the aggregated table. -/
theorem iblk5_0_apply (t : Fin cfg5.N) (y : S2000x256.Idx) (i : S50000x256.Idx)
    (h0 : (i 0).val = t.val * 2000 + (y 0).val) (h1 : (i 1).val = (y 1).val) :
    (iblk5 V c 0 t : Vec Ideal S2000x256 .f32) y = (V c main_v94 : S50000x256.Idx → EReal) i := by
  obtain ⟨e0, e1⟩ := (idx5 t).1, (idx5 t).2.1
  unfold iblk5
  rw [View.read_apply]
  show V c main_v94 _ = V c main_v94 _
  refine congrArg (V c main_v94) ?_
  funext a
  apply Fin.ext
  match a with
  | ⟨0, _⟩ => show win5_0.index t (0 : Fin 2) * 2000 + 1 * (y 0).val = (i 0).val; rw [e0, h0]; omega
  | ⟨1, _⟩ => show win5_0.index t (1 : Fin 2) * 256 + 1 * (y 1).val = (i 1).val; rw [e1, h1]; omega

/-- Window 1's block at point `t` is rows `2000 t … 2000 t + 1999` of the node table. -/
theorem iblk5_1_apply (t : Fin cfg5.N) (y : S2000x256.Idx) (i : S50000x256.Idx)
    (h0 : (i 0).val = t.val * 2000 + (y 0).val) (h1 : (i 1).val = (y 1).val) :
    (iblk5 V c 1 t : Vec Ideal S2000x256 .f32) y = (V c main_v68 : S50000x256.Idx → EReal) i := by
  obtain ⟨e0, e1⟩ := (idx5 t).2.2.1, (idx5 t).2.2.2.1
  unfold iblk5
  rw [View.read_apply]
  show V c main_v68 _ = V c main_v68 _
  refine congrArg (V c main_v68) ?_
  funext a
  apply Fin.ext
  match a with
  | ⟨0, _⟩ => show win5_1.index t (0 : Fin 2) * 2000 + 1 * (y 0).val = (i 0).val; rw [e0, h0]; omega
  | ⟨1, _⟩ => show win5_1.index t (1 : Fin 2) * 256 + 1 * (y 1).val = (i 1).val; rw [e1, h1]; omega

/-- Window 2's block at every point is the whole left weight matrix. -/
theorem iblk5_2_eq (t : Fin cfg5.N) : (iblk5 V c 2 t : Vec Ideal S256x128 .f32) = (V c main_arg17 : S256x128.Idx → EReal) := by
  obtain ⟨e0, e1⟩ := (idx5 t).2.2.2.2.1, (idx5 t).2.2.2.2.2.1
  funext y
  unfold iblk5
  rw [View.read_apply]
  show V c main_arg17 _ = V c main_arg17 _
  refine congrArg (V c main_arg17) ?_
  funext a
  apply Fin.ext
  match a with
  | ⟨0, _⟩ => show win5_2.index t (0 : Fin 2) * 256 + 1 * (y 0).val = (y 0).val; rw [e0]; omega
  | ⟨1, _⟩ => show win5_2.index t (1 : Fin 2) * 128 + 1 * (y 1).val = (y 1).val; rw [e1]; omega

/-- Window 3's block at every point is the whole right weight matrix. -/
theorem iblk5_3_eq (t : Fin cfg5.N) : (iblk5 V c 3 t : Vec Ideal S256x128 .f32) = (V c main_arg18 : S256x128.Idx → EReal) := by
  obtain ⟨e0, e1⟩ := (idx5 t).2.2.2.2.2.2.1, (idx5 t).2.2.2.2.2.2.2.1
  funext y
  unfold iblk5
  rw [View.read_apply]
  show V c main_arg18 _ = V c main_arg18 _
  refine congrArg (V c main_arg18) ?_
  funext a
  apply Fin.ext
  match a with
  | ⟨0, _⟩ => show win5_3.index t (0 : Fin 2) * 256 + 1 * (y 0).val = (y 0).val; rw [e0]; omega
  | ⟨1, _⟩ => show win5_3.index t (1 : Fin 2) * 128 + 1 * (y 1).val = (y 1).val; rw [e1]; omega

/-- Window 4's block at every point is the whole bias row. -/
theorem iblk5_4_eq (t : Fin cfg5.N) : (iblk5 V c 4 t : Vec Ideal S1x128 .f32) = (V c main_v95 : S1x128.Idx → EReal) := by
  obtain ⟨e0, e1⟩ := (idx5 t).2.2.2.2.2.2.2.2.1, (idx5 t).2.2.2.2.2.2.2.2.2.1
  funext y
  unfold iblk5
  rw [View.read_apply]
  show V c main_v95 _ = V c main_v95 _
  refine congrArg (V c main_v95) ?_
  funext a
  apply Fin.ext
  match a with
  | ⟨0, _⟩ => show win5_4.index t (0 : Fin 2) * 1 + 1 * (y 0).val = (y 0).val; rw [e0]; omega
  | ⟨1, _⟩ => show win5_4.index t (1 : Fin 2) * 128 + 1 * (y 1).val = (y 1).val; rw [e1]; omega

/-- One entry of the body's result, from blocks that are rows `2000 o …` of the two tables, the two whole weight matrices
    and the bias as a row: the head's entry in row `2000 o + p` of the whole tables (the bias moved past the second
    product). -/
theorem block5 (A H : FVec Ideal S50000x256 .f32) (Wl Wr : FVec Ideal S256x128 .f32) (b : FVec Ideal S128 .f32)
    (x0 x1 : Vec Ideal S2000x256 .f32) (x2 x3 : Vec Ideal S256x128 .f32) (x4 : Vec Ideal S1x128 .f32) (o : ℕ)
    (h0 : ∀ (y : S2000x256.Idx) (i : S50000x256.Idx), (i 0).val = o * 2000 + (y 0).val → (i 1).val = (y 1).val → x0 y = A i)
    (h1 : ∀ (y : S2000x256.Idx) (i : S50000x256.Idx), (i 0).val = o * 2000 + (y 0).val → (i 1).val = (y 1).val → x1 y = H i)
    (h2 : x2 = Wl) (h3 : x3 = Wr) (h4 : x4 = shapeCast S1x128 b Facts₀.shapeCasts_S128_S1x128)
    (y : S2000x128.Idx) (i : S50000x128.Idx) (hi0 : (i 0).val = o * 2000 + (y 0).val) (hi1 : (i 1).val = (y 1).val) :
    k5_pay1 x0 x1 x2 x3 x4 y = lin128 A H Wl Wr b i := by
  obtain ⟨p, q, rfl⟩ : ∃ (p : Fin 2000) (q : Fin 128), y = ix2 p q := ⟨y 0, y 1, eq_ix2 y⟩
  obtain ⟨r, q', rfl⟩ : ∃ (r : Fin 50000) (q' : Fin 128), i = ix2 r q' := ⟨i 0, i 1, eq_ix2 i⟩
  obtain rfl : q' = q := Fin.ext hi1
  have e0 : ∀ k : Fin 256, x0 (ix2 p k) = A (ix2 r k) := fun k => h0 (ix2 p k) (ix2 r k) hi0 rfl
  have e1 : ∀ k : Fin 256, x1 (ix2 p k) = H (ix2 r k) := fun k => h1 (ix2 p k) (ix2 r k) hi0 rfl
  rw [pay5_apply, lin128_apply, ← linAt_eq, h2, h3, h4, shapeCast_a_1a_apply]
  simp only [e0, e1]

/-- What point `t` writes back is block `t` of the head of the whole tables. -/
theorem flushed5_eq (b : FVec Ideal S128 .f32) (hb : V c main_v95 = shapeCast S1x128 b Facts₀.shapeCasts_S128_S1x128)
    (t : Fin cfg5.N) :
    (dat5 V c).flushed 5 t = ((cfg5.win 5).blk t).view.read (Elt Ideal)
      (lin128 (V c main_v94) (V c main_v68) (V c main_arg17) (V c main_arg18) b) := by
  show (cfg5.win 5).cut (grid5.coords t) ((dat5 V c).after 5 t) = _
  rw [after5_5]
  unfold out5_5
  rw [View.canon_unit_zero hz]
  simp only [View.ld_unit_zero (S := S2000x256) hz, View.ld_unit_zero (S := S256x128) hz, View.ld_unit_zero (S := S1x128) hz]
  obtain ⟨e0, e1⟩ := (idx5 t).2.2.2.2.2.2.2.2.2.2.1, (idx5 t).2.2.2.2.2.2.2.2.2.2.2
  funext y
  show k5_pay1 (iblk5 V c 0 t) (iblk5 V c 1 t) (iblk5 V c 2 t) (iblk5 V c 3 t) (iblk5 V c 4 t) y
    = lin128 (V c main_v94) (V c main_v68) (V c main_arg17) (V c main_arg18) b (((cfg5.win 5).blk t).view.emb y)
  refine block5 (V c main_v94) (V c main_v68) (V c main_arg17) (V c main_arg18) b
    (iblk5 V c 0 t) (iblk5 V c 1 t) (iblk5 V c 2 t) (iblk5 V c 3 t) (iblk5 V c 4 t) t.val
    (iblk5_0_apply V c t) (iblk5_1_apply V c t) (iblk5_2_eq V c t) (iblk5_3_eq V c t) ((iblk5_4_eq V c t).trans hb)
    y (((cfg5.win 5).blk t).view.emb y) ?_ ?_
  · show win5_5.index t (0 : Fin 2) * 2000 + 1 * (y 0).val = t.val * 2000 + (y 0).val
    rw [e0]; omega
  · show win5_5.index t (1 : Fin 2) * 128 + 1 * (y 1).val = (y 1).val
    rw [e1]; omega

/-- An index of the result table is in point `t`'s block iff each coordinate is in the block's range on its axis. -/
theorem mem_blk5 (t : Fin cfg5.N) (i : S50000x128.Idx) :
    i ∈ ((cfg5.win 5).blk t).view.set ↔ ∀ a : Fin 2, win5_5.index t a * S2000x128.size a ≤ (i a).val
      ∧ (i a).val < win5_5.index t a * S2000x128.size a + S2000x128.size a := by
  show i ∈ ((View.whole main_v96).slice (win5_5.rect t)).set ↔ _
  rw [View.set_slice_whole, Rect.mem_set_unit]
  exact Iff.rfl

/-- Row `r` of the result table lies in the block of point `r / 2000`: the 25 blocks cover the table. -/
theorem cover5 (i : S50000x128.Idx) :
    ∃ t : Fin cfg5.N, (cfg5.win 5).flush t = true ∧ i ∈ ((cfg5.win 5).blk t).view.set := by
  have hi0 : (i 0).val < 50000 := (i 0).isLt
  have hi1 : (i 1).val < 128 := (i 1).isLt
  have hN : cfg5.N = 25 := N_5
  have ht : (i 0).val / 2000 < cfg5.N := by rw [hN]; omega
  obtain ⟨e0, e1⟩ := (idx5 ⟨(i 0).val / 2000, ht⟩).2.2.2.2.2.2.2.2.2.2.1, (idx5 ⟨(i 0).val / 2000, ht⟩).2.2.2.2.2.2.2.2.2.2.2
  refine ⟨⟨(i 0).val / 2000, ht⟩, flush5_5 _, ?_⟩
  rw [mem_blk5]
  intro a
  match a with
  | ⟨0, _⟩ =>
    show win5_5.index ⟨(i 0).val / 2000, ht⟩ (0 : Fin 2) * 2000 ≤ (i 0).val
      ∧ (i 0).val < win5_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win5_5.index ⟨(i 0).val / 2000, ht⟩ (1 : Fin 2) * 128 ≤ (i 1).val
      ∧ (i 1).val < win5_5.index ⟨(i 0).val / 2000, ht⟩ (1 : Fin 2) * 128 + 128
    rw [e1]; omega

/-- REGION 5: after its 25 points the result table is the head of the tables the region was entered with. -/
theorem region5 (b : FVec Ideal S128 .f32) (hb : V c main_v95 = shapeCast S1x128 b Facts₀.shapeCasts_S128_S1x128) :
    (dat5 V c).arrAt 5 cfg5.N = lin128 (V c main_v94) (V c main_v68) (V c main_arg17) (V c main_arg18) b :=
  (dat5 V c).arrAt_eq_of_cover 5 _ (fun t _ => flushed5_eq V c b hb t) cover5

end Cert.KernelIdeal.SageK

end
-- ==== Proof.RefOps.lean ====
/-
  The reference's @main as a list of its 164 host operations (the three activation calls opened at their call sites:
  seven operations each over the call's own buffers), cut where the mathematics cuts it: the edge table's reading, the
  dense part of each of the four stacked layers, each of the three activations, and the two heads.
-/
import proofs.«130929_j9491877724563_1_alg».proof.Proof.Gen.ReferenceIdeal
import Idealize.ShloMosaic.Lib.StableHlo.Run

noncomputable section

namespace Cert.ReferenceIdeal.Sage

open Cert.ReferenceIdeal Cert.ReferenceIdeal.Gen Idealize.ShloMosaic Idealize.ShloMosaic.TcCoe Idealize.SL.Sem Idealize.ShloMosaic.StableHlo

variable {F : FTy → Type} [FloatOps F]

/-- The seventeen operations that read the edge table: its two rows as the source and destination vectors
    (`main_v1`, `main_v3`) and the column `1 / max (deg v) 1` (`main_v12`). -/
def opsPre : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x3F800000#32),
    unary main_cst main_v4 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v3 main_v6 (broadcastInDim S800000x1 ![0] bcast_S800000_S800000x1_0 : (⟨S800000, .i32⟩ : BufTy).Contents (Elt F) → (⟨S800000x1, .i32⟩ : BufTy).Contents (Elt F)),
    ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x3F800000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (maximumf : (⟨S50000, .f32⟩ : BufTy).Contents (Elt F) → (⟨S50000, .f32⟩ : BufTy).Contents (Elt F) → (⟨S50000, .f32⟩ : BufTy).Contents (Elt F)),
    nullary main_cst_2 (constant S_ .f32 0x3F800000#32),
    unary main_cst_2 main_v10 (broadcastInDim S50000 ![] bcast_S_S50000 : (⟨S_, .f32⟩ : BufTy).Contents (Elt F) → (⟨S50000, .f32⟩ : BufTy).Contents (Elt F)),
    binary main_v10 main_v9 main_v11 (Host.divf : (⟨S50000, .f32⟩ : BufTy).Contents (Elt F) → (⟨S50000, .f32⟩ : BufTy).Contents (Elt F) → (⟨S50000, .f32⟩ : BufTy).Contents (Elt F)),
    unary main_v11 main_v12 (broadcastInDim S50000x1 ![0] bcast_S50000_S50000x1_0 : (⟨S50000, .f32⟩ : BufTy).Contents (Elt F) → (⟨S50000x1, .f32⟩ : BufTy).Contents (Elt F)) ]

/-- First layer, dense part: the mean aggregation of the input table `main_arg0` and the two products, into `main_v30`. -/
def opsLin0 : List (HloOp τ sig (Elt F)) :=
  [ nullary main_c (constantI S_ 32 0#32),
    unary main_c main_v13 (broadcastInDim S800000 ![] bcast_S_S800000 : (⟨S_, .i32⟩ : BufTy).Contents (Elt F) → (⟨S800000, .i32⟩ : BufTy).Contents (Elt F)),
    binary main_v1 main_v13 main_v14 (cmpi .slt : (⟨S800000, .i32⟩ : BufTy).Contents (Elt F) → (⟨S800000, .i32⟩ : BufTy).Contents (Elt F) → (⟨S800000, .i1⟩ : BufTy).Contents (Elt F)),
    nullary main_c_3 (constantI S_ 32 50000#32),
    unary main_c_3 main_v15 (broadcastInDim S800000 ![] bcast_S_S800000 : (⟨S_, .i32⟩ : BufTy).Contents (Elt F) → (⟨S800000, .i32⟩ : BufTy).Contents (Elt F)),
    binary main_v1 main_v15 main_v16 (addi : (⟨S800000, .i32⟩ : BufTy).Contents (Elt F) → (⟨S800000, .i32⟩ : BufTy).Contents (Elt F) → (⟨S800000, .i32⟩ : BufTy).Contents (Elt F)),
    ternary main_v14 main_v16 main_v1 main_v17 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v17 main_v18 (broadcastInDim S800000x1 ![0] bcast_S800000_S800000x1_0 : (⟨S800000, .i32⟩ : BufTy).Contents (Elt F) → (⟨S800000x1, .i32⟩ : BufTy).Contents (Elt F)),
    binary main_arg0 main_v18 main_v19 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_4 (constant S_ .f32 0x00000000#32),
    unary main_cst_4 main_v20 (broadcastInDim S50000x256 ![] bcast_S_S50000x256 : (⟨S_, .f32⟩ : BufTy).Contents (Elt F) → (⟨S50000x256, .f32⟩ : BufTy).Contents (Elt F)),
    unary main_v3 main_v21 (broadcastInDim S800000x1 ![0] bcast_S800000_S800000x1_0 : (⟨S800000, .i32⟩ : BufTy).Contents (Elt F) → (⟨S800000x1, .i32⟩ : BufTy).Contents (Elt F)),
    ternary main_v20 main_v21 main_v19 main_v22 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_v12 main_v23 (broadcastInDim S50000x256 ![0, 1] bcast_S50000x1_S50000x256_0_1 : (⟨S50000x1, .f32⟩ : BufTy).Contents (Elt F) → (⟨S50000x256, .f32⟩ : BufTy).Contents (Elt F)),
    binary main_v22 main_v23 main_v24 (mulf : (⟨S50000x256, .f32⟩ : BufTy).Contents (Elt F) → (⟨S50000x256, .f32⟩ : BufTy).Contents (Elt F) → (⟨S50000x256, .f32⟩ : BufTy).Contents (Elt F)),
    binary main_v24 main_arg2 main_v25 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg4 main_v26 (broadcastInDim S1x256 ![1] bcast_S256_S1x256_1 : (⟨S256, .f32⟩ : BufTy).Contents (Elt F) → (⟨S1x256, .f32⟩ : BufTy).Contents (Elt F)),
    unary main_v26 main_v27 (broadcastInDim S50000x256 ![0, 1] bcast_S1x256_S50000x256_0_1 : (⟨S1x256, .f32⟩ : BufTy).Contents (Elt F) → (⟨S50000x256, .f32⟩ : BufTy).Contents (Elt F)),
    binary main_v25 main_v27 main_v28 (addf : (⟨S50000x256, .f32⟩ : BufTy).Contents (Elt F) → (⟨S50000x256, .f32⟩ : BufTy).Contents (Elt F) → (⟨S50000x256, .f32⟩ : BufTy).Contents (Elt F)),
    binary main_arg0 main_arg3 main_v29 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    binary main_v28 main_v29 main_v30 (addf : (⟨S50000x256, .f32⟩ : BufTy).Contents (Elt F) → (⟨S50000x256, .f32⟩ : BufTy).Contents (Elt F) → (⟨S50000x256, .f32⟩ : BufTy).Contents (Elt F)) ]

/-- First layer's activation `s ≥ 0 ? s : 0.01 · s` of `main_v30`, into `main_v31`. -/
def opsAct0 : List (HloOp τ sig (Elt F)) :=
  [ TRef.nullary main_call0.cst (constant S_ .f32 0x00000000#32),
    TRef.unary main_call0.cst main_call0.v0 (broadcastInDim S50000x256 ![] bcast_S_S50000x256),
    TRef.binary (.of main_v30) main_call0.v0 main_call0.v1 (cmpf .oge),
    TRef.nullary main_call0.cst_0 (constant S_ .f32 0x3C23D70A#32),
    TRef.unary main_call0.cst_0 main_call0.v2 (broadcastInDim S50000x256 ![] bcast_S_S50000x256),
    TRef.binary main_call0.v2 (.of main_v30) main_call0.v3 mulf,
    TRef.ternary main_call0.v1 (.of main_v30) main_call0.v3 main_call0.call0.v0 select ]

/-- Second layer, dense part, of the table `main_v31`, into `main_v49`. -/
def opsLin1 : List (HloOp τ sig (Elt F)) :=
  [ nullary main_c_5 (constantI S_ 32 0#32),
    unary main_c_5 main_v32 (broadcastInDim S800000 ![] bcast_S_S800000 : (⟨S_, .i32⟩ : BufTy).Contents (Elt F) → (⟨S800000, .i32⟩ : BufTy).Contents (Elt F)),
    binary main_v1 main_v32 main_v33 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v34 (broadcastInDim S800000 ![] bcast_S_S800000 : (⟨S_, .i32⟩ : BufTy).Contents (Elt F) → (⟨S800000, .i32⟩ : BufTy).Contents (Elt F)),
    binary main_v1 main_v34 main_v35 (addi : (⟨S800000, .i32⟩ : BufTy).Contents (Elt F) → (⟨S800000, .i32⟩ : BufTy).Contents (Elt F) → (⟨S800000, .i32⟩ : BufTy).Contents (Elt F)),
    ternary main_v33 main_v35 main_v1 main_v36 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v36 main_v37 (broadcastInDim S800000x1 ![0] bcast_S800000_S800000x1_0 : (⟨S800000, .i32⟩ : BufTy).Contents (Elt F) → (⟨S800000x1, .i32⟩ : BufTy).Contents (Elt F)),
    binary main_v31 main_v37 main_v38 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_7 (constant S_ .f32 0x00000000#32),
    unary main_cst_7 main_v39 (broadcastInDim S50000x256 ![] bcast_S_S50000x256 : (⟨S_, .f32⟩ : BufTy).Contents (Elt F) → (⟨S50000x256, .f32⟩ : BufTy).Contents (Elt F)),
    unary main_v3 main_v40 (broadcastInDim S800000x1 ![0] bcast_S800000_S800000x1_0 : (⟨S800000, .i32⟩ : BufTy).Contents (Elt F) → (⟨S800000x1, .i32⟩ : BufTy).Contents (Elt F)),
    ternary main_v39 main_v40 main_v38 main_v41 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_v12 main_v42 (broadcastInDim S50000x256 ![0, 1] bcast_S50000x1_S50000x256_0_1 : (⟨S50000x1, .f32⟩ : BufTy).Contents (Elt F) → (⟨S50000x256, .f32⟩ : BufTy).Contents (Elt F)),
    binary main_v41 main_v42 main_v43 (mulf : (⟨S50000x256, .f32⟩ : BufTy).Contents (Elt F) → (⟨S50000x256, .f32⟩ : BufTy).Contents (Elt F) → (⟨S50000x256, .f32⟩ : BufTy).Contents (Elt F)),
    binary main_v43 main_arg5 main_v44 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg7 main_v45 (broadcastInDim S1x256 ![1] bcast_S256_S1x256_1 : (⟨S256, .f32⟩ : BufTy).Contents (Elt F) → (⟨S1x256, .f32⟩ : BufTy).Contents (Elt F)),
    unary main_v45 main_v46 (broadcastInDim S50000x256 ![0, 1] bcast_S1x256_S50000x256_0_1 : (⟨S1x256, .f32⟩ : BufTy).Contents (Elt F) → (⟨S50000x256, .f32⟩ : BufTy).Contents (Elt F)),
    binary main_v44 main_v46 main_v47 (addf : (⟨S50000x256, .f32⟩ : BufTy).Contents (Elt F) → (⟨S50000x256, .f32⟩ : BufTy).Contents (Elt F) → (⟨S50000x256, .f32⟩ : BufTy).Contents (Elt F)),
    binary main_v31 main_arg6 main_v48 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    binary main_v47 main_v48 main_v49 (addf : (⟨S50000x256, .f32⟩ : BufTy).Contents (Elt F) → (⟨S50000x256, .f32⟩ : BufTy).Contents (Elt F) → (⟨S50000x256, .f32⟩ : BufTy).Contents (Elt F)) ]

/-- Second layer's activation of `main_v49`, into `main_v50`. -/
def opsAct1 : List (HloOp τ sig (Elt F)) :=
  [ TRef.nullary main_call1.cst (constant S_ .f32 0x00000000#32),
    TRef.unary main_call1.cst main_call1.v0 (broadcastInDim S50000x256 ![] bcast_S_S50000x256),
    TRef.binary (.of main_v49) main_call1.v0 main_call1.v1 (cmpf .oge),
    TRef.nullary main_call1.cst_0 (constant S_ .f32 0x3C23D70A#32),
    TRef.unary main_call1.cst_0 main_call1.v2 (broadcastInDim S50000x256 ![] bcast_S_S50000x256),
    TRef.binary main_call1.v2 (.of main_v49) main_call1.v3 mulf,
    TRef.ternary main_call1.v1 (.of main_v49) main_call1.v3 main_call1.call0.v0 select ]

/-- Third layer, dense part, of the table `main_v50`, into `main_v68`. -/
def opsLin2 : List (HloOp τ sig (Elt F)) :=
  [ nullary main_c_8 (constantI S_ 32 0#32),
    unary main_c_8 main_v51 (broadcastInDim S800000 ![] bcast_S_S800000 : (⟨S_, .i32⟩ : BufTy).Contents (Elt F) → (⟨S800000, .i32⟩ : BufTy).Contents (Elt F)),
    binary main_v1 main_v51 main_v52 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v53 (broadcastInDim S800000 ![] bcast_S_S800000 : (⟨S_, .i32⟩ : BufTy).Contents (Elt F) → (⟨S800000, .i32⟩ : BufTy).Contents (Elt F)),
    binary main_v1 main_v53 main_v54 (addi : (⟨S800000, .i32⟩ : BufTy).Contents (Elt F) → (⟨S800000, .i32⟩ : BufTy).Contents (Elt F) → (⟨S800000, .i32⟩ : BufTy).Contents (Elt F)),
    ternary main_v52 main_v54 main_v1 main_v55 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v55 main_v56 (broadcastInDim S800000x1 ![0] bcast_S800000_S800000x1_0 : (⟨S800000, .i32⟩ : BufTy).Contents (Elt F) → (⟨S800000x1, .i32⟩ : BufTy).Contents (Elt F)),
    binary main_v50 main_v56 main_v57 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_10 (constant S_ .f32 0x00000000#32),
    unary main_cst_10 main_v58 (broadcastInDim S50000x256 ![] bcast_S_S50000x256 : (⟨S_, .f32⟩ : BufTy).Contents (Elt F) → (⟨S50000x256, .f32⟩ : BufTy).Contents (Elt F)),
    unary main_v3 main_v59 (broadcastInDim S800000x1 ![0] bcast_S800000_S800000x1_0 : (⟨S800000, .i32⟩ : BufTy).Contents (Elt F) → (⟨S800000x1, .i32⟩ : BufTy).Contents (Elt F)),
    ternary main_v58 main_v59 main_v57 main_v60 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_v12 main_v61 (broadcastInDim S50000x256 ![0, 1] bcast_S50000x1_S50000x256_0_1 : (⟨S50000x1, .f32⟩ : BufTy).Contents (Elt F) → (⟨S50000x256, .f32⟩ : BufTy).Contents (Elt F)),
    binary main_v60 main_v61 main_v62 (mulf : (⟨S50000x256, .f32⟩ : BufTy).Contents (Elt F) → (⟨S50000x256, .f32⟩ : BufTy).Contents (Elt F) → (⟨S50000x256, .f32⟩ : BufTy).Contents (Elt F)),
    binary main_v62 main_arg8 main_v63 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg10 main_v64 (broadcastInDim S1x256 ![1] bcast_S256_S1x256_1 : (⟨S256, .f32⟩ : BufTy).Contents (Elt F) → (⟨S1x256, .f32⟩ : BufTy).Contents (Elt F)),
    unary main_v64 main_v65 (broadcastInDim S50000x256 ![0, 1] bcast_S1x256_S50000x256_0_1 : (⟨S1x256, .f32⟩ : BufTy).Contents (Elt F) → (⟨S50000x256, .f32⟩ : BufTy).Contents (Elt F)),
    binary main_v63 main_v65 main_v66 (addf : (⟨S50000x256, .f32⟩ : BufTy).Contents (Elt F) → (⟨S50000x256, .f32⟩ : BufTy).Contents (Elt F) → (⟨S50000x256, .f32⟩ : BufTy).Contents (Elt F)),
    binary main_v50 main_arg9 main_v67 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    binary main_v66 main_v67 main_v68 (addf : (⟨S50000x256, .f32⟩ : BufTy).Contents (Elt F) → (⟨S50000x256, .f32⟩ : BufTy).Contents (Elt F) → (⟨S50000x256, .f32⟩ : BufTy).Contents (Elt F)) ]

/-- Third layer's activation of `main_v68`, into `main_v69`. -/
def opsAct2 : List (HloOp τ sig (Elt F)) :=
  [ TRef.nullary main_call2.cst (constant S_ .f32 0x00000000#32),
    TRef.unary main_call2.cst main_call2.v0 (broadcastInDim S50000x256 ![] bcast_S_S50000x256),
    TRef.binary (.of main_v68) main_call2.v0 main_call2.v1 (cmpf .oge),
    TRef.nullary main_call2.cst_0 (constant S_ .f32 0x3C23D70A#32),
    TRef.unary main_call2.cst_0 main_call2.v2 (broadcastInDim S50000x256 ![] bcast_S_S50000x256),
    TRef.binary main_call2.v2 (.of main_v68) main_call2.v3 mulf,
    TRef.ternary main_call2.v1 (.of main_v68) main_call2.v3 main_call2.call0.v0 select ]

/-- Fourth layer (no activation), of the table `main_v69`, into `main_v87`. -/
def opsLin3 : List (HloOp τ sig (Elt F)) :=
  [ nullary main_c_11 (constantI S_ 32 0#32),
    unary main_c_11 main_v70 (broadcastInDim S800000 ![] bcast_S_S800000 : (⟨S_, .i32⟩ : BufTy).Contents (Elt F) → (⟨S800000, .i32⟩ : BufTy).Contents (Elt F)),
    binary main_v1 main_v70 main_v71 (cmpi .slt : (⟨S800000, .i32⟩ : BufTy).Contents (Elt F) → (⟨S800000, .i32⟩ : BufTy).Contents (Elt F) → (⟨S800000, .i1⟩ : BufTy).Contents (Elt F)),
    nullary main_c_12 (constantI S_ 32 50000#32),
    unary main_c_12 main_v72 (broadcastInDim S800000 ![] bcast_S_S800000 : (⟨S_, .i32⟩ : BufTy).Contents (Elt F) → (⟨S800000, .i32⟩ : BufTy).Contents (Elt F)),
    binary main_v1 main_v72 main_v73 (addi : (⟨S800000, .i32⟩ : BufTy).Contents (Elt F) → (⟨S800000, .i32⟩ : BufTy).Contents (Elt F) → (⟨S800000, .i32⟩ : BufTy).Contents (Elt F)),
    ternary main_v71 main_v73 main_v1 main_v74 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v74 main_v75 (broadcastInDim S800000x1 ![0] bcast_S800000_S800000x1_0 : (⟨S800000, .i32⟩ : BufTy).Contents (Elt F) → (⟨S800000x1, .i32⟩ : BufTy).Contents (Elt F)),
    binary main_v69 main_v75 main_v76 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_13 (constant S_ .f32 0x00000000#32),
    unary main_cst_13 main_v77 (broadcastInDim S50000x256 ![] bcast_S_S50000x256 : (⟨S_, .f32⟩ : BufTy).Contents (Elt F) → (⟨S50000x256, .f32⟩ : BufTy).Contents (Elt F)),
    unary main_v3 main_v78 (broadcastInDim S800000x1 ![0] bcast_S800000_S800000x1_0 : (⟨S800000, .i32⟩ : BufTy).Contents (Elt F) → (⟨S800000x1, .i32⟩ : BufTy).Contents (Elt F)),
    ternary main_v77 main_v78 main_v76 main_v79 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_v12 main_v80 (broadcastInDim S50000x256 ![0, 1] bcast_S50000x1_S50000x256_0_1 : (⟨S50000x1, .f32⟩ : BufTy).Contents (Elt F) → (⟨S50000x256, .f32⟩ : BufTy).Contents (Elt F)),
    binary main_v79 main_v80 main_v81 (mulf : (⟨S50000x256, .f32⟩ : BufTy).Contents (Elt F) → (⟨S50000x256, .f32⟩ : BufTy).Contents (Elt F) → (⟨S50000x256, .f32⟩ : BufTy).Contents (Elt F)),
    binary main_v81 main_arg11 main_v82 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg13 main_v83 (broadcastInDim S1x256 ![1] bcast_S256_S1x256_1 : (⟨S256, .f32⟩ : BufTy).Contents (Elt F) → (⟨S1x256, .f32⟩ : BufTy).Contents (Elt F)),
    unary main_v83 main_v84 (broadcastInDim S50000x256 ![0, 1] bcast_S1x256_S50000x256_0_1 : (⟨S1x256, .f32⟩ : BufTy).Contents (Elt F) → (⟨S50000x256, .f32⟩ : BufTy).Contents (Elt F)),
    binary main_v82 main_v84 main_v85 (addf : (⟨S50000x256, .f32⟩ : BufTy).Contents (Elt F) → (⟨S50000x256, .f32⟩ : BufTy).Contents (Elt F) → (⟨S50000x256, .f32⟩ : BufTy).Contents (Elt F)),
    binary main_v69 main_arg12 main_v86 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    binary main_v85 main_v86 main_v87 (addf : (⟨S50000x256, .f32⟩ : BufTy).Contents (Elt F) → (⟨S50000x256, .f32⟩ : BufTy).Contents (Elt F) → (⟨S50000x256, .f32⟩ : BufTy).Contents (Elt F)) ]

/-- First head, up to the product of the aggregated table with its left weight (`main_v100`). -/
def opsHd0a : List (HloOp τ sig (Elt F)) :=
  [ nullary main_c_14 (constantI S_ 32 0#32),
    unary main_c_14 main_v88 (broadcastInDim S800000 ![] bcast_S_S800000 : (⟨S_, .i32⟩ : BufTy).Contents (Elt F) → (⟨S800000, .i32⟩ : BufTy).Contents (Elt F)),
    binary main_v1 main_v88 main_v89 (cmpi .slt : (⟨S800000, .i32⟩ : BufTy).Contents (Elt F) → (⟨S800000, .i32⟩ : BufTy).Contents (Elt F) → (⟨S800000, .i1⟩ : BufTy).Contents (Elt F)),
    nullary main_c_15 (constantI S_ 32 50000#32),
    unary main_c_15 main_v90 (broadcastInDim S800000 ![] bcast_S_S800000 : (⟨S_, .i32⟩ : BufTy).Contents (Elt F) → (⟨S800000, .i32⟩ : BufTy).Contents (Elt F)),
    binary main_v1 main_v90 main_v91 (addi : (⟨S800000, .i32⟩ : BufTy).Contents (Elt F) → (⟨S800000, .i32⟩ : BufTy).Contents (Elt F) → (⟨S800000, .i32⟩ : BufTy).Contents (Elt F)),
    ternary main_v89 main_v91 main_v1 main_v92 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v92 main_v93 (broadcastInDim S800000x1 ![0] bcast_S800000_S800000x1_0 : (⟨S800000, .i32⟩ : BufTy).Contents (Elt F) → (⟨S800000x1, .i32⟩ : BufTy).Contents (Elt F)),
    binary main_v87 main_v93 main_v94 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_16 (constant S_ .f32 0x00000000#32),
    unary main_cst_16 main_v95 (broadcastInDim S50000x256 ![] bcast_S_S50000x256 : (⟨S_, .f32⟩ : BufTy).Contents (Elt F) → (⟨S50000x256, .f32⟩ : BufTy).Contents (Elt F)),
    unary main_v3 main_v96 (broadcastInDim S800000x1 ![0] bcast_S800000_S800000x1_0 : (⟨S800000, .i32⟩ : BufTy).Contents (Elt F) → (⟨S800000x1, .i32⟩ : BufTy).Contents (Elt F)),
    ternary main_v95 main_v96 main_v94 main_v97 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_v12 main_v98 (broadcastInDim S50000x256 ![0, 1] bcast_S50000x1_S50000x256_0_1 : (⟨S50000x1, .f32⟩ : BufTy).Contents (Elt F) → (⟨S50000x256, .f32⟩ : BufTy).Contents (Elt F)),
    binary main_v97 main_v98 main_v99 (mulf : (⟨S50000x256, .f32⟩ : BufTy).Contents (Elt F) → (⟨S50000x256, .f32⟩ : BufTy).Contents (Elt F) → (⟨S50000x256, .f32⟩ : BufTy).Contents (Elt F)),
    binary main_v99 main_arg14 main_v100 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)) ]

/-- First head, the bias and the second product, into `main_v105`. -/
def opsHd0b : List (HloOp τ sig (Elt F)) :=
  [ unary main_arg16 main_v101 (broadcastInDim S1x128 ![1] bcast_S128_S1x128_1 : (⟨S128, .f32⟩ : BufTy).Contents (Elt F) → (⟨S1x128, .f32⟩ : BufTy).Contents (Elt F)),
    unary main_v101 main_v102 (broadcastInDim S50000x128 ![0, 1] bcast_S1x128_S50000x128_0_1 : (⟨S1x128, .f32⟩ : BufTy).Contents (Elt F) → (⟨S50000x128, .f32⟩ : BufTy).Contents (Elt F)),
    binary main_v100 main_v102 main_v103 (addf : (⟨S50000x128, .f32⟩ : BufTy).Contents (Elt F) → (⟨S50000x128, .f32⟩ : BufTy).Contents (Elt F) → (⟨S50000x128, .f32⟩ : BufTy).Contents (Elt F)),
    binary main_v87 main_arg15 main_v104 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    binary main_v103 main_v104 main_v105 (addf : (⟨S50000x128, .f32⟩ : BufTy).Contents (Elt F) → (⟨S50000x128, .f32⟩ : BufTy).Contents (Elt F) → (⟨S50000x128, .f32⟩ : BufTy).Contents (Elt F)) ]

/-- Second head, of the table `main_v87`, into `main_v123`. -/
def opsHd1 : List (HloOp τ sig (Elt F)) :=
  [ nullary main_c_17 (constantI S_ 32 0#32),
    unary main_c_17 main_v106 (broadcastInDim S800000 ![] bcast_S_S800000 : (⟨S_, .i32⟩ : BufTy).Contents (Elt F) → (⟨S800000, .i32⟩ : BufTy).Contents (Elt F)),
    binary main_v1 main_v106 main_v107 (cmpi .slt : (⟨S800000, .i32⟩ : BufTy).Contents (Elt F) → (⟨S800000, .i32⟩ : BufTy).Contents (Elt F) → (⟨S800000, .i1⟩ : BufTy).Contents (Elt F)),
    nullary main_c_18 (constantI S_ 32 50000#32),
    unary main_c_18 main_v108 (broadcastInDim S800000 ![] bcast_S_S800000 : (⟨S_, .i32⟩ : BufTy).Contents (Elt F) → (⟨S800000, .i32⟩ : BufTy).Contents (Elt F)),
    binary main_v1 main_v108 main_v109 (addi : (⟨S800000, .i32⟩ : BufTy).Contents (Elt F) → (⟨S800000, .i32⟩ : BufTy).Contents (Elt F) → (⟨S800000, .i32⟩ : BufTy).Contents (Elt F)),
    ternary main_v107 main_v109 main_v1 main_v110 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v110 main_v111 (broadcastInDim S800000x1 ![0] bcast_S800000_S800000x1_0 : (⟨S800000, .i32⟩ : BufTy).Contents (Elt F) → (⟨S800000x1, .i32⟩ : BufTy).Contents (Elt F)),
    binary main_v87 main_v111 main_v112 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_19 (constant S_ .f32 0x00000000#32),
    unary main_cst_19 main_v113 (broadcastInDim S50000x256 ![] bcast_S_S50000x256 : (⟨S_, .f32⟩ : BufTy).Contents (Elt F) → (⟨S50000x256, .f32⟩ : BufTy).Contents (Elt F)),
    unary main_v3 main_v114 (broadcastInDim S800000x1 ![0] bcast_S800000_S800000x1_0 : (⟨S800000, .i32⟩ : BufTy).Contents (Elt F) → (⟨S800000x1, .i32⟩ : BufTy).Contents (Elt F)),
    ternary main_v113 main_v114 main_v112 main_v115 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_v12 main_v116 (broadcastInDim S50000x256 ![0, 1] bcast_S50000x1_S50000x256_0_1 : (⟨S50000x1, .f32⟩ : BufTy).Contents (Elt F) → (⟨S50000x256, .f32⟩ : BufTy).Contents (Elt F)),
    binary main_v115 main_v116 main_v117 (mulf : (⟨S50000x256, .f32⟩ : BufTy).Contents (Elt F) → (⟨S50000x256, .f32⟩ : BufTy).Contents (Elt F) → (⟨S50000x256, .f32⟩ : BufTy).Contents (Elt F)),
    binary main_v117 main_arg17 main_v118 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg19 main_v119 (broadcastInDim S1x128 ![1] bcast_S128_S1x128_1 : (⟨S128, .f32⟩ : BufTy).Contents (Elt F) → (⟨S1x128, .f32⟩ : BufTy).Contents (Elt F)),
    unary main_v119 main_v120 (broadcastInDim S50000x128 ![0, 1] bcast_S1x128_S50000x128_0_1 : (⟨S1x128, .f32⟩ : BufTy).Contents (Elt F) → (⟨S50000x128, .f32⟩ : BufTy).Contents (Elt F)),
    binary main_v118 main_v120 main_v121 (addf : (⟨S50000x128, .f32⟩ : BufTy).Contents (Elt F) → (⟨S50000x128, .f32⟩ : BufTy).Contents (Elt F) → (⟨S50000x128, .f32⟩ : BufTy).Contents (Elt F)),
    binary main_v87 main_arg18 main_v122 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    binary main_v121 main_v122 main_v123 (addf : (⟨S50000x128, .f32⟩ : BufTy).Contents (Elt F) → (⟨S50000x128, .f32⟩ : BufTy).Contents (Elt F) → (⟨S50000x128, .f32⟩ : BufTy).Contents (Elt F)) ]

/-- @main's first window: the edge table's reading, the first layer and the second layer's dense part. -/
def ops0 : List (HloOp τ sig (Elt F)) := opsPre ++ (opsLin0 ++ (opsAct0 ++ opsLin1))
/-- @main's second window: from the second activation to the first head's first product. -/
def ops1 : List (HloOp τ sig (Elt F)) := opsAct1 ++ (opsLin2 ++ (opsAct2 ++ (opsLin3 ++ opsHd0a)))
/-- @main's third window: the rest of the first head, and the second head. -/
def ops2 : List (HloOp τ sig (Elt F)) := opsHd0b ++ opsHd1
/-- @main's operations, in order. -/
def ops : List (HloOp τ sig (Elt F)) := ops0 ++ (ops1 ++ ops2)

/-- The contents after two lines run one after the other: the second line's fold over the first's. -/
theorem after_append {τ : Topo} {sig : RefSig} {Val : EltTy → Type} (a b : List (HloOp τ sig Val)) (V : Valuation τ sig Val) :
    after (a ++ b) V = after b (after a V) := by
  induction a generalizing V with
  | nil => rfl
  | cons op l ih => simp only [List.cons_append, after_cons, ih]

end Cert.ReferenceIdeal.Sage

end
-- ==== Proof.RefOpsMain.lean ====
/-
  The reference's @main is the straight line of RefOps.lean's operations: each of its three windows is its own stretch
  of the list (the activation calls unfold to their seven operations), and the windows run in order. Beside it, what the
  run of a straight line asks of the list: every operation touches TensorCore buffers only, and none leaves a buffer undetermined.
-/
import proofs.«130929_j9491877724563_1_alg».proof.Proof.RefOps

noncomputable section

namespace Cert.ReferenceIdeal.Sage

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem main_part0_eq (c : Dev nD) : main_part0 (F := F) c = seq ops0 := rfl
set_option maxRecDepth 8192 in
theorem main_part1_eq (c : Dev nD) : main_part1 (F := F) c = seq ops1 := rfl
set_option maxRecDepth 8192 in
theorem main_part2_eq (c : Dev nD) : main_part2 (F := F) c = seq ops2 := rfl

theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem opsPre_sub : (opsPre : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub ..⟩
theorem opsLin0_sub : (opsLin0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., binary_bufs_sub .., unary_bufs_sub .., unary_bufs_sub .., binary_bufs_sub .., binary_bufs_sub .., binary_bufs_sub ..⟩
theorem opsAct0_sub : (opsAct0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..⟩
theorem opsLin1_sub : (opsLin1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., binary_bufs_sub .., unary_bufs_sub .., unary_bufs_sub .., binary_bufs_sub .., binary_bufs_sub .., binary_bufs_sub ..⟩
theorem opsAct1_sub : (opsAct1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..⟩
theorem opsLin2_sub : (opsLin2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., binary_bufs_sub .., unary_bufs_sub .., unary_bufs_sub .., binary_bufs_sub .., binary_bufs_sub .., binary_bufs_sub ..⟩
theorem opsAct2_sub : (opsAct2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..⟩
theorem opsLin3_sub : (opsLin3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., binary_bufs_sub .., unary_bufs_sub .., unary_bufs_sub .., binary_bufs_sub .., binary_bufs_sub .., binary_bufs_sub ..⟩
theorem opsHd0a_sub : (opsHd0a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., binary_bufs_sub ..⟩
theorem opsHd0b_sub : (opsHd0b : List (HloOp τ sig (Elt F))).Forall fun op => op.bufs ⊆ tcRefs τ sig :=
  ⟨unary_bufs_sub .., unary_bufs_sub .., binary_bufs_sub .., binary_bufs_sub .., binary_bufs_sub ..⟩
theorem opsHd1_sub : (opsHd1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., binary_bufs_sub .., unary_bufs_sub .., unary_bufs_sub .., binary_bufs_sub .., binary_bufs_sub .., binary_bufs_sub ..⟩

theorem ops_sub : (ops : List (HloOp τ sig (Elt F))).Forall fun op => op.bufs ⊆ tcRefs τ sig :=
  List.forall_iff_forall_mem.mpr fun op h => by
    simp only [ops, ops0, ops1, ops2, List.mem_append] at h
    rcases h with (h | h | h | h) | (h | h | h | h | h) | h | h
    exacts [List.forall_iff_forall_mem.mp opsPre_sub op h, List.forall_iff_forall_mem.mp opsLin0_sub op h, List.forall_iff_forall_mem.mp opsAct0_sub op h, List.forall_iff_forall_mem.mp opsLin1_sub op h, List.forall_iff_forall_mem.mp opsAct1_sub op h, List.forall_iff_forall_mem.mp opsLin2_sub op h, List.forall_iff_forall_mem.mp opsAct2_sub op h, List.forall_iff_forall_mem.mp opsLin3_sub op h, List.forall_iff_forall_mem.mp opsHd0a_sub op h, List.forall_iff_forall_mem.mp opsHd0b_sub op h, List.forall_iff_forall_mem.mp opsHd1_sub op h]

theorem opsPre_fresh : ∀ op ∈ (opsPre : List (HloOp τ sig (Elt F))), op.fresh = ∅ := by
  intro _ h; (repeat (cases h with | head => rfl | tail _ h => ?_)); exact nomatch h
theorem opsLin0_fresh : ∀ op ∈ (opsLin0 : List (HloOp τ sig (Elt F))), op.fresh = ∅ := by
  intro _ h; (repeat (cases h with | head => rfl | tail _ h => ?_)); exact nomatch h
theorem opsAct0_fresh : ∀ op ∈ (opsAct0 : List (HloOp τ sig (Elt F))), op.fresh = ∅ := by
  intro _ h; (repeat (cases h with | head => rfl | tail _ h => ?_)); exact nomatch h
theorem opsLin1_fresh : ∀ op ∈ (opsLin1 : List (HloOp τ sig (Elt F))), op.fresh = ∅ := by
  intro _ h; (repeat (cases h with | head => rfl | tail _ h => ?_)); exact nomatch h
theorem opsAct1_fresh : ∀ op ∈ (opsAct1 : List (HloOp τ sig (Elt F))), op.fresh = ∅ := by
  intro _ h; (repeat (cases h with | head => rfl | tail _ h => ?_)); exact nomatch h
theorem opsLin2_fresh : ∀ op ∈ (opsLin2 : List (HloOp τ sig (Elt F))), op.fresh = ∅ := by
  intro _ h; (repeat (cases h with | head => rfl | tail _ h => ?_)); exact nomatch h
theorem opsAct2_fresh : ∀ op ∈ (opsAct2 : List (HloOp τ sig (Elt F))), op.fresh = ∅ := by
  intro _ h; (repeat (cases h with | head => rfl | tail _ h => ?_)); exact nomatch h
theorem opsLin3_fresh : ∀ op ∈ (opsLin3 : List (HloOp τ sig (Elt F))), op.fresh = ∅ := by
  intro _ h; (repeat (cases h with | head => rfl | tail _ h => ?_)); exact nomatch h
theorem opsHd0a_fresh : ∀ op ∈ (opsHd0a : List (HloOp τ sig (Elt F))), op.fresh = ∅ := by
  intro _ h; (repeat (cases h with | head => rfl | tail _ h => ?_)); exact nomatch h
theorem opsHd0b_fresh : ∀ op ∈ (opsHd0b : List (HloOp τ sig (Elt F))), op.fresh = ∅ := by
  intro _ h; (repeat (cases h with | head => rfl | tail _ h => ?_)); exact nomatch h
theorem opsHd1_fresh : ∀ op ∈ (opsHd1 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := fun op h => by
  simp only [ops, ops0, ops1, ops2, List.mem_append] at h
  rcases h with (h | h | h | h) | (h | h | h | h | h) | h | h
  exacts [opsPre_fresh op h, opsLin0_fresh op h, opsAct0_fresh op h, opsLin1_fresh op h, opsAct1_fresh op h, opsLin2_fresh op h, opsAct2_fresh op h, opsLin3_fresh op h, opsHd0a_fresh op h, opsHd0b_fresh op h, opsHd1_fresh op h]

end Cert.ReferenceIdeal.Sage

end
-- ==== Proof.RefReadKeep.lean ====
/-
  Which buffers each stretch of the reference's operations writes, and that every other buffer keeps its contents
  through the stretch: what lets a later stretch read the edge vectors, the weights and the earlier tables unchanged.
-/
import proofs.«130929_j9491877724563_1_alg».proof.Proof.RefOps

noncomputable section

namespace Cert.ReferenceIdeal.Sage

open Cert.ReferenceIdeal Cert.ReferenceIdeal.Gen Idealize.ShloMosaic Idealize.ShloMosaic.TcCoe Idealize.SL.Sem Idealize.ShloMosaic.StableHlo

variable {F : FTy → Type} [FloatOps F]

/-- The buffers that `opsPre` writes. -/
abbrev opsPre_W : List (Ref sig .tc) := [main_v0, main_v1, main_v2, main_v3, main_cst, main_v4, main_cst_0, main_v5, main_v6, main_v7, main_cst_1, main_v8, main_v9, main_cst_2, main_v10, main_v11, main_v12]
theorem opsPre_writes : (opsPre : List (HloOp τ sig (Elt F))).Forall fun op => op.writes ⊆ (opsPre_W.map (Proc.devRef (τ := τ) .tc)).toFinset := by
  simp only [opsPre, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `opsPre` does not write keeps its contents through it. -/
theorem opsPre_keep (V : Valuation τ sig (Elt F)) (r : Ref sig .tc) (h : r ∉ opsPre_W) :
    after opsPre V (no_index (Proc.devRef .tc r)) = V (Proc.devRef .tc r) :=
  after_of_writes_sub opsPre _ opsPre_writes h

/-- The buffers that `opsLin0` writes. -/
abbrev opsLin0_W : List (Ref sig .tc) := [main_c, main_v13, main_v14, main_c_3, main_v15, main_v16, main_v17, main_v18, main_v19, main_cst_4, main_v20, main_v21, main_v22, main_v23, main_v24, main_v25, main_v26, main_v27, main_v28, main_v29, main_v30]
theorem opsLin0_writes : (opsLin0 : List (HloOp τ sig (Elt F))).Forall fun op => op.writes ⊆ (opsLin0_W.map (Proc.devRef (τ := τ) .tc)).toFinset := by
  simp only [opsLin0, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `opsLin0` does not write keeps its contents through it. -/
theorem opsLin0_keep (V : Valuation τ sig (Elt F)) (r : Ref sig .tc) (h : r ∉ opsLin0_W) :
    after opsLin0 V (no_index (Proc.devRef .tc r)) = V (Proc.devRef .tc r) :=
  after_of_writes_sub opsLin0 _ opsLin0_writes h

/-- The buffers that `opsAct0` writes. -/
abbrev opsAct0_W : List (Ref sig .tc) := [main_call0_cst, main_call0_v0, main_call0_v1, main_call0_cst_0, main_call0_v2, main_call0_v3, main_v31]
theorem opsAct0_writes : (opsAct0 : List (HloOp τ sig (Elt F))).Forall fun op => op.writes ⊆ (opsAct0_W.map (Proc.devRef (τ := τ) .tc)).toFinset := by
  simp only [opsAct0, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `opsAct0` does not write keeps its contents through it. -/
theorem opsAct0_keep (V : Valuation τ sig (Elt F)) (r : Ref sig .tc) (h : r ∉ opsAct0_W) :
    after opsAct0 V (no_index (Proc.devRef .tc r)) = V (Proc.devRef .tc r) :=
  after_of_writes_sub opsAct0 _ opsAct0_writes h

/-- The buffers that `opsLin1` writes. -/
abbrev opsLin1_W : List (Ref sig .tc) := [main_c_5, main_v32, main_v33, main_c_6, main_v34, main_v35, main_v36, main_v37, main_v38, main_cst_7, main_v39, main_v40, main_v41, main_v42, main_v43, main_v44, main_v45, main_v46, main_v47, main_v48, main_v49]
theorem opsLin1_writes : (opsLin1 : List (HloOp τ sig (Elt F))).Forall fun op => op.writes ⊆ (opsLin1_W.map (Proc.devRef (τ := τ) .tc)).toFinset := by
  simp only [opsLin1, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `opsLin1` does not write keeps its contents through it. -/
theorem opsLin1_keep (V : Valuation τ sig (Elt F)) (r : Ref sig .tc) (h : r ∉ opsLin1_W) :
    after opsLin1 V (no_index (Proc.devRef .tc r)) = V (Proc.devRef .tc r) :=
  after_of_writes_sub opsLin1 _ opsLin1_writes h

/-- The buffers that `opsAct1` writes. -/
abbrev opsAct1_W : List (Ref sig .tc) := [main_call1_cst, main_call1_v0, main_call1_v1, main_call1_cst_0, main_call1_v2, main_call1_v3, main_v50]
theorem opsAct1_writes : (opsAct1 : List (HloOp τ sig (Elt F))).Forall fun op => op.writes ⊆ (opsAct1_W.map (Proc.devRef (τ := τ) .tc)).toFinset := by
  simp only [opsAct1, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `opsAct1` does not write keeps its contents through it. -/
theorem opsAct1_keep (V : Valuation τ sig (Elt F)) (r : Ref sig .tc) (h : r ∉ opsAct1_W) :
    after opsAct1 V (no_index (Proc.devRef .tc r)) = V (Proc.devRef .tc r) :=
  after_of_writes_sub opsAct1 _ opsAct1_writes h

/-- The buffers that `opsLin2` writes. -/
abbrev opsLin2_W : List (Ref sig .tc) := [main_c_8, main_v51, main_v52, main_c_9, main_v53, main_v54, main_v55, main_v56, main_v57, main_cst_10, main_v58, main_v59, main_v60, main_v61, main_v62, main_v63, main_v64, main_v65, main_v66, main_v67, main_v68]
theorem opsLin2_writes : (opsLin2 : List (HloOp τ sig (Elt F))).Forall fun op => op.writes ⊆ (opsLin2_W.map (Proc.devRef (τ := τ) .tc)).toFinset := by
  simp only [opsLin2, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `opsLin2` does not write keeps its contents through it. -/
theorem opsLin2_keep (V : Valuation τ sig (Elt F)) (r : Ref sig .tc) (h : r ∉ opsLin2_W) :
    after opsLin2 V (no_index (Proc.devRef .tc r)) = V (Proc.devRef .tc r) :=
  after_of_writes_sub opsLin2 _ opsLin2_writes h

/-- The buffers that `opsAct2` writes. -/
abbrev opsAct2_W : List (Ref sig .tc) := [main_call2_cst, main_call2_v0, main_call2_v1, main_call2_cst_0, main_call2_v2, main_call2_v3, main_v69]
theorem opsAct2_writes : (opsAct2 : List (HloOp τ sig (Elt F))).Forall fun op => op.writes ⊆ (opsAct2_W.map (Proc.devRef (τ := τ) .tc)).toFinset := by
  simp only [opsAct2, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `opsAct2` does not write keeps its contents through it. -/
theorem opsAct2_keep (V : Valuation τ sig (Elt F)) (r : Ref sig .tc) (h : r ∉ opsAct2_W) :
    after opsAct2 V (no_index (Proc.devRef .tc r)) = V (Proc.devRef .tc r) :=
  after_of_writes_sub opsAct2 _ opsAct2_writes h

/-- The buffers that `opsLin3` writes. -/
abbrev opsLin3_W : List (Ref sig .tc) := [main_c_11, main_v70, main_v71, main_c_12, main_v72, main_v73, main_v74, main_v75, main_v76, main_cst_13, main_v77, main_v78, main_v79, main_v80, main_v81, main_v82, main_v83, main_v84, main_v85, main_v86, main_v87]
theorem opsLin3_writes : (opsLin3 : List (HloOp τ sig (Elt F))).Forall fun op => op.writes ⊆ (opsLin3_W.map (Proc.devRef (τ := τ) .tc)).toFinset := by
  simp only [opsLin3, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `opsLin3` does not write keeps its contents through it. -/
theorem opsLin3_keep (V : Valuation τ sig (Elt F)) (r : Ref sig .tc) (h : r ∉ opsLin3_W) :
    after opsLin3 V (no_index (Proc.devRef .tc r)) = V (Proc.devRef .tc r) :=
  after_of_writes_sub opsLin3 _ opsLin3_writes h

/-- The buffers that `opsHd0a` writes. -/
abbrev opsHd0a_W : List (Ref sig .tc) := [main_c_14, main_v88, main_v89, main_c_15, main_v90, main_v91, main_v92, main_v93, main_v94, main_cst_16, main_v95, main_v96, main_v97, main_v98, main_v99, main_v100]
theorem opsHd0a_writes : (opsHd0a : List (HloOp τ sig (Elt F))).Forall fun op => op.writes ⊆ (opsHd0a_W.map (Proc.devRef (τ := τ) .tc)).toFinset := by
  simp only [opsHd0a, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `opsHd0a` does not write keeps its contents through it. -/
theorem opsHd0a_keep (V : Valuation τ sig (Elt F)) (r : Ref sig .tc) (h : r ∉ opsHd0a_W) :
    after opsHd0a V (no_index (Proc.devRef .tc r)) = V (Proc.devRef .tc r) :=
  after_of_writes_sub opsHd0a _ opsHd0a_writes h

/-- The buffers that `opsHd0b` writes. -/
abbrev opsHd0b_W : List (Ref sig .tc) := [main_v101, main_v102, main_v103, main_v104, main_v105]
theorem opsHd0b_writes : (opsHd0b : List (HloOp τ sig (Elt F))).Forall fun op => op.writes ⊆ (opsHd0b_W.map (Proc.devRef (τ := τ) .tc)).toFinset := by
  simp only [opsHd0b, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `opsHd0b` does not write keeps its contents through it. -/
theorem opsHd0b_keep (V : Valuation τ sig (Elt F)) (r : Ref sig .tc) (h : r ∉ opsHd0b_W) :
    after opsHd0b V (no_index (Proc.devRef .tc r)) = V (Proc.devRef .tc r) :=
  after_of_writes_sub opsHd0b _ opsHd0b_writes h

/-- The buffers that `opsHd1` writes. -/
abbrev opsHd1_W : List (Ref sig .tc) := [main_c_17, main_v106, main_v107, main_c_18, main_v108, main_v109, main_v110, main_v111, main_v112, main_cst_19, main_v113, main_v114, main_v115, main_v116, main_v117, main_v118, main_v119, main_v120, main_v121, main_v122, main_v123]
theorem opsHd1_writes : (opsHd1 : List (HloOp τ sig (Elt F))).Forall fun op => op.writes ⊆ (opsHd1_W.map (Proc.devRef (τ := τ) .tc)).toFinset := by
  simp only [opsHd1, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `opsHd1` does not write keeps its contents through it. -/
theorem opsHd1_keep (V : Valuation τ sig (Elt F)) (r : Ref sig .tc) (h : r ∉ opsHd1_W) :
    after opsHd1 V (no_index (Proc.devRef .tc r)) = V (Proc.devRef .tc r) :=
  after_of_writes_sub opsHd1 _ opsHd1_writes h

end Cert.ReferenceIdeal.Sage

end
-- ==== Proof.RefReadPre.lean ====
/-
  What the first seventeen operations leave: the edge table's two rows as vectors, and the column of inverse
  in-degrees, as Val.lean's `srcOf`, `dstOf` and `invDeg` of the edge table's contents.
-/
import proofs.«130929_j9491877724563_1_alg».proof.Proof.RefOps
import proofs.«130929_j9491877724563_1_alg».proof.Proof.Val

noncomputable section

namespace Cert.ReferenceIdeal.Sage

open Cert.ReferenceIdeal Cert.ReferenceIdeal.Gen Idealize.ShloMosaic Idealize.ShloMosaic.TcCoe Idealize.SL.Sem Idealize.ShloMosaic.StableHlo

theorem opsPre_src (V : Valuation τ sig (Elt Ideal)) :
    after (opsPre (F := Ideal)) V (no_index (Proc.devRef .tc main_v1 : DevRef τ sig)) = srcOf (V (Proc.devRef .tc main_arg1 : DevRef τ sig)) := by
  simp only [opsPre]
  after_results_simp
  rfl

theorem opsPre_dst (V : Valuation τ sig (Elt Ideal)) :
    after (opsPre (F := Ideal)) V (no_index (Proc.devRef .tc main_v3 : DevRef τ sig)) = dstOf (V (Proc.devRef .tc main_arg1 : DevRef τ sig)) := by
  simp only [opsPre]
  after_results_simp
  rfl

theorem opsPre_inv (V : Valuation τ sig (Elt Ideal)) :
    after (opsPre (F := Ideal)) V (no_index (Proc.devRef .tc main_v12 : DevRef τ sig)) = invDeg (dstOf (V (Proc.devRef .tc main_arg1 : DevRef τ sig))) := by
  simp only [opsPre]
  after_results_simp
  rfl

end Cert.ReferenceIdeal.Sage

end
-- ==== Proof.RefReadLin0.lean ====
/-
  The first layer's dense part, read from any contents: its result buffer holds the mean aggregation of the table it reads along the
  edge vectors, times the left weight, plus the bias, plus the table times the right weight.
-/
import proofs.«130929_j9491877724563_1_alg».proof.Proof.RefOps
import proofs.«130929_j9491877724563_1_alg».proof.Proof.Val

noncomputable section

namespace Cert.ReferenceIdeal.Sage

open Cert.ReferenceIdeal Cert.ReferenceIdeal.Gen Idealize.ShloMosaic Idealize.ShloMosaic.TcCoe Idealize.SL.Sem Idealize.ShloMosaic.StableHlo

theorem opsLin0_val (V : Valuation τ sig (Elt Ideal)) :
    after (opsLin0 (F := Ideal)) V (no_index (Proc.devRef .tc main_v30 : DevRef τ sig))
      = lin256 (agg (V (Proc.devRef .tc main_v1 : DevRef τ sig)) (V (Proc.devRef .tc main_v3 : DevRef τ sig)) (V (Proc.devRef .tc main_v12 : DevRef τ sig)) (V (Proc.devRef .tc main_arg0 : DevRef τ sig))) (V (Proc.devRef .tc main_arg0 : DevRef τ sig))
          (V (Proc.devRef .tc main_arg2 : DevRef τ sig)) (V (Proc.devRef .tc main_arg3 : DevRef τ sig)) (V (Proc.devRef .tc main_arg4 : DevRef τ sig)) := by
  simp only [opsLin0]
  after_results_simp
  rfl

end Cert.ReferenceIdeal.Sage

end
-- ==== Proof.RefReadLin1.lean ====
/-
  The second layer's dense part, read from any contents: its result buffer holds the mean aggregation of the table it reads along the
  edge vectors, times the left weight, plus the bias, plus the table times the right weight.
-/
import proofs.«130929_j9491877724563_1_alg».proof.Proof.RefOps
import proofs.«130929_j9491877724563_1_alg».proof.Proof.Val

noncomputable section

namespace Cert.ReferenceIdeal.Sage

open Cert.ReferenceIdeal Cert.ReferenceIdeal.Gen Idealize.ShloMosaic Idealize.ShloMosaic.TcCoe Idealize.SL.Sem Idealize.ShloMosaic.StableHlo

theorem opsLin1_val (V : Valuation τ sig (Elt Ideal)) :
    after (opsLin1 (F := Ideal)) V (no_index (Proc.devRef .tc main_v49 : DevRef τ sig))
      = lin256 (agg (V (Proc.devRef .tc main_v1 : DevRef τ sig)) (V (Proc.devRef .tc main_v3 : DevRef τ sig)) (V (Proc.devRef .tc main_v12 : DevRef τ sig)) (V (Proc.devRef .tc main_v31 : DevRef τ sig))) (V (Proc.devRef .tc main_v31 : DevRef τ sig))
          (V (Proc.devRef .tc main_arg5 : DevRef τ sig)) (V (Proc.devRef .tc main_arg6 : DevRef τ sig)) (V (Proc.devRef .tc main_arg7 : DevRef τ sig)) := by
  simp only [opsLin1]
  after_results_simp
  rfl

end Cert.ReferenceIdeal.Sage

end
-- ==== Proof.RefReadLin2.lean ====
/-
  The third layer's dense part, read from any contents: its result buffer holds the mean aggregation of the table it reads along the
  edge vectors, times the left weight, plus the bias, plus the table times the right weight.
-/
import proofs.«130929_j9491877724563_1_alg».proof.Proof.RefOps
import proofs.«130929_j9491877724563_1_alg».proof.Proof.Val

noncomputable section

namespace Cert.ReferenceIdeal.Sage

open Cert.ReferenceIdeal Cert.ReferenceIdeal.Gen Idealize.ShloMosaic Idealize.ShloMosaic.TcCoe Idealize.SL.Sem Idealize.ShloMosaic.StableHlo

theorem opsLin2_val (V : Valuation τ sig (Elt Ideal)) :
    after (opsLin2 (F := Ideal)) V (no_index (Proc.devRef .tc main_v68 : DevRef τ sig))
      = lin256 (agg (V (Proc.devRef .tc main_v1 : DevRef τ sig)) (V (Proc.devRef .tc main_v3 : DevRef τ sig)) (V (Proc.devRef .tc main_v12 : DevRef τ sig)) (V (Proc.devRef .tc main_v50 : DevRef τ sig))) (V (Proc.devRef .tc main_v50 : DevRef τ sig))
          (V (Proc.devRef .tc main_arg8 : DevRef τ sig)) (V (Proc.devRef .tc main_arg9 : DevRef τ sig)) (V (Proc.devRef .tc main_arg10 : DevRef τ sig)) := by
  simp only [opsLin2]
  after_results_simp
  rfl

end Cert.ReferenceIdeal.Sage

end
-- ==== Proof.RefReadLin3.lean ====
/-
  The fourth layer, read from any contents: its result buffer holds the mean aggregation of the table it reads along the
  edge vectors, times the left weight, plus the bias, plus the table times the right weight.
-/
import proofs.«130929_j9491877724563_1_alg».proof.Proof.RefOps
import proofs.«130929_j9491877724563_1_alg».proof.Proof.Val

noncomputable section

namespace Cert.ReferenceIdeal.Sage

open Cert.ReferenceIdeal Cert.ReferenceIdeal.Gen Idealize.ShloMosaic Idealize.ShloMosaic.TcCoe Idealize.SL.Sem Idealize.ShloMosaic.StableHlo

theorem opsLin3_val (V : Valuation τ sig (Elt Ideal)) :
    after (opsLin3 (F := Ideal)) V (no_index (Proc.devRef .tc main_v87 : DevRef τ sig))
      = lin256 (agg (V (Proc.devRef .tc main_v1 : DevRef τ sig)) (V (Proc.devRef .tc main_v3 : DevRef τ sig)) (V (Proc.devRef .tc main_v12 : DevRef τ sig)) (V (Proc.devRef .tc main_v69 : DevRef τ sig))) (V (Proc.devRef .tc main_v69 : DevRef τ sig))
          (V (Proc.devRef .tc main_arg11 : DevRef τ sig)) (V (Proc.devRef .tc main_arg12 : DevRef τ sig)) (V (Proc.devRef .tc main_arg13 : DevRef τ sig)) := by
  simp only [opsLin3]
  after_results_simp
  rfl

end Cert.ReferenceIdeal.Sage

end
-- ==== Proof.RefReadHd0.lean ====
/-
  The first head, read from any contents (its operations are two consecutive stretches of the list).
-/
import proofs.«130929_j9491877724563_1_alg».proof.Proof.RefOps
import proofs.«130929_j9491877724563_1_alg».proof.Proof.Val

noncomputable section

namespace Cert.ReferenceIdeal.Sage

open Cert.ReferenceIdeal Cert.ReferenceIdeal.Gen Idealize.ShloMosaic Idealize.ShloMosaic.TcCoe Idealize.SL.Sem Idealize.ShloMosaic.StableHlo

theorem opsHd0_val (V : Valuation τ sig (Elt Ideal)) :
    after (opsHd0b (F := Ideal)) (after (opsHd0a (F := Ideal)) V) (no_index (Proc.devRef .tc main_v105 : DevRef τ sig))
      = lin128 (agg (V (Proc.devRef .tc main_v1 : DevRef τ sig)) (V (Proc.devRef .tc main_v3 : DevRef τ sig)) (V (Proc.devRef .tc main_v12 : DevRef τ sig)) (V (Proc.devRef .tc main_v87 : DevRef τ sig))) (V (Proc.devRef .tc main_v87 : DevRef τ sig))
          (V (Proc.devRef .tc main_arg14 : DevRef τ sig)) (V (Proc.devRef .tc main_arg15 : DevRef τ sig)) (V (Proc.devRef .tc main_arg16 : DevRef τ sig)) := by
  simp only [opsHd0a, opsHd0b]
  after_results_simp
  rfl

end Cert.ReferenceIdeal.Sage

end
-- ==== Proof.RefReadHd1.lean ====
/-
  The second head, read from any contents: its result buffer holds the mean aggregation of the table it reads along the
  edge vectors, times the left weight, plus the bias, plus the table times the right weight.
-/
import proofs.«130929_j9491877724563_1_alg».proof.Proof.RefOps
import proofs.«130929_j9491877724563_1_alg».proof.Proof.Val

noncomputable section

namespace Cert.ReferenceIdeal.Sage

open Cert.ReferenceIdeal Cert.ReferenceIdeal.Gen Idealize.ShloMosaic Idealize.ShloMosaic.TcCoe Idealize.SL.Sem Idealize.ShloMosaic.StableHlo

theorem opsHd1_val (V : Valuation τ sig (Elt Ideal)) :
    after (opsHd1 (F := Ideal)) V (no_index (Proc.devRef .tc main_v123 : DevRef τ sig))
      = lin128 (agg (V (Proc.devRef .tc main_v1 : DevRef τ sig)) (V (Proc.devRef .tc main_v3 : DevRef τ sig)) (V (Proc.devRef .tc main_v12 : DevRef τ sig)) (V (Proc.devRef .tc main_v87 : DevRef τ sig))) (V (Proc.devRef .tc main_v87 : DevRef τ sig))
          (V (Proc.devRef .tc main_arg17 : DevRef τ sig)) (V (Proc.devRef .tc main_arg18 : DevRef τ sig)) (V (Proc.devRef .tc main_arg19 : DevRef τ sig)) := by
  simp only [opsHd1]
  after_results_simp
  rfl

end Cert.ReferenceIdeal.Sage

end
-- ==== Proof.RefReadAct.lean ====
/-
  The three activations, read from any contents: the result buffer holds `leaky` of the buffer the call reads.
-/
import proofs.«130929_j9491877724563_1_alg».proof.Proof.RefOps
import proofs.«130929_j9491877724563_1_alg».proof.Proof.Val

noncomputable section

namespace Cert.ReferenceIdeal.Sage

open Cert.ReferenceIdeal Cert.ReferenceIdeal.Gen Idealize.ShloMosaic Idealize.ShloMosaic.TcCoe Idealize.SL.Sem Idealize.ShloMosaic.StableHlo

theorem opsAct0_val (V : Valuation τ sig (Elt Ideal)) :
    after (opsAct0 (F := Ideal)) V (no_index (Proc.devRef .tc main_v31 : DevRef τ sig)) = leaky (V (Proc.devRef .tc main_v30 : DevRef τ sig)) := by
  simp only [opsAct0]
  after_results_simp
  rfl

theorem opsAct1_val (V : Valuation τ sig (Elt Ideal)) :
    after (opsAct1 (F := Ideal)) V (no_index (Proc.devRef .tc main_v50 : DevRef τ sig)) = leaky (V (Proc.devRef .tc main_v49 : DevRef τ sig)) := by
  simp only [opsAct1]
  after_results_simp
  rfl

theorem opsAct2_val (V : Valuation τ sig (Elt Ideal)) :
    after (opsAct2 (F := Ideal)) V (no_index (Proc.devRef .tc main_v69 : DevRef τ sig)) = leaky (V (Proc.devRef .tc main_v68 : DevRef τ sig)) := by
  simp only [opsAct2]
  after_results_simp
  rfl

end Cert.ReferenceIdeal.Sage

end
-- ==== Proof.RefRun.lean ====
/-
  The reference's run: every weakly fair execution of its @main terminates with the two results at the stacked layers'
  values of the argument arrays (Val.lean's `head` over `trunk`) and the arguments unchanged.

  @main is a straight line of host operations (RefOpsMain.lean), so its run leaves every buffer at the fold of the
  operations over the launch contents. The fold is read stretch by stretch: the edge table's reading leaves the source and
  destination vectors and the inverse in-degrees; each layer's stretch reads those three and the previous table and leaves
  `lin256 (agg …)` of them; each activation leaves `leaky` of its operand; each head leaves `lin128 (agg …)`. No stretch
  writes a buffer a later one reads other than its own result, so the readings compose into `head` over `trunk`.
-/
import proofs.«130929_j9491877724563_1_alg».proof.Proof.Gen.ReferenceIdeal
import proofs.«130929_j9491877724563_1_alg».proof.Proof.Val
import proofs.«130929_j9491877724563_1_alg».proof.Proof.RefOpsMain
import proofs.«130929_j9491877724563_1_alg».proof.Proof.RefReadKeep
import proofs.«130929_j9491877724563_1_alg».proof.Proof.RefReadPre
import proofs.«130929_j9491877724563_1_alg».proof.Proof.RefReadLin0
import proofs.«130929_j9491877724563_1_alg».proof.Proof.RefReadLin1
import proofs.«130929_j9491877724563_1_alg».proof.Proof.RefReadLin2
import proofs.«130929_j9491877724563_1_alg».proof.Proof.RefReadLin3
import proofs.«130929_j9491877724563_1_alg».proof.Proof.RefReadHd0
import proofs.«130929_j9491877724563_1_alg».proof.Proof.RefReadHd1
import proofs.«130929_j9491877724563_1_alg».proof.Proof.RefReadAct
import Idealize.ShloMosaic.Lib.StableHlo.Run

noncomputable section

namespace Cert.ReferenceIdeal.Sage

open Cert.ReferenceIdeal Cert.ReferenceIdeal.Gen Idealize.ShloMosaic Idealize.ShloMosaic.TcCoe Idealize.SL.Sem Idealize.ShloMosaic.StableHlo

/-- The whole line's fold is the stretches' folds, one over the other. -/
theorem after_ops (V : Valuation τ sig (Elt Ideal)) :
    after (ops (F := Ideal)) V = after opsHd1 (after opsHd0b (after opsHd0a (after opsLin3 (after opsAct2 (after opsLin2 (after opsAct1 (after opsLin1 (after opsAct0 (after opsLin0 (after opsPre V)))))))))) := by
  simp only [ops, ops0, ops1, ops2, after_append]

/-- The first result: the first head of the fourth layer's table. -/
theorem out0 (V : Valuation τ sig (Elt Ideal)) :
    after (ops (F := Ideal)) V (Proc.devRef .tc main_v105 : DevRef τ sig)
      = head (V (Proc.devRef .tc main_arg1 : DevRef τ sig)) (trunk (V (Proc.devRef .tc main_arg1 : DevRef τ sig)) (V (Proc.devRef .tc main_arg0 : DevRef τ sig)) (V (Proc.devRef .tc main_arg2 : DevRef τ sig)) (V (Proc.devRef .tc main_arg3 : DevRef τ sig)) (V (Proc.devRef .tc main_arg4 : DevRef τ sig)) (V (Proc.devRef .tc main_arg5 : DevRef τ sig)) (V (Proc.devRef .tc main_arg6 : DevRef τ sig)) (V (Proc.devRef .tc main_arg7 : DevRef τ sig)) (V (Proc.devRef .tc main_arg8 : DevRef τ sig)) (V (Proc.devRef .tc main_arg9 : DevRef τ sig)) (V (Proc.devRef .tc main_arg10 : DevRef τ sig)) (V (Proc.devRef .tc main_arg11 : DevRef τ sig)) (V (Proc.devRef .tc main_arg12 : DevRef τ sig)) (V (Proc.devRef .tc main_arg13 : DevRef τ sig)))
          (V (Proc.devRef .tc main_arg14 : DevRef τ sig)) (V (Proc.devRef .tc main_arg15 : DevRef τ sig)) (V (Proc.devRef .tc main_arg16 : DevRef τ sig)) := by
  rw [after_ops]
  simp (disch := decide) only [opsPre_keep, opsLin0_keep, opsAct0_keep, opsLin1_keep, opsAct1_keep, opsLin2_keep, opsAct2_keep, opsLin3_keep, opsHd0a_keep, opsHd0b_keep, opsHd1_keep, opsPre_src, opsPre_dst, opsPre_inv, opsLin0_val, opsAct0_val, opsLin1_val, opsAct1_val, opsLin2_val, opsAct2_val, opsLin3_val, opsHd0_val, opsHd1_val, head, trunk, layer]

/-- The second result: the second head of the same table. -/
theorem out1 (V : Valuation τ sig (Elt Ideal)) :
    after (ops (F := Ideal)) V (Proc.devRef .tc main_v123 : DevRef τ sig)
      = head (V (Proc.devRef .tc main_arg1 : DevRef τ sig)) (trunk (V (Proc.devRef .tc main_arg1 : DevRef τ sig)) (V (Proc.devRef .tc main_arg0 : DevRef τ sig)) (V (Proc.devRef .tc main_arg2 : DevRef τ sig)) (V (Proc.devRef .tc main_arg3 : DevRef τ sig)) (V (Proc.devRef .tc main_arg4 : DevRef τ sig)) (V (Proc.devRef .tc main_arg5 : DevRef τ sig)) (V (Proc.devRef .tc main_arg6 : DevRef τ sig)) (V (Proc.devRef .tc main_arg7 : DevRef τ sig)) (V (Proc.devRef .tc main_arg8 : DevRef τ sig)) (V (Proc.devRef .tc main_arg9 : DevRef τ sig)) (V (Proc.devRef .tc main_arg10 : DevRef τ sig)) (V (Proc.devRef .tc main_arg11 : DevRef τ sig)) (V (Proc.devRef .tc main_arg12 : DevRef τ sig)) (V (Proc.devRef .tc main_arg13 : DevRef τ sig)))
          (V (Proc.devRef .tc main_arg17 : DevRef τ sig)) (V (Proc.devRef .tc main_arg18 : DevRef τ sig)) (V (Proc.devRef .tc main_arg19 : DevRef τ sig)) := by
  rw [after_ops]
  simp (disch := decide) only [opsPre_keep, opsLin0_keep, opsAct0_keep, opsLin1_keep, opsAct1_keep, opsLin2_keep, opsAct2_keep, opsLin3_keep, opsHd0a_keep, opsHd0b_keep, opsHd1_keep, opsPre_src, opsPre_dst, opsPre_inv, opsLin0_val, opsAct0_val, opsLin1_val, opsAct1_val, opsLin2_val, opsAct2_val, opsLin3_val, opsHd0_val, opsHd1_val, head, trunk, layer]

/-- A buffer no stretch writes (an argument) keeps its launch contents. -/
theorem ops_keep (V : Valuation τ sig (Elt Ideal)) (r : Ref sig .tc)
    (h0 : r ∉ opsPre_W := by decide) (h1 : r ∉ opsLin0_W := by decide) (h2 : r ∉ opsAct0_W := by decide) (h3 : r ∉ opsLin1_W := by decide) (h4 : r ∉ opsAct1_W := by decide) (h5 : r ∉ opsLin2_W := by decide) (h6 : r ∉ opsAct2_W := by decide) (h7 : r ∉ opsLin3_W := by decide) (h8 : r ∉ opsHd0a_W := by decide) (h9 : r ∉ opsHd0b_W := by decide) (h10 : r ∉ opsHd1_W := by decide) :
    after (ops (F := Ideal)) V (Proc.devRef .tc r) = V (Proc.devRef .tc r) := by
  rw [after_ops, opsHd1_keep _ r h10, opsHd0b_keep _ r h9, opsHd0a_keep _ r h8, opsLin3_keep _ r h7, opsAct2_keep _ r h6, opsLin2_keep _ r h5, opsAct1_keep _ r h4, opsLin1_keep _ r h3, opsAct0_keep _ r h2, opsLin0_keep _ r h1, opsPre_keep _ r h0]

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v105) = head (m ((c.tc : Thread nD τ).loc main_arg1)) (trunk (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (m ((c.tc : Thread nD τ).loc main_arg14)) (m ((c.tc : Thread nD τ).loc main_arg15)) (m ((c.tc : Thread nD τ).loc main_arg16))
      ∧ r.2.mem ((c.tc : Thread nD τ).loc main_v123) = head (m ((c.tc : Thread nD τ).loc main_arg1)) (trunk (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (m ((c.tc : Thread nD τ).loc main_arg17)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run (defs (F := Ideal)) _ _).mono (fun _ h c => ⟨(h c main_v105).trans (out0 _), (h c main_v123).trans (out1 _),
      (h c main_arg0).trans (ops_keep _ main_arg0),
      (h c main_arg1).trans (ops_keep _ main_arg1),
      (h c main_arg2).trans (ops_keep _ main_arg2),
      (h c main_arg3).trans (ops_keep _ main_arg3),
      (h c main_arg4).trans (ops_keep _ main_arg4),
      (h c main_arg5).trans (ops_keep _ main_arg5),
      (h c main_arg6).trans (ops_keep _ main_arg6),
      (h c main_arg7).trans (ops_keep _ main_arg7),
      (h c main_arg8).trans (ops_keep _ main_arg8),
      (h c main_arg9).trans (ops_keep _ main_arg9),
      (h c main_arg10).trans (ops_keep _ main_arg10),
      (h c main_arg11).trans (ops_keep _ main_arg11),
      (h c main_arg12).trans (ops_keep _ main_arg12),
      (h c main_arg13).trans (ops_keep _ main_arg13),
      (h c main_arg14).trans (ops_keep _ main_arg14),
      (h c main_arg15).trans (ops_keep _ main_arg15),
      (h c main_arg16).trans (ops_keep _ main_arg16),
      (h c main_arg17).trans (ops_keep _ main_arg17),
      (h c main_arg18).trans (ops_keep _ main_arg18),
      (h c main_arg19).trans (ops_keep _ main_arg19)⟩)
    (run_seq scopedRefs_eq scopedSems_eq (defs (F := Ideal)) (main (F := Ideal)) (fun _ => ops) main_eq (fun _ => ops_sub) m ρ
      (fun _ => ops_fresh))

end Cert.ReferenceIdeal.Sage

end
-- ==== Proof.lean ====
/-
  A six-layer graph network on 50000 nodes and 800000 edges, as a Pallas kernel per layer against plain jnp.

  Each layer sends a node table h to  agg h · Wl + b + h · Wr  (agg: the mean of the rows h (src e) over the edges into a
  node, by a host gather, a scatter-add and the inverse degree), followed in the first three layers by
  leaky s = if s ≥ 0 then s else 0.01 · s; two heads of width 128 read the fourth table.  Both programs do the
  aggregation with the same host operations.  The dense part is, in the reference, two dot_generals associated
  (a·Wl + b) + h·Wr, and in the kernel, per block of 2000 rows, two matrix products into a zero accumulator (after a
  rounding to bf16 that is the identity over the extended reals) associated (a·Wl + h·Wr) + b: equal because addition of
  extended reals is commutative and associative, whatever the entries (no finiteness is used).

  Val.lean spells the mathematics once.  KReg0..5 show each region's output array is the layer's value of the arrays it
  reads; KHost / KChain follow the kernel program's buffers through its twelve segments to the two results; RefRun does
  the same for the reference's one straight line.  Here the two runs are put side by side.
-/
import proofs.«130929_j9491877724563_1_alg».proof.Defs
import proofs.«130929_j9491877724563_1_alg».proof.Proof.Gen.Kernel
import proofs.«130929_j9491877724563_1_alg».proof.Proof.Gen.Kernel.Frame
import proofs.«130929_j9491877724563_1_alg».proof.Proof.Gen.KernelIdeal
import proofs.«130929_j9491877724563_1_alg».proof.Proof.Gen.KernelIdeal.Frame
import proofs.«130929_j9491877724563_1_alg».proof.Proof.Gen.ReferenceIdeal
import proofs.«130929_j9491877724563_1_alg».proof.Proof.Gen.Pre_finite_inputs
import proofs.«130929_j9491877724563_1_alg».proof.Proof.KChain
import proofs.«130929_j9491877724563_1_alg».proof.Proof.KReg0
import proofs.«130929_j9491877724563_1_alg».proof.Proof.KReg1
import proofs.«130929_j9491877724563_1_alg».proof.Proof.KReg2
import proofs.«130929_j9491877724563_1_alg».proof.Proof.KReg3
import proofs.«130929_j9491877724563_1_alg».proof.Proof.KReg4
import proofs.«130929_j9491877724563_1_alg».proof.Proof.KReg5
import proofs.«130929_j9491877724563_1_alg».proof.Proof.RefRun
import Idealize.ShloMosaic.Adequacy
import Idealize.ShloMosaic.Init

noncomputable section

namespace Cert.Proof

open Idealize.ShloMosaic Idealize.SL.Sem

/-- The six regions, each as one whole-array function of the arrays it reads. -/
theorem regions : Cert.KernelIdeal.SageK.Regions :=
  ⟨Cert.KernelIdeal.SageK.region0, Cert.KernelIdeal.SageK.region1, Cert.KernelIdeal.SageK.region2,
   Cert.KernelIdeal.SageK.region3, Cert.KernelIdeal.SageK.region4, Cert.KernelIdeal.SageK.region5⟩

theorem frame_k : Cert.frame_Kernel := fun m ρ _ => Cert.Kernel.Gen.frame m ρ

theorem frame_ki : Cert.frame_KernelIdeal := fun m ρ _ => Cert.KernelIdeal.Gen.frame m ρ

/-- The reference's frame is its run with the two results forgotten. -/
theorem frame_ri : Cert.frame_ReferenceIdeal := fun m ρ _ =>
  (θ_run Cert.ReferenceIdeal.defs _ _).mono (fun _ h c => (h c).2.2) (Cert.ReferenceIdeal.Sage.run m ρ)

/-- The ideal pass rewrote nothing: the idealized kernel is the kernel's own text read over the extended reals. -/
theorem preserves : Cert.preserves_Kernel_KernelIdeal := trivial

/-- Both programs, from memories agreeing on the arguments, end with the two heads of the fourth table of the SAME
    argument arrays: the kernel by its run through the six layers, the reference by its run, the arguments' agreement
    rewritten. -/
theorem algebraic : Cert.algebraic_KernelIdeal_ReferenceIdeal := by
  intro m ρ m' ρ' _ hagree
  refine ⟨_, _, Cert.KernelIdeal.SageK.run m regions ρ, ?_⟩
  refine (θ_run Cert.ReferenceIdeal.defs _ _).mono (fun r h c => ?_) (Cert.ReferenceIdeal.Sage.run m' ρ')
  obtain ⟨h0, h1, h2, h3, h4, h5, h6, h7, h8, h9, h10, h11, h12, h13, h14, h15, h16, h17, h18, h19⟩ := hagree c
  refine ⟨(h c).1.trans ?_, (h c).2.1.trans ?_, (h c).2.2⟩
  · rw [h0, h1, h2, h3, h4, h5, h6, h7, h8, h9, h10, h11, h12, h13, h14, h15, h16]
  · rw [h0, h1, h2, h3, h4, h5, h6, h7, h8, h9, h10, h11, h12, h13, h17, h18, h19]

theorem claim : Cert.Claim :=
  ⟨Cert.Kernel.Gen.facts, Cert.KernelIdeal.Gen.facts, Cert.ReferenceIdeal.Gen.facts, Cert.Pre_finite_inputs.Gen.facts,
   frame_k, frame_ki, frame_ri, preserves, algebraic⟩

end Cert.Proof

end
